-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024x1024 : Shape := ⟨2, ![1024, 1024]⟩
abbrev S1024 : Shape := ⟨1, ![1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S2x2048x1024 .f32) (main_arg1 : FVec F S1024x1024 .f32) (main_arg2 : FVec F S1024x1024 .f32) (main_arg3 : FVec F S1024x1024 .f32) (main_arg4 : FVec F S1024x1024 .f32) (main_arg5 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_v13 main_v16
-- ==== Kernel.lean ====
abbrev S2x2048x1024 : Shape := ⟨3, ![2, 2048, 1024]⟩
abbrev S1024x1024 : Shape := ⟨2, ![1024, 1024]⟩
abbrev S1024 : Shape := ⟨1, ![1024]⟩
abbrev S4096x1024 : Shape := ⟨2, ![4096, 1024]⟩
abbrev S1024x3072 : Shape := ⟨2, ![1024, 3072]⟩
abbrev S512x1024 : Shape := ⟨2, ![512, 1024]⟩
abbrev S512x3072 : Shape := ⟨2, ![512, 3072]⟩
abbrev S2x2048x16x64 : Shape := ⟨4, ![2, 2048, 16, 64]⟩
abbrev S2x16x2048x64 : Shape := ⟨4, ![2, 16, 2048, 64]⟩
abbrev S1x1x512x64 : Shape := ⟨4, ![1, 1, 512, 64]⟩
abbrev S1x1x2048x64 : Shape := ⟨4, ![1, 1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 30
  | .vmem => 23
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S2x2048x1024, .bf16⟩
  | .hbm, ⟨7, _⟩ => ⟨S4096x1024, .bf16⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x3072, .f32⟩
  | .hbm, ⟨12, _⟩ => ⟨S1024x3072, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S2x2048x16x64, .bf16⟩
  | .hbm, ⟨17, _⟩ => ⟨S2x16x2048x64, .bf16⟩
  | .hbm, ⟨18, _⟩ => ⟨S2x2048x16x64, .bf16⟩
  | .hbm, ⟨19, _⟩ => ⟨S2x16x2048x64, .bf16⟩
  | .hbm, ⟨20, _⟩ => ⟨S2x2048x16x64, .bf16⟩
  | .hbm, ⟨21, _⟩ => ⟨S2x16x2048x64, .bf16⟩
  | .hbm, ⟨22, _⟩ => ⟨S2x16x2048x64, .bf16⟩
  | .hbm, ⟨23, _⟩ => ⟨S2x2048x16x64, .bf16⟩
  | .hbm, ⟨24, _⟩ => ⟨S4096x1024, .bf16⟩
  | .hbm, ⟨25, _⟩ => ⟨S1024x1024, .f32⟩
  | .hbm, ⟨26, _⟩ => ⟨S1024x1024, .bf16⟩
  | .hbm, ⟨27, _⟩ => ⟨S1x1024, .f32⟩
  | .hbm, ⟨28, _⟩ => ⟨S4096x1024, .f32⟩
  | .hbm, ⟨29, _⟩ => ⟨S2x2048x1024, .f32⟩
  | .local _ .vmem, ⟨0, _⟩ => ⟨S512x1024, .bf16⟩
  | .local _ .vmem, ⟨1, _⟩ => ⟨S512x1024, .bf16⟩
  | .local _ .vmem, ⟨2, _⟩ => ⟨S1024x3072, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S1x1x512x64, .bf16⟩
  | .local _ .vmem, ⟨10, _⟩ => ⟨S1x1x512x64, .bf16⟩
  | .local _ .vmem, ⟨11, _⟩ => ⟨S1x1x2048x64, .bf16⟩
  | .local _ .vmem, ⟨12, _⟩ => ⟨S1x1x2048x64, .bf16⟩
  | .local _ .vmem, ⟨13, _⟩ => ⟨S1x1x2048x64, .bf16⟩
  | .local _ .vmem, ⟨14, _⟩ => ⟨S1x1x2048x64, .bf16⟩
  | .local _ .vmem, ⟨15, _⟩ => ⟨S1x1x512x64, .bf16⟩
  | .local _ .vmem, ⟨16, _⟩ => ⟨S1x1x512x64, .bf16⟩
  | .local _ .vmem, ⟨17, _⟩ => ⟨S512x1024, .bf16⟩
  | .local _ .vmem, ⟨18, _⟩ => ⟨S512x1024, .bf16⟩
  | .local _ .vmem, ⟨19, _⟩ => ⟨S1024x1024, .bf16⟩
  | .local _ .vmem, ⟨20, _⟩ => ⟨S1x1024, .f32⟩
  | .local _ .vmem, ⟨21, _⟩ => ⟨S512x1024, .f32⟩
  | .local _ .vmem, ⟨22, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![2, 16, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x512x64 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bitsLt_bf16_f32 : FTy.bits .bf16 < FTy.bits .f32
  shapeCasts_S2x2048x1024_S4096x1024 : S2x2048x1024.ShapeCasts S4096x1024
  transposes_S1024x1024_S1024x1024_1_0 : S1024x1024.Transposes [1, 0] S1024x1024
  concatenates_S1024x1024_S1024x1024_S1024x1024_S1024x3072_d1 : Shape.Concatenates [S1024x1024, S1024x1024, S1024x1024] S1024x3072 1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  slices_S512x3072_o0_0_S512x1024 : S512x3072.Slices ![0, 0] S512x1024
  packedbf16_S512x1024_S512x1024_0_0 : (Rect.unit (s := S512x1024) ![0, 0] S512x1024.size inb_S512x1024_S512x1024_0_0).PackedRows (EltTy.packing .bf16)
  slices_S512x3072_o0_1024_S512x1024 : S512x3072.Slices ![0, 1024] S512x1024
  slices_S512x3072_o0_2048_S512x1024 : S512x3072.Slices ![0, 2048] S512x1024
  shapeCasts_S4096x1024_S2x2048x16x64 : S4096x1024.ShapeCasts S2x2048x16x64
  transposes_S2x2048x16x64_S2x16x2048x64_0_2_1_3 : S2x2048x16x64.Transposes [0, 2, 1, 3] S2x16x2048x64
  inb_S1x1x512x64_S1x1x512x64_0_0_0_0 : ∀ a, (![0, 0, 0, 0] : Fin 4 → Nat) a + S1x1x512x64.size a ≤ S1x1x512x64.size a
  h_S1x1x512x64 : 0 < S1x1x512x64.numel
  shapeCasts_S1x1x512x64_S512x64 : S1x1x512x64.ShapeCasts S512x64
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  broadcasts_S512x1_S512x64 : S512x1.Broadcasts S512x64
  shapeCasts_S512x64_S1x1x512x64 : S512x64.ShapeCasts S1x1x512x64
  packedbf16_S1x1x512x64_S1x1x512x64_0_0_0_0 : (Rect.unit (s := S1x1x512x64) ![0, 0, 0, 0] S1x1x512x64.size inb_S1x1x512x64_S1x1x512x64_0_0_0_0).PackedRows (EltTy.packing .bf16)
  transposes_S2x16x2048x64_S2x2048x16x64_0_2_1_3 : S2x16x2048x64.Transposes [0, 2, 1, 3] S2x2048x16x64
  shapeCasts_S2x2048x16x64_S4096x1024 : S2x2048x16x64.ShapeCasts S4096x1024
  shapeCasts_S1024_S1x1024 : S1024.ShapeCasts S1x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S4096x1024_S2x2048x1024 : S4096x1024.ShapeCasts S2x2048x1024
  dot_S512x1024_S1024x3072_S512x3072_1_0_0_1_n_n_wf : DotDims.WF S512x1024 S1024x3072 S512x3072 [1] [0] [0] [1] [] []
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x1024.size a
  hwx0_2 : ∀ i : grid0.Coords, EltTy.bits .bf16 = 32 ∨ (Rect.block (s := S4096x1024) S512x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x1024.size a
  hwx0_3 : ∀ i : grid0.Coords, EltTy.bits .bf16 = 32 ∨ (Rect.block (s := S4096x1024) S512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S4096x1024.size a
  hwx0_4 : ∀ i : grid0.Coords, EltTy.bits .bf16 = 32 ∨ (Rect.block (s := S4096x1024) S512x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512x64.size a ≤ S2x16x2048x64.size a
  hwx1_0 : ∀ i : grid1.Coords, EltTy.bits .bf16 = 32 ∨ (Rect.block (s := S2x16x2048x64) S1x1x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048x64.size a ≤ S2x16x2048x64.size a
  hwx1_1 : ∀ i : grid1.Coords, EltTy.bits .bf16 = 32 ∨ (Rect.block (s := S2x16x2048x64) S1x1x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x2048x64.size a ≤ S2x16x2048x64.size a
  hwx1_2 : ∀ i : grid1.Coords, EltTy.bits .bf16 = 32 ∨ (Rect.block (s := S2x16x2048x64) S1x1x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512x64.size a ≤ S2x16x2048x64.size a
  hwx1_3 : ∀ i : grid1.Coords, EltTy.bits .bf16 = 32 ∨ (Rect.block (s := S2x16x2048x64) S1x1x512x64.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf
def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7_0) S512x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7_1) S512x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v7_2) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v9) S1x1x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1x1x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x1x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1x512x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v16) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v18) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v20) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S2x2048x1024 : Shape := ⟨3, ![2, 2048, 1024]⟩
abbrev S1024x1024 : Shape := ⟨2, ![1024, 1024]⟩
abbrev S1024 : Shape := ⟨1, ![1024]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S2x2048x1024, .f32⟩
  | .hbm, ⟨7, _⟩ => ⟨S2x2048x16x64, .f32⟩
  | .hbm, ⟨8, _⟩ => ⟨S2x16x2048x64, .f32⟩
  | .hbm, ⟨9, _⟩ => ⟨S2x2048x1024, .f32⟩
  | .hbm, ⟨10, _⟩ => ⟨S2x2048x16x64, .f32⟩
  | .hbm, ⟨11, _⟩ => ⟨S2x16x2048x64, .f32⟩
  | .hbm, ⟨12, _⟩ => ⟨S2x2048x1024, .f32⟩
  | .hbm, ⟨13, _⟩ => ⟨S2x2048x16x64, .f32⟩
  | .hbm, ⟨14, _⟩ => ⟨S2x16x2048x64, .f32⟩
  | .hbm, ⟨15, _⟩ => ⟨S2x16x2048x2048, .f32⟩
  | .hbm, ⟨16, _⟩ => ⟨S_, .f32⟩
  | .hbm, ⟨17, _⟩ => ⟨S2x16x2048x2048, .f32⟩
  | .hbm, ⟨18, _⟩ => ⟨S2x16x2048x2048, .f32⟩
  | .hbm, ⟨19, _⟩ => ⟨S_, .f32⟩
  | .hbm, ⟨20, _⟩ => ⟨S2x16x2048, .f32⟩
  | .hbm, ⟨21, _⟩ => ⟨S_, .f32⟩
  | .hbm, ⟨22, _⟩ => ⟨S2x16x2048, .f32⟩
  | .hbm, ⟨23, _⟩ => ⟨S2x16x2048, .f32⟩
  | .hbm, ⟨24, _⟩ => ⟨S2x16x2048x1, .f32⟩
  | .hbm, ⟨25, _⟩ => ⟨S2x16x2048x2048, .f32⟩
  | .hbm, ⟨26, _⟩ => ⟨S2x16x2048x2048, .f32⟩
  | .hbm, ⟨27, _⟩ => ⟨S2x16x2048x2048, .f32⟩
  | .hbm, ⟨28, _⟩ => ⟨S_, .f32⟩
  | .hbm, ⟨29, _⟩ => ⟨S2x16x2048, .f32⟩
  | .hbm, ⟨30, _⟩ => ⟨S2x16x2048x1, .f32⟩
  | .hbm, ⟨31, _⟩ => ⟨S2x16x2048x2048, .f32⟩
  | .hbm, ⟨32, _⟩ => ⟨S2x16x2048x2048, .f32⟩
  | .hbm, ⟨33, _⟩ => ⟨S2x16x2048x64, .f32⟩
  | .hbm, ⟨34, _⟩ => ⟨S2x2048x16x64, .f32⟩
  | .hbm, ⟨35, _⟩ => ⟨S2x2048x1024, .f32⟩
  | .hbm, ⟨36, _⟩ => ⟨S2x2048x1024, .f32⟩
  | .hbm, ⟨37, _⟩ => ⟨S1x1x1024, .f32⟩
  | .hbm, ⟨38, _⟩ => ⟨S2x2048x1024, .f32⟩
  | .hbm, ⟨39, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]

class Facts₀ : Prop where
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KRegion0.lean ====
/-
  Region 0 of the program, at any float instance: the body's run on whole staging buffers, what it leaves in each
  output buffer as a function of the input blocks, and the pipeline library's body obligation at every grid point.
-/
import proofs.«177362_j16192026706464_2_alg».proof.Proof.Gen.Kernel.Launch
import proofs.«177362_j16192026706464_2_alg».proof.Proof.Gen.Kernel.Skeleton
import proofs.«177362_j16192026706464_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The fused Q/K/V projection's pallas_call: one 512-row tile of the activations per grid point against the whole
    concatenated weight, three output tiles -/
/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    kept it from the point before (its block index has then not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or
    kept it from the point before (its block index has then not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_S512x1024 : Rect S512x1024 := Rect.unit (s := S512x1024) ![0, 0] S512x1024.size inb_S512x1024_S512x1024_0_0
abbrev r0_S1024x3072 : Rect S1024x3072 := Rect.unit (s := S1024x3072) ![0, 0] S1024x3072.size inb_S1024x3072_S1024x3072_0_0

/-- Output window 2's staging buffer after the body, as a function of the input blocks: its one store, the payload
    written through the whole-buffer rectangle. -/
def out0_2 (x0 : Vec F S512x1024 .bf16) (x1 : Vec F S1024x3072 .bf16) : Vec F S512x1024 .bf16 :=
  View.canon [⟨r0_S512x1024, k0_pay2 (View.ld x0 r0_S512x1024) (View.ld x1 r0_S1024x3072)⟩]

/-- The one store's rectangle is the whole buffer, so it covers every index. -/
theorem cover0_2 (p0 : Vec F S512x1024 .bf16) (y : S512x1024.Idx) :
    ∃ pc ∈ ([⟨r0_S512x1024, p0⟩] : List (View.Piece (Elt F) S512x1024 .bf16)), y ∈ pc.1.set :=
  View.cover_of_tiled [⟨r0_S512x1024, p0⟩] S512x1024.size (by rfl) y

/-- Output window 3's staging buffer after the body, as a function of the input blocks: its one store, the payload
    written through the whole-buffer rectangle. -/
def out0_3 (x0 : Vec F S512x1024 .bf16) (x1 : Vec F S1024x3072 .bf16) : Vec F S512x1024 .bf16 :=
  View.canon [⟨r0_S512x1024, k0_pay3 (View.ld x0 r0_S512x1024) (View.ld x1 r0_S1024x3072)⟩]

/-- The one store's rectangle is the whole buffer, so it covers every index. -/
theorem cover0_3 (p0 : Vec F S512x1024 .bf16) (y : S512x1024.Idx) :
    ∃ pc ∈ ([⟨r0_S512x1024, p0⟩] : List (View.Piece (Elt F) S512x1024 .bf16)), y ∈ pc.1.set :=
  View.cover_of_tiled [⟨r0_S512x1024, p0⟩] S512x1024.size (by rfl) y

/-- Output window 4's staging buffer after the body, as a function of the input blocks: its one store, the payload
    written through the whole-buffer rectangle. -/
def out0_4 (x0 : Vec F S512x1024 .bf16) (x1 : Vec F S1024x3072 .bf16) : Vec F S512x1024 .bf16 :=
  View.canon [⟨r0_S512x1024, k0_pay4 (View.ld x0 r0_S512x1024) (View.ld x1 r0_S1024x3072)⟩]

/-- The one store's rectangle is the whole buffer, so it covers every index. -/
theorem cover0_4 (p0 : Vec F S512x1024 .bf16) (y : S512x1024.Idx) :
    ∃ pc ∈ ([⟨r0_S512x1024, p0⟩] : List (View.Piece (Elt F) S512x1024 .bf16)), y ∈ pc.1.set :=
  View.cover_of_tiled [⟨r0_S512x1024, p0⟩] S512x1024.size (by rfl) y

set_option maxHeartbeats 4000000 in
/-- The body's triple: on whole staging buffers, the inputs' holding `x` and the outputs' anything, the body runs to its
    return with the inputs' buffers as they were and each output's buffer at `out0_w` of the inputs. -/
theorem sound_kernel0 (c : Dev nD) (E : Set ℕ) (i : grid0.Coords) (arg0 : Memref sig .tc .vmem S512x1024 .bf16) (harg0 : arg0.IsWhole) (arg1 : Memref sig .tc .vmem S1024x3072 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole)
    (x0 : Vec F S512x1024 .bf16) (x1 : Vec F S1024x3072 .bf16) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1)) -∗ K ⟨⟩))
      ⊢ wp frame (wpE (defs₀ (F := F)) Variants.none c none) E (cc0__qkv_kernel i arg0 harg0 arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The proof data of this pipeline on core `c`: the arrays as the region finds them; after the body at point `t` each
    input's buffer at its block and each output's at `out0_w` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the pipeline calls the body with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what the body returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any grid point: the inputs' buffers hold their blocks, so the body's triple applies; the invariant and
    the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every grid point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KRegion1.lean ====
/-
  Region 1 of the program, at any float instance: the body's run on whole staging buffers, what it leaves in each
  output buffer as a function of the input blocks, and the pipeline library's body obligation at every grid point.
-/
import proofs.«177362_j16192026706464_2_alg».proof.Proof.Gen.Kernel.Launch
import proofs.«177362_j16192026706464_2_alg».proof.Proof.Gen.Kernel.Skeleton
import proofs.«177362_j16192026706464_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The attention pallas_call: per (batch, head, query tile) one 512-row tile of queries against the head's whole
    keys and values, one output tile -/
/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from the point before (its block index has then not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, whether the pipeline fetched it there or
    kept it from the point before (its block index has then not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, whether the pipeline fetched it there or
    kept it from the point before (its block index has then not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_S1x1x512x64 : Rect S1x1x512x64 := Rect.unit (s := S1x1x512x64) ![0, 0, 0, 0] S1x1x512x64.size inb_S1x1x512x64_S1x1x512x64_0_0_0_0
abbrev r1_S1x1x2048x64 : Rect S1x1x2048x64 := Rect.unit (s := S1x1x2048x64) ![0, 0, 0, 0] S1x1x2048x64.size inb_S1x1x2048x64_S1x1x2048x64_0_0_0_0

/-- Output window 3's staging buffer after the body, as a function of the input blocks: its one store, the payload
    written through the whole-buffer rectangle. -/
def out1_3 (x0 : Vec F S1x1x512x64 .bf16) (x1 : Vec F S1x1x2048x64 .bf16) (x2 : Vec F S1x1x2048x64 .bf16) : Vec F S1x1x512x64 .bf16 :=
  View.canon [⟨r1_S1x1x512x64, k1_pay1 (View.ld x0 r1_S1x1x512x64) (View.ld x1 r1_S1x1x2048x64) (View.ld x2 r1_S1x1x2048x64)⟩]

/-- The one store's rectangle is the whole buffer, so it covers every index. -/
theorem cover1_3 (p0 : Vec F S1x1x512x64 .bf16) (y : S1x1x512x64.Idx) :
    ∃ pc ∈ ([⟨r1_S1x1x512x64, p0⟩] : List (View.Piece (Elt F) S1x1x512x64 .bf16)), y ∈ pc.1.set :=
  View.cover_of_tiled [⟨r1_S1x1x512x64, p0⟩] S1x1x512x64.size (by rfl) y

set_option maxHeartbeats 4000000 in
/-- The body's triple: on whole staging buffers, the inputs' holding `x` and the outputs' anything, the body runs to its
    return with the inputs' buffers as they were and each output's buffer at `out1_w` of the inputs. -/
theorem sound_kernel1 (c : Dev nD) (E : Set ℕ) (i : grid1.Coords) (arg0 : Memref sig .tc .vmem S1x1x512x64 .bf16) (harg0 : arg0.IsWhole) (arg1 : Memref sig .tc .vmem S1x1x2048x64 .bf16) (harg1 : arg1.IsWhole) (arg2 : Memref sig .tc .vmem S1x1x2048x64 .bf16) (harg2 : arg2.IsWhole) (arg3 : Memref sig .tc .vmem S1x1x512x64 .bf16) (harg3 : arg3.IsWhole)
    (x0 : Vec F S1x1x512x64 .bf16) (x1 : Vec F S1x1x2048x64 .bf16) (x2 : Vec F S1x1x2048x64 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body at point `t` each
    input's buffer at its block and each output's at `out1_w` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the pipeline calls the body with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what the body returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' buffers hold their blocks, so the body's triple applies; the invariant and
    the core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every grid point. -/
theorem body_obligation1 (c : Dev nD) : BodyObligation (dat1 (F := F) V c) (defs₀ (F := F)) Variants.none () Set.univ := fun t => by
  rw [bigSep_W1, bigSep_W1]
  exact sound_body1 V c t

end Cert.Kernel.Frame

end
-- ==== Proof.KRegion2.lean ====
/-
  Region 2 of the program, at any float instance: the body's run on whole staging buffers, what it leaves in each
  output buffer as a function of the input blocks, and the pipeline library's body obligation at every grid point.
-/
import proofs.«177362_j16192026706464_2_alg».proof.Proof.Gen.Kernel.Launch
import proofs.«177362_j16192026706464_2_alg».proof.Proof.Gen.Kernel.Skeleton
import proofs.«177362_j16192026706464_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The output projection's pallas_call: one 512-row tile of the attention output per grid point against the whole
    weight, plus the bias row -/
/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or
    kept it from the point before (its block index has then not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, whether the pipeline fetched it there or
    kept it from the point before (its block index has then not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, whether the pipeline fetched it there or
    kept it from the point before (its block index has then not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_S512x1024 : Rect S512x1024 := Rect.unit (s := S512x1024) ![0, 0] S512x1024.size inb_S512x1024_S512x1024_0_0
abbrev r2_S1024x1024 : Rect S1024x1024 := Rect.unit (s := S1024x1024) ![0, 0] S1024x1024.size inb_S1024x1024_S1024x1024_0_0
abbrev r2_S1x1024 : Rect S1x1024 := Rect.unit (s := S1x1024) ![0, 0] S1x1024.size inb_S1x1024_S1x1024_0_0

/-- Output window 3's staging buffer after the body, as a function of the input blocks: its one store, the payload
    written through the whole-buffer rectangle. -/
def out2_3 (x0 : Vec F S512x1024 .bf16) (x1 : Vec F S1024x1024 .bf16) (x2 : Vec F S1x1024 .f32) : Vec F S512x1024 .f32 :=
  View.canon [⟨r2_S512x1024, k2_pay1 (View.ld x0 r2_S512x1024) (View.ld x1 r2_S1024x1024) (View.ld x2 r2_S1x1024)⟩]

/-- The one store's rectangle is the whole buffer, so it covers every index. -/
theorem cover2_3 (p0 : Vec F S512x1024 .f32) (y : S512x1024.Idx) :
    ∃ pc ∈ ([⟨r2_S512x1024, p0⟩] : List (View.Piece (Elt F) S512x1024 .f32)), y ∈ pc.1.set :=
  View.cover_of_tiled [⟨r2_S512x1024, p0⟩] S512x1024.size (by rfl) y

set_option maxHeartbeats 4000000 in
/-- The body's triple: on whole staging buffers, the inputs' holding `x` and the outputs' anything, the body runs to its
    return with the inputs' buffers as they were and each output's buffer at `out2_w` of the inputs. -/
theorem sound_kernel2 (c : Dev nD) (E : Set ℕ) (i : grid2.Coords) (arg0 : Memref sig .tc .vmem S512x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S512x1024 .f32) (harg3 : arg3.IsWhole)
    (x0 : Vec F S512x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body at point `t` each
    input's buffer at its block and each output's at `out2_w` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the pipeline calls the body with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what the body returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the inputs' buffers hold their blocks, so the body's triple applies; the invariant and
    the core's dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every grid point. -/
theorem body_obligation2 (c : Dev nD) : BodyObligation (dat2 (F := F) V c) (defs₀ (F := F)) Variants.none () Set.univ := fun t => by
  rw [bigSep_W2, bigSep_W2]
  exact sound_body2 V c t

end Cert.Kernel.Frame

end
-- ==== Proof.KRun.lean ====
/-
  The whole run of the program, at any float instance: the buffers' contents at every boundary between a stretch of
  host operations and a pallas_call, folded from the launch memory; the three pallas_calls as segments of the
  several-region launch theorem; and the run itself — every weakly fair execution terminates, nothing faults, and every
  unscoped buffer ends at the last boundary's contents. The argument arrays are read back through the fold to their
  launch contents, which is the frame claim.
-/
import proofs.«177362_j16192026706464_2_alg».proof.Proof.KRegion0
import proofs.«177362_j16192026706464_2_alg».proof.Proof.KRegion1
import proofs.«177362_j16192026706464_2_alg».proof.Proof.KRegion2
import proofs.«177362_j16192026706464_2_alg».proof.Proof.Gen.Kernel.Regions

set_option maxRecDepth 16384

noncomputable section

namespace Cert.Kernel.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)

/-- After the host operations `hostOps0`. -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b

/-- At region 0's exit: its arrays at what the pipeline leaves (an input as entered, an output its write-backs), every
    other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the host operations `hostOps1`. -/
abbrev B3 : Dev nD → Valuation τ sig (Elt F) := fun c => StableHlo.after hostOps1 (B2 m ρ c)
/-- The same read at the TensorCore's references. -/
abbrev E3 : (c : Dev nD) → (b : Ref sig .tc) → Buf (Elt F) ((c : Thread nD τ).loc b) := fun c b => B3 m ρ c b

/-- At region 1's exit: its arrays at what the pipeline leaves (an input as entered, an output its write-backs), every
    other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same read at the TensorCore's references. -/
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the host operations `hostOps2`. -/
abbrev B5 : Dev nD → Valuation τ sig (Elt F) := fun c => StableHlo.after hostOps2 (B4 m ρ c)
/-- The same read at the TensorCore's references. -/
abbrev E5 : (c : Dev nD) → (b : Ref sig .tc) → Buf (Elt F) ((c : Thread nD τ).loc b) := fun c b => B5 m ρ c b

/-- At region 2's exit: its arrays at what the pipeline leaves (an input as entered, an output its write-backs), every
    other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
/-- The same read at the TensorCore's references. -/
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After the host operations `hostOps3`. -/
abbrev B7 : Dev nD → Valuation τ sig (Elt F) := fun c => StableHlo.after hostOps3 (B6 m ρ c)
/-- The same read at the TensorCore's references. -/
abbrev E7 : (c : Dev nD) → (b : Ref sig .tc) → Buf (Elt F) ((c : Thread nD τ).loc b) := fun c b => B7 m ρ c b

/-! ## The arguments end as launched -/

/-- Argument 0 reaches the end as launched: no host operation writes it and it is no window's array of any region. -/
theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := StableHlo.after_of_writes_sub hostOps3 _ hostOps3_writes (by decide : main_arg0 ∉ hostOps3_W)
    _ = B5 m ρ c (Proc.devRef .tc main_arg0) := B6_of_ne m ρ c main_arg0 (by decide)
    _ = B4 m ρ c (Proc.devRef .tc main_arg0) := StableHlo.after_of_writes_sub hostOps2 _ hostOps2_writes (by decide : main_arg0 ∉ hostOps2_W)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := B2_of_ne m ρ c main_arg0 (by decide)
    _ = B0 m ρ c (Proc.devRef .tc main_arg0) := StableHlo.after_of_writes_sub hostOps0 _ hostOps0_writes (by decide : main_arg0 ∉ hostOps0_W)
    _ = m ((c : Thread nD τ).loc main_arg0) := rfl

/-- Argument 1 reaches the end as launched: no host operation writes it and it is no window's array of any region. -/
theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := StableHlo.after_of_writes_sub hostOps3 _ hostOps3_writes (by decide : main_arg1 ∉ hostOps3_W)
    _ = B5 m ρ c (Proc.devRef .tc main_arg1) := B6_of_ne m ρ c main_arg1 (by decide)
    _ = B4 m ρ c (Proc.devRef .tc main_arg1) := StableHlo.after_of_writes_sub hostOps2 _ hostOps2_writes (by decide : main_arg1 ∉ hostOps2_W)
    _ = B3 m ρ c (Proc.devRef .tc main_arg1) := B4_of_ne m ρ c main_arg1 (by decide)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl

/-- Argument 2 reaches the end as launched: no host operation writes it and it is no window's array of any region. -/
theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := StableHlo.after_of_writes_sub hostOps3 _ hostOps3_writes (by decide : main_arg2 ∉ hostOps3_W)
    _ = B5 m ρ c (Proc.devRef .tc main_arg2) := B6_of_ne m ρ c main_arg2 (by decide)
    _ = B4 m ρ c (Proc.devRef .tc main_arg2) := StableHlo.after_of_writes_sub hostOps2 _ hostOps2_writes (by decide : main_arg2 ∉ hostOps2_W)
    _ = B3 m ρ c (Proc.devRef .tc main_arg2) := B4_of_ne m ρ c main_arg2 (by decide)
    _ = B2 m ρ c (Proc.devRef .tc main_arg2) := StableHlo.after_of_writes_sub hostOps1 _ hostOps1_writes (by decide : main_arg2 ∉ hostOps1_W)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl

/-- Argument 3 reaches the end as launched: no host operation writes it and it is no window's array of any region. -/
theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := StableHlo.after_of_writes_sub hostOps3 _ hostOps3_writes (by decide : main_arg3 ∉ hostOps3_W)
    _ = B5 m ρ c (Proc.devRef .tc main_arg3) := B6_of_ne m ρ c main_arg3 (by decide)
    _ = B4 m ρ c (Proc.devRef .tc main_arg3) := StableHlo.after_of_writes_sub hostOps2 _ hostOps2_writes (by decide : main_arg3 ∉ hostOps2_W)
    _ = B3 m ρ c (Proc.devRef .tc main_arg3) := B4_of_ne m ρ c main_arg3 (by decide)
    _ = B2 m ρ c (Proc.devRef .tc main_arg3) := StableHlo.after_of_writes_sub hostOps1 _ hostOps1_writes (by decide : main_arg3 ∉ hostOps1_W)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl

/-- Argument 4 reaches the end as launched: no host operation writes it and it is no window's array of any region. -/
theorem B7_main_arg4 (c : Dev nD) : B7 m ρ c (Proc.devRef .tc main_arg4) = m ((c : Thread nD τ).loc main_arg4) :=
  calc B7 m ρ c (Proc.devRef .tc main_arg4)
    _ = B6 m ρ c (Proc.devRef .tc main_arg4) := StableHlo.after_of_writes_sub hostOps3 _ hostOps3_writes (by decide : main_arg4 ∉ hostOps3_W)
    _ = B5 m ρ c (Proc.devRef .tc main_arg4) := B6_of_ne m ρ c main_arg4 (by decide)
    _ = B4 m ρ c (Proc.devRef .tc main_arg4) := StableHlo.after_of_writes_sub hostOps2 _ hostOps2_writes (by decide : main_arg4 ∉ hostOps2_W)
    _ = B3 m ρ c (Proc.devRef .tc main_arg4) := B4_of_ne m ρ c main_arg4 (by decide)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl

/-- Argument 5 reaches the end as launched: no host operation writes it and it is no window's array of any region. -/
theorem B7_main_arg5 (c : Dev nD) : B7 m ρ c (Proc.devRef .tc main_arg5) = m ((c : Thread nD τ).loc main_arg5) :=
  calc B7 m ρ c (Proc.devRef .tc main_arg5)
    _ = B6 m ρ c (Proc.devRef .tc main_arg5) := StableHlo.after_of_writes_sub hostOps3 _ hostOps3_writes (by decide : main_arg5 ∉ hostOps3_W)
    _ = B5 m ρ c (Proc.devRef .tc main_arg5) := B6_of_ne m ρ c main_arg5 (by decide)
    _ = B4 m ρ c (Proc.devRef .tc main_arg5) := StableHlo.after_of_writes_sub hostOps2 _ hostOps2_writes (by decide : main_arg5 ∉ hostOps2_W)
    _ = B3 m ρ c (Proc.devRef .tc main_arg5) := B4_of_ne m ρ c main_arg5 (by decide)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl

/-! ## The proof data family and the thread state -/

/-- No pallas_call has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (B7 m ρ c) ∗ ∃ r, prngReg c r)

/-! ## The regions as segments -/

set_option backward.isDefEq.respectTransparency.types false in
/-- Region 0 as a segment: entered with every unscoped buffer at `B1`, left with them at `B2`. Its arrays are split
    out of the unscoped buffers at entry and put back at their exit contents; the generator register goes into the
    pipeline's invariant and comes back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `B3`, left with them at `B4`. Its arrays are split
    out of the unscoped buffers at entry and put back at their exit contents; the generator register goes into the
    pipeline's invariant and comes back; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `B5`, left with them at `B6`. Its arrays are split
    out of the unscoped buffers at entry and put back at their exit contents; the generator register goes into the
    pipeline's invariant and comes back; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order. -/
abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)) ]
/-- The program is the run of its segments. -/
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and in every final state each unscoped buffer of each core holds the last boundary's contents `B7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun c => show iprop(StableHlo.held (c : Thread nD τ) (Pipeline.ucRefs τ sig) (B7 m ρ c) ∗ R c)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

/-- THE FRAME: the program runs to its end and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c),
     (h c _ (mem_uc main_arg5 (by decide))).trans (B7_main_arg5 m ρ c)⟩) (run_all m ρ)

end Cert.Kernel.Frame

end
-- ==== Proof.IRegion0.lean ====
/-
  Region 0 of the program, at any float instance: the body's run on whole staging buffers, what it leaves in each
  output buffer as a function of the input blocks, and the pipeline library's body obligation at every grid point.
-/
import proofs.«177362_j16192026706464_2_alg».proof.Proof.Gen.KernelIdeal.Launch
import proofs.«177362_j16192026706464_2_alg».proof.Proof.Gen.KernelIdeal.Skeleton
import proofs.«177362_j16192026706464_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The fused Q/K/V projection's pallas_call: one 512-row tile of the activations per grid point against the whole
    concatenated weight, three output tiles -/
/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the pipeline fetched it there or
    kept it from the point before (its block index has then not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, whether the pipeline fetched it there or
    kept it from the point before (its block index has then not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_S512x1024 : Rect S512x1024 := Rect.unit (s := S512x1024) ![0, 0] S512x1024.size inb_S512x1024_S512x1024_0_0
abbrev r0_S1024x3072 : Rect S1024x3072 := Rect.unit (s := S1024x3072) ![0, 0] S1024x3072.size inb_S1024x3072_S1024x3072_0_0

/-- Output window 2's staging buffer after the body, as a function of the input blocks: its one store, the payload
    written through the whole-buffer rectangle. -/
def out0_2 (x0 : Vec F S512x1024 .bf16) (x1 : Vec F S1024x3072 .bf16) : Vec F S512x1024 .bf16 :=
  View.canon [⟨r0_S512x1024, k0_pay2 (View.ld x0 r0_S512x1024) (View.ld x1 r0_S1024x3072)⟩]

/-- The one store's rectangle is the whole buffer, so it covers every index. -/
theorem cover0_2 (p0 : Vec F S512x1024 .bf16) (y : S512x1024.Idx) :
    ∃ pc ∈ ([⟨r0_S512x1024, p0⟩] : List (View.Piece (Elt F) S512x1024 .bf16)), y ∈ pc.1.set :=
  View.cover_of_tiled [⟨r0_S512x1024, p0⟩] S512x1024.size (by rfl) y

/-- Output window 3's staging buffer after the body, as a function of the input blocks: its one store, the payload
    written through the whole-buffer rectangle. -/
def out0_3 (x0 : Vec F S512x1024 .bf16) (x1 : Vec F S1024x3072 .bf16) : Vec F S512x1024 .bf16 :=
  View.canon [⟨r0_S512x1024, k0_pay3 (View.ld x0 r0_S512x1024) (View.ld x1 r0_S1024x3072)⟩]

/-- The one store's rectangle is the whole buffer, so it covers every index. -/
theorem cover0_3 (p0 : Vec F S512x1024 .bf16) (y : S512x1024.Idx) :
    ∃ pc ∈ ([⟨r0_S512x1024, p0⟩] : List (View.Piece (Elt F) S512x1024 .bf16)), y ∈ pc.1.set :=
  View.cover_of_tiled [⟨r0_S512x1024, p0⟩] S512x1024.size (by rfl) y

/-- Output window 4's staging buffer after the body, as a function of the input blocks: its one store, the payload
    written through the whole-buffer rectangle. -/
def out0_4 (x0 : Vec F S512x1024 .bf16) (x1 : Vec F S1024x3072 .bf16) : Vec F S512x1024 .bf16 :=
  View.canon [⟨r0_S512x1024, k0_pay4 (View.ld x0 r0_S512x1024) (View.ld x1 r0_S1024x3072)⟩]

/-- The one store's rectangle is the whole buffer, so it covers every index. -/
theorem cover0_4 (p0 : Vec F S512x1024 .bf16) (y : S512x1024.Idx) :
    ∃ pc ∈ ([⟨r0_S512x1024, p0⟩] : List (View.Piece (Elt F) S512x1024 .bf16)), y ∈ pc.1.set :=
  View.cover_of_tiled [⟨r0_S512x1024, p0⟩] S512x1024.size (by rfl) y

set_option maxHeartbeats 4000000 in
/-- The body's triple: on whole staging buffers, the inputs' holding `x` and the outputs' anything, the body runs to its
    return with the inputs' buffers as they were and each output's buffer at `out0_w` of the inputs. -/
theorem sound_kernel0 (c : Dev nD) (E : Set ℕ) (i : grid0.Coords) (arg0 : Memref sig .tc .vmem S512x1024 .bf16) (harg0 : arg0.IsWhole) (arg1 : Memref sig .tc .vmem S1024x3072 .bf16) (harg1 : arg1.IsWhole) (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole)
    (x0 : Vec F S512x1024 .bf16) (x1 : Vec F S1024x3072 .bf16) (K : PUnit → sProp 𝕄) :
    iprop(owns (c : Thread nD τ) arg0 fullShare x0 ∗ owns (c : Thread nD τ) arg1 fullShare x1 ∗ (∃ d, owns (c : Thread nD τ) arg2 fullShare d) ∗ (∃ d, owns (c : Thread nD τ) arg3 fullShare d) ∗ (∃ d, owns (c : Thread nD τ) arg4 fullShare d)
        ∗ (iprop(owns (c : Thread nD τ) arg0 fullShare x0 ∗ owns (c : Thread nD τ) arg1 fullShare x1 ∗ owns (c : Thread nD τ) arg2 fullShare (out0_2 x0 x1) ∗ owns (c : Thread nD τ) arg3 fullShare (out0_3 x0 x1) ∗ owns (c : Thread nD τ) arg4 fullShare (out0_4 x0 x1)) -∗ K ⟨⟩))
      ⊢ wp frame (wpE (defs₀ (F := F)) Variants.none c none) E (cc0__qkv_kernel i arg0 harg0 arg1 harg1 arg2 harg2 arg3 harg3 arg4 harg4) K := by
  simp only [cc0__qkv_kernel_eq_skeleton]; unfold cc0__qkv_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

/-- The proof data of this pipeline on core `c`: the arrays as the region finds them; after the body at point `t` each
    input's buffer at its block and each output's at `out0_w` of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the pipeline calls the body with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what the body returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any grid point: the inputs' buffers hold their blocks, so the body's triple applies; the invariant and
    the core's dues pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of the pipeline library, at every grid point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.IRegion1.lean ====
/-
  Region 1 of the program, at any float instance: the body's run on whole staging buffers, what it leaves in each
  output buffer as a function of the input blocks, and the pipeline library's body obligation at every grid point.
-/
import proofs.«177362_j16192026706464_2_alg».proof.Proof.Gen.KernelIdeal.Launch
import proofs.«177362_j16192026706464_2_alg».proof.Proof.Gen.KernelIdeal.Skeleton
import proofs.«177362_j16192026706464_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The attention pallas_call: per (batch, head, query tile) one 512-row tile of queries against the head's whole
    keys and values, one output tile -/
/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the pipeline fetched it there or
    kept it from the point before (its block index has then not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, whether the pipeline fetched it there or
    kept it from the point before (its block index has then not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, whether the pipeline fetched it there or
    kept it from the point before (its block index has then not moved). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

abbrev r1_S1x1x512x64 : Rect S1x1x512x64 := Rect.unit (s := S1x1x512x64) ![0, 0, 0, 0] S1x1x512x64.size inb_S1x1x512x64_S1x1x512x64_0_0_0_0
abbrev r1_S1x1x2048x64 : Rect S1x1x2048x64 := Rect.unit (s := S1x1x2048x64) ![0, 0, 0, 0] S1x1x2048x64.size inb_S1x1x2048x64_S1x1x2048x64_0_0_0_0

/-- Output window 3's staging buffer after the body, as a function of the input blocks: its one store, the payload
    written through the whole-buffer rectangle. -/
def out1_3 (x0 : Vec F S1x1x512x64 .bf16) (x1 : Vec F S1x1x2048x64 .bf16) (x2 : Vec F S1x1x2048x64 .bf16) : Vec F S1x1x512x64 .bf16 :=
  View.canon [⟨r1_S1x1x512x64, k1_pay1 (View.ld x0 r1_S1x1x512x64) (View.ld x1 r1_S1x1x2048x64) (View.ld x2 r1_S1x1x2048x64)⟩]

/-- The one store's rectangle is the whole buffer, so it covers every index. -/
theorem cover1_3 (p0 : Vec F S1x1x512x64 .bf16) (y : S1x1x512x64.Idx) :
    ∃ pc ∈ ([⟨r1_S1x1x512x64, p0⟩] : List (View.Piece (Elt F) S1x1x512x64 .bf16)), y ∈ pc.1.set :=
  View.cover_of_tiled [⟨r1_S1x1x512x64, p0⟩] S1x1x512x64.size (by rfl) y

set_option maxHeartbeats 4000000 in
/-- The body's triple: on whole staging buffers, the inputs' holding `x` and the outputs' anything, the body runs to its
    return with the inputs' buffers as they were and each output's buffer at `out1_w` of the inputs. -/
theorem sound_kernel1 (c : Dev nD) (E : Set ℕ) (i : grid1.Coords) (arg0 : Memref sig .tc .vmem S1x1x512x64 .bf16) (harg0 : arg0.IsWhole) (arg1 : Memref sig .tc .vmem S1x1x2048x64 .bf16) (harg1 : arg1.IsWhole) (arg2 : Memref sig .tc .vmem S1x1x2048x64 .bf16) (harg2 : arg2.IsWhole) (arg3 : Memref sig .tc .vmem S1x1x512x64 .bf16) (harg3 : arg3.IsWhole)
    (x0 : Vec F S1x1x512x64 .bf16) (x1 : Vec F S1x1x2048x64 .bf16) (x2 : Vec F S1x1x2048x64 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__attn_kernel i arg0 harg0 arg1 harg1 arg2 harg2 arg3 harg3) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- The proof data of this pipeline on core `c`: the arrays as the region finds them; after the body at point `t` each
    input's buffer at its block and each output's at `out1_w` of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the pipeline calls the body with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what the body returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any grid point: the inputs' buffers hold their blocks, so the body's triple applies; the invariant and
    the core's dues pass through untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Frame

end
-- ==== Proof.IRegion2.lean ====
/-
  Region 2 of the program, at any float instance: the body's run on whole staging buffers, what it leaves in each
  output buffer as a function of the input blocks, and the pipeline library's body obligation at every grid point.
-/
import proofs.«177362_j16192026706464_2_alg».proof.Proof.Gen.KernelIdeal.Launch
import proofs.«177362_j16192026706464_2_alg».proof.Proof.Gen.KernelIdeal.Skeleton
import proofs.«177362_j16192026706464_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The output projection's pallas_call: one 512-row tile of the attention output per grid point against the whole
    weight, plus the bias row -/
/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the pipeline fetched it there or
    kept it from the point before (its block index has then not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, whether the pipeline fetched it there or
    kept it from the point before (its block index has then not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, whether the pipeline fetched it there or
    kept it from the point before (its block index has then not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_S512x1024 : Rect S512x1024 := Rect.unit (s := S512x1024) ![0, 0] S512x1024.size inb_S512x1024_S512x1024_0_0
abbrev r2_S1024x1024 : Rect S1024x1024 := Rect.unit (s := S1024x1024) ![0, 0] S1024x1024.size inb_S1024x1024_S1024x1024_0_0
abbrev r2_S1x1024 : Rect S1x1024 := Rect.unit (s := S1x1024) ![0, 0] S1x1024.size inb_S1x1024_S1x1024_0_0

/-- Output window 3's staging buffer after the body, as a function of the input blocks: its one store, the payload
    written through the whole-buffer rectangle. -/
def out2_3 (x0 : Vec F S512x1024 .bf16) (x1 : Vec F S1024x1024 .bf16) (x2 : Vec F S1x1024 .f32) : Vec F S512x1024 .f32 :=
  View.canon [⟨r2_S512x1024, k2_pay1 (View.ld x0 r2_S512x1024) (View.ld x1 r2_S1024x1024) (View.ld x2 r2_S1x1024)⟩]

/-- The one store's rectangle is the whole buffer, so it covers every index. -/
theorem cover2_3 (p0 : Vec F S512x1024 .f32) (y : S512x1024.Idx) :
    ∃ pc ∈ ([⟨r2_S512x1024, p0⟩] : List (View.Piece (Elt F) S512x1024 .f32)), y ∈ pc.1.set :=
  View.cover_of_tiled [⟨r2_S512x1024, p0⟩] S512x1024.size (by rfl) y

set_option maxHeartbeats 4000000 in
/-- The body's triple: on whole staging buffers, the inputs' holding `x` and the outputs' anything, the body runs to its
    return with the inputs' buffers as they were and each output's buffer at `out2_w` of the inputs. -/
theorem sound_kernel2 (c : Dev nD) (E : Set ℕ) (i : grid2.Coords) (arg0 : Memref sig .tc .vmem S512x1024 .bf16) (harg0 : arg0.IsWhole) (arg1 : Memref sig .tc .vmem S1024x1024 .bf16) (harg1 : arg1.IsWhole) (arg2 : Memref sig .tc .vmem S1x1024 .f32) (harg2 : arg2.IsWhole) (arg3 : Memref sig .tc .vmem S512x1024 .f32) (harg3 : arg3.IsWhole)
    (x0 : Vec F S512x1024 .bf16) (x1 : Vec F S1024x1024 .bf16) (x2 : Vec F S1x1024 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__matmul_bias_kernel i arg0 harg0 arg1 harg1 arg2 harg2 arg3 harg3) K := by
  simp only [cc2__matmul_bias_kernel_eq_skeleton]; unfold cc2__matmul_bias_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of this pipeline on core `c`: the arrays as the region finds them; after the body at point `t` each
    input's buffer at its block and each output's at `out2_w` of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the pipeline calls the body with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what the body returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any grid point: the inputs' buffers hold their blocks, so the body's triple applies; the invariant and
    the core's dues pass through untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation of the pipeline library, at every grid point. -/
theorem body_obligation2 (c : Dev nD) : BodyObligation (dat2 (F := F) V c) (defs₀ (F := F)) Variants.none () Set.univ := fun t => by
  rw [bigSep_W2, bigSep_W2]
  exact sound_body2 V c t

end Cert.KernelIdeal.Frame

end
-- ==== Proof.IRun.lean ====
/-
  The whole run of the program, at any float instance: the buffers' contents at every boundary between a stretch of
  host operations and a pallas_call, folded from the launch memory; the three pallas_calls as segments of the
  several-region launch theorem; and the run itself — every weakly fair execution terminates, nothing faults, and every
  unscoped buffer ends at the last boundary's contents. The argument arrays are read back through the fold to their
  launch contents, which is the frame claim.
-/
import proofs.«177362_j16192026706464_2_alg».proof.Proof.IRegion0
import proofs.«177362_j16192026706464_2_alg».proof.Proof.IRegion1
import proofs.«177362_j16192026706464_2_alg».proof.Proof.IRegion2
import proofs.«177362_j16192026706464_2_alg».proof.Proof.Gen.KernelIdeal.Regions

set_option maxRecDepth 16384

noncomputable section

namespace Cert.KernelIdeal.Frame

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => (s₀ m ρ).mem ((c : Dev nD), b)

/-- After the host operations `hostOps0`. -/
abbrev B1 : Dev nD → Valuation τ sig (Elt F) := fun c => StableHlo.after hostOps0 (B0 m ρ c)
/-- The same read at the TensorCore's references. -/
abbrev E1 : (c : Dev nD) → (b : Ref sig .tc) → Buf (Elt F) ((c : Thread nD τ).loc b) := fun c b => B1 m ρ c b

/-- At region 0's exit: its arrays at what the pipeline leaves (an input as entered, an output its write-backs), every
    other buffer as entered. -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
/-- The same read at the TensorCore's references. -/
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)

/-- After the host operations `hostOps1`. -/
abbrev B3 : Dev nD → Valuation τ sig (Elt F) := fun c => StableHlo.after hostOps1 (B2 m ρ c)
/-- The same read at the TensorCore's references. -/
abbrev E3 : (c : Dev nD) → (b : Ref sig .tc) → Buf (Elt F) ((c : Thread nD τ).loc b) := fun c b => B3 m ρ c b

/-- At region 1's exit: its arrays at what the pipeline leaves (an input as entered, an output its write-backs), every
    other buffer as entered. -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
/-- The same read at the TensorCore's references. -/
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)

/-- After the host operations `hostOps2`. -/
abbrev B5 : Dev nD → Valuation τ sig (Elt F) := fun c => StableHlo.after hostOps2 (B4 m ρ c)
/-- The same read at the TensorCore's references. -/
abbrev E5 : (c : Dev nD) → (b : Ref sig .tc) → Buf (Elt F) ((c : Thread nD τ).loc b) := fun c b => B5 m ρ c b

/-- At region 2's exit: its arrays at what the pipeline leaves (an input as entered, an output its write-backs), every
    other buffer as entered. -/
def B6 (c : Dev nD) : Valuation τ sig (Elt F) :=
  Pipeline.withArrays spec2 c (B5 m ρ c) fun w => (dat2 (E5 m ρ) c).arrAt w cfg2.N
theorem B6_arr (c : Dev nD) (w : Fin cfg2.W) :
    B6 m ρ c (Proc.devRef .tc (Pipeline.arrRef spec2 w)) = (dat2 (E5 m ρ) c).arrAt w cfg2.N := by
  unfold B6; exact Pipeline.withArrays_arr spec2 launch2.win.arr_inj c _ _ w
theorem B6_of_ne (c : Dev nD) (b : Ref sig .tc) (hb : ∀ w, Pipeline.arrRef spec2 w ≠ b) :
    B6 m ρ c (Proc.devRef .tc b) = B5 m ρ c (Proc.devRef .tc b) := by
  unfold B6; exact Pipeline.withArrays_of_ne spec2 c _ _ b hb
/-- The same read at the TensorCore's references. -/
abbrev E6 : (c : Dev nD) → (b : Ref sig .tc) → Buf (Elt F) ((c : Thread nD τ).loc b) := fun c b => B6 m ρ c b
theorem hF2 (c : Dev nD) (w : Fin cfg2.W) : (dat2 (E5 m ρ) c).arrAt w cfg2.N = E6 m ρ c (Pipeline.arrRef spec2 w) :=
  (B6_arr m ρ c w).symm
theorem hrest2 (c : Dev nD) : ∀ b, b ∉ Finset.univ.image (Pipeline.arrRef spec2) → E6 m ρ c b = E5 m ρ c b :=
  fun b hb => B6_of_ne m ρ c b fun w e => hb (Finset.mem_image.mpr ⟨w, Finset.mem_univ _, e⟩)

/-- After the host operations `hostOps3`. -/
abbrev B7 : Dev nD → Valuation τ sig (Elt F) := fun c => StableHlo.after hostOps3 (B6 m ρ c)
/-- The same read at the TensorCore's references. -/
abbrev E7 : (c : Dev nD) → (b : Ref sig .tc) → Buf (Elt F) ((c : Thread nD τ).loc b) := fun c b => B7 m ρ c b

/-! ## The arguments end as launched -/

/-- Argument 0 reaches the end as launched: no host operation writes it and it is no window's array of any region. -/
theorem B7_main_arg0 (c : Dev nD) : B7 m ρ c (Proc.devRef .tc main_arg0) = m ((c : Thread nD τ).loc main_arg0) :=
  calc B7 m ρ c (Proc.devRef .tc main_arg0)
    _ = B6 m ρ c (Proc.devRef .tc main_arg0) := StableHlo.after_of_writes_sub hostOps3 _ hostOps3_writes (by decide : main_arg0 ∉ hostOps3_W)
    _ = B5 m ρ c (Proc.devRef .tc main_arg0) := B6_of_ne m ρ c main_arg0 (by decide)
    _ = B4 m ρ c (Proc.devRef .tc main_arg0) := StableHlo.after_of_writes_sub hostOps2 _ hostOps2_writes (by decide : main_arg0 ∉ hostOps2_W)
    _ = B3 m ρ c (Proc.devRef .tc main_arg0) := B4_of_ne m ρ c main_arg0 (by decide)
    _ = B2 m ρ c (Proc.devRef .tc main_arg0) := StableHlo.after_of_writes_sub hostOps1 _ hostOps1_writes (by decide : main_arg0 ∉ hostOps1_W)
    _ = B1 m ρ c (Proc.devRef .tc main_arg0) := B2_of_ne m ρ c main_arg0 (by decide)
    _ = B0 m ρ c (Proc.devRef .tc main_arg0) := StableHlo.after_of_writes_sub hostOps0 _ hostOps0_writes (by decide : main_arg0 ∉ hostOps0_W)
    _ = m ((c : Thread nD τ).loc main_arg0) := rfl

/-- Argument 1 reaches the end as launched: no host operation writes it and it is no window's array of any region. -/
theorem B7_main_arg1 (c : Dev nD) : B7 m ρ c (Proc.devRef .tc main_arg1) = m ((c : Thread nD τ).loc main_arg1) :=
  calc B7 m ρ c (Proc.devRef .tc main_arg1)
    _ = B6 m ρ c (Proc.devRef .tc main_arg1) := StableHlo.after_of_writes_sub hostOps3 _ hostOps3_writes (by decide : main_arg1 ∉ hostOps3_W)
    _ = B5 m ρ c (Proc.devRef .tc main_arg1) := B6_of_ne m ρ c main_arg1 (by decide)
    _ = B4 m ρ c (Proc.devRef .tc main_arg1) := StableHlo.after_of_writes_sub hostOps2 _ hostOps2_writes (by decide : main_arg1 ∉ hostOps2_W)
    _ = B3 m ρ c (Proc.devRef .tc main_arg1) := B4_of_ne m ρ c main_arg1 (by decide)
    _ = B2 m ρ c (Proc.devRef .tc main_arg1) := StableHlo.after_of_writes_sub hostOps1 _ hostOps1_writes (by decide : main_arg1 ∉ hostOps1_W)
    _ = B1 m ρ c (Proc.devRef .tc main_arg1) := B2_of_ne m ρ c main_arg1 (by decide)
    _ = B0 m ρ c (Proc.devRef .tc main_arg1) := StableHlo.after_of_writes_sub hostOps0 _ hostOps0_writes (by decide : main_arg1 ∉ hostOps0_W)
    _ = m ((c : Thread nD τ).loc main_arg1) := rfl

/-- Argument 2 reaches the end as launched: no host operation writes it and it is no window's array of any region. -/
theorem B7_main_arg2 (c : Dev nD) : B7 m ρ c (Proc.devRef .tc main_arg2) = m ((c : Thread nD τ).loc main_arg2) :=
  calc B7 m ρ c (Proc.devRef .tc main_arg2)
    _ = B6 m ρ c (Proc.devRef .tc main_arg2) := StableHlo.after_of_writes_sub hostOps3 _ hostOps3_writes (by decide : main_arg2 ∉ hostOps3_W)
    _ = B5 m ρ c (Proc.devRef .tc main_arg2) := B6_of_ne m ρ c main_arg2 (by decide)
    _ = B4 m ρ c (Proc.devRef .tc main_arg2) := StableHlo.after_of_writes_sub hostOps2 _ hostOps2_writes (by decide : main_arg2 ∉ hostOps2_W)
    _ = B3 m ρ c (Proc.devRef .tc main_arg2) := B4_of_ne m ρ c main_arg2 (by decide)
    _ = B2 m ρ c (Proc.devRef .tc main_arg2) := StableHlo.after_of_writes_sub hostOps1 _ hostOps1_writes (by decide : main_arg2 ∉ hostOps1_W)
    _ = B1 m ρ c (Proc.devRef .tc main_arg2) := B2_of_ne m ρ c main_arg2 (by decide)
    _ = B0 m ρ c (Proc.devRef .tc main_arg2) := StableHlo.after_of_writes_sub hostOps0 _ hostOps0_writes (by decide : main_arg2 ∉ hostOps0_W)
    _ = m ((c : Thread nD τ).loc main_arg2) := rfl

/-- Argument 3 reaches the end as launched: no host operation writes it and it is no window's array of any region. -/
theorem B7_main_arg3 (c : Dev nD) : B7 m ρ c (Proc.devRef .tc main_arg3) = m ((c : Thread nD τ).loc main_arg3) :=
  calc B7 m ρ c (Proc.devRef .tc main_arg3)
    _ = B6 m ρ c (Proc.devRef .tc main_arg3) := StableHlo.after_of_writes_sub hostOps3 _ hostOps3_writes (by decide : main_arg3 ∉ hostOps3_W)
    _ = B5 m ρ c (Proc.devRef .tc main_arg3) := B6_of_ne m ρ c main_arg3 (by decide)
    _ = B4 m ρ c (Proc.devRef .tc main_arg3) := StableHlo.after_of_writes_sub hostOps2 _ hostOps2_writes (by decide : main_arg3 ∉ hostOps2_W)
    _ = B3 m ρ c (Proc.devRef .tc main_arg3) := B4_of_ne m ρ c main_arg3 (by decide)
    _ = B2 m ρ c (Proc.devRef .tc main_arg3) := StableHlo.after_of_writes_sub hostOps1 _ hostOps1_writes (by decide : main_arg3 ∉ hostOps1_W)
    _ = B1 m ρ c (Proc.devRef .tc main_arg3) := B2_of_ne m ρ c main_arg3 (by decide)
    _ = B0 m ρ c (Proc.devRef .tc main_arg3) := StableHlo.after_of_writes_sub hostOps0 _ hostOps0_writes (by decide : main_arg3 ∉ hostOps0_W)
    _ = m ((c : Thread nD τ).loc main_arg3) := rfl

/-- Argument 4 reaches the end as launched: no host operation writes it and it is no window's array of any region. -/
theorem B7_main_arg4 (c : Dev nD) : B7 m ρ c (Proc.devRef .tc main_arg4) = m ((c : Thread nD τ).loc main_arg4) :=
  calc B7 m ρ c (Proc.devRef .tc main_arg4)
    _ = B6 m ρ c (Proc.devRef .tc main_arg4) := StableHlo.after_of_writes_sub hostOps3 _ hostOps3_writes (by decide : main_arg4 ∉ hostOps3_W)
    _ = B5 m ρ c (Proc.devRef .tc main_arg4) := B6_of_ne m ρ c main_arg4 (by decide)
    _ = B4 m ρ c (Proc.devRef .tc main_arg4) := StableHlo.after_of_writes_sub hostOps2 _ hostOps2_writes (by decide : main_arg4 ∉ hostOps2_W)
    _ = B3 m ρ c (Proc.devRef .tc main_arg4) := B4_of_ne m ρ c main_arg4 (by decide)
    _ = B2 m ρ c (Proc.devRef .tc main_arg4) := StableHlo.after_of_writes_sub hostOps1 _ hostOps1_writes (by decide : main_arg4 ∉ hostOps1_W)
    _ = B1 m ρ c (Proc.devRef .tc main_arg4) := B2_of_ne m ρ c main_arg4 (by decide)
    _ = B0 m ρ c (Proc.devRef .tc main_arg4) := StableHlo.after_of_writes_sub hostOps0 _ hostOps0_writes (by decide : main_arg4 ∉ hostOps0_W)
    _ = m ((c : Thread nD τ).loc main_arg4) := rfl

/-- Argument 5 reaches the end as launched: no host operation writes it and it is no window's array of any region. -/
theorem B7_main_arg5 (c : Dev nD) : B7 m ρ c (Proc.devRef .tc main_arg5) = m ((c : Thread nD τ).loc main_arg5) :=
  calc B7 m ρ c (Proc.devRef .tc main_arg5)
    _ = B6 m ρ c (Proc.devRef .tc main_arg5) := StableHlo.after_of_writes_sub hostOps3 _ hostOps3_writes (by decide : main_arg5 ∉ hostOps3_W)
    _ = B5 m ρ c (Proc.devRef .tc main_arg5) := B6_of_ne m ρ c main_arg5 (by decide)
    _ = B4 m ρ c (Proc.devRef .tc main_arg5) := StableHlo.after_of_writes_sub hostOps2 _ hostOps2_writes (by decide : main_arg5 ∉ hostOps2_W)
    _ = B3 m ρ c (Proc.devRef .tc main_arg5) := B4_of_ne m ρ c main_arg5 (by decide)
    _ = B2 m ρ c (Proc.devRef .tc main_arg5) := StableHlo.after_of_writes_sub hostOps1 _ hostOps1_writes (by decide : main_arg5 ∉ hostOps1_W)
    _ = B1 m ρ c (Proc.devRef .tc main_arg5) := B2_of_ne m ρ c main_arg5 (by decide)
    _ = B0 m ρ c (Proc.devRef .tc main_arg5) := StableHlo.after_of_writes_sub hostOps0 _ hostOps0_writes (by decide : main_arg5 ∉ hostOps0_W)
    _ = m ((c : Thread nD τ).loc main_arg5) := rfl

/-! ## The proof data family and the thread state -/

/-- No pallas_call has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (E1 m ρ) c
  | ⟨1, _⟩ => fun c => dat1 (E3 m ρ) c
  | ⟨2, _⟩ => fun c => dat2 (E5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues, at
    nothing. -/
abbrev R (c : Dev nD) : sProp 𝕄 := iprop((∃ r, prngReg c r) ∗ ∃ W, owes (c : Thread nD τ) (0 : CellTallies nD τ sig Unit) W)
/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register
    at some state. -/
abbrev Tₙ (c : Dev nD) : sProp 𝕄 := iprop(StableHlo.held (c : Thread nD τ) (Pipeline.ucRefs τ sig) (B7 m ρ c) ∗ ∃ r, prngReg c r)

/-! ## The regions as segments -/

set_option backward.isDefEq.respectTransparency.types false in
/-- Region 0 as a segment: entered with every unscoped buffer at `B1`, left with them at `B2`. Its arrays are split
    out of the unscoped buffers at entry and put back at their exit contents; the generator register goes into the
    pipeline's invariant and comes back; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `B3`, left with them at `B4`. Its arrays are split
    out of the unscoped buffers at entry and put back at their exit contents; the generator register goes into the
    pipeline's invariant and comes back; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment: entered with every unscoped buffer at `B5`, left with them at `B6`. Its arrays are split
    out of the unscoped buffers at entry and put back at their exit contents; the generator register goes into the
    pipeline's invariant and comes back; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E5 m ρ) c).loose
  hwaits := Pipeline.hwaits_of_owed_zero _ _ _ _ L lv 2 fun _ _ => rfl
  pre c := iprop(StableHlo.held (c : Thread nD τ) (Pipeline.ucRefs τ sig) (B5 m ρ c) ∗ R c)
  post c := iprop(StableHlo.held (c : Thread nD τ) (Pipeline.ucRefs τ sig) (B6 m ρ c) ∗ R c)
  X c := iprop(∃ r, prngReg c r)
  Y c := iprop(∃ r, prngReg c r)
  Z c := Pipeline.unscopedRest (Ix := Unit) (Name := ℕ) (U := UR sig nD τ) (Lvl := ℕ) spec2 c (E5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (E5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (E5 m ρ c) (E6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

/-- The program's seven segments in order. -/
abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)),
    .region (reg2 m ρ),
    .host (hseg hostOps3 hostOps3_sub hostOps3_fresh (B6 m ρ)) ]
/-- The program is the run of its segments. -/
theorem main_run (c : Dev nD) : main (F := F) c = Pipeline.Seg.run (segs m ρ) := (main_chain c).trans (by chain_rfl)

set_option backward.isDefEq.respectTransparency.types false in
/-- THE RUN: from any memory with zero counters, every weakly fair execution of the program terminates, nothing
    faulting, and in every final state each unscoped buffer of each core holds the last boundary's contents `B7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun _ => .rfl, fun _ => .rfl, fun c => show iprop(StableHlo.held (c : Thread nD τ) (Pipeline.ucRefs τ sig) (B7 m ρ c) ∗ R c)
        ⊢ iprop(Tₙ m ρ c ∗ ∃ W, owes (c : Thread nD τ) (0 : CellTallies nD τ sig Unit) W) from by
      iintro ⟨Hh, Hp, HO⟩
      isplitr [HO]
      · isplitl [Hh]; · iexact Hh
        iexact Hp
      · iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m ρ c b)
    (hfin := fun c s' => by
      iintro ⟨⟨Hh, -⟩, HSI⟩
      unfold StableHlo.held
      imodintro
      iapply (pointsTo_read_all (Pipeline.ucRefs τ sig) (fun b => (((c : Thread nD τ)).1, b)) (B7 m ρ c) s')
      isplitl [Hh] <;> iassumption)
    (hQ := fun s h c => h c)

/-- THE FRAME: the program runs to its end and every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (B7_main_arg0 m ρ c),
     (h c _ (mem_uc main_arg1 (by decide))).trans (B7_main_arg1 m ρ c),
     (h c _ (mem_uc main_arg2 (by decide))).trans (B7_main_arg2 m ρ c),
     (h c _ (mem_uc main_arg3 (by decide))).trans (B7_main_arg3 m ρ c),
     (h c _ (mem_uc main_arg4 (by decide))).trans (B7_main_arg4 m ρ c),
     (h c _ (mem_uc main_arg5 (by decide))).trans (B7_main_arg5 m ρ c)⟩) (run_all m ρ)

end Cert.KernelIdeal.Frame

end
-- ==== Proof.AttnLaws.lean ====
/- The pure mathematics of scaled dot-product attention over the extended reals, with every operation in
   the form it has at the exact (extended-real) reading of floats. No program is imported: the lemmas are
   stated over abstract finite index types and over REAL-valued families coerced to the extended reals, so
   finiteness is built in. Contents: sums and products of coerced reals are coerced reals; the float words
   1/8, 8, 1, -∞ and 0 as extended reals; folding the factor 1/8 into a contraction equals dividing the
   contraction by 8; the exponential and the difference of reals; a running maximum of reals taken from -∞
   is a real, an upper bound, and one of the entries; and normalizing AFTER the weighted sum (multiplying by
   the reciprocal of the row sum) equals normalizing each weight BEFORE it (dividing each by the row sum). -/
import Idealize.ShloMosaic.PureOps.Ideal
import Idealize.ShloMosaic.PureOps.Ideal.Laws

noncomputable section

namespace Cert.AttnLaws

open Idealize.ShloMosaic
open scoped BigOperators

/-! ### Sums and products of coerced reals are coerced reals -/

/-- A finite sum of coerced reals is the coerced real sum. -/
theorem coe_sum {ι : Type*} (t : Finset ι) (f : ι → ℝ) :
    (∑ k ∈ t, ((f k : ℝ) : EReal)) = ((∑ k ∈ t, f k : ℝ) : EReal) := by
  classical
  induction t using Finset.induction_on with
  | empty => simp
  | insert a t ha ih => rw [Finset.sum_insert ha, Finset.sum_insert ha, ih, EReal.coe_add]

/-- The same over a whole finite type. -/
theorem coe_sum_univ {ι : Type*} [Fintype ι] (f : ι → ℝ) :
    (∑ k, ((f k : ℝ) : EReal)) = ((∑ k, f k : ℝ) : EReal) :=
  coe_sum Finset.univ f

theorem mul_coe (a b : ℝ) : (a : EReal) * (b : EReal) = ((a * b : ℝ) : EReal) := (EReal.coe_mul a b).symm

theorem add_coe (a b : ℝ) : (a : EReal) + (b : EReal) = ((a + b : ℝ) : EReal) := (EReal.coe_add a b).symm

theorem sub_coe (a b : ℝ) : (a : EReal) - (b : EReal) = ((a - b : ℝ) : EReal) := (EReal.coe_sub a b).symm

/-- A contraction (one entry of a matrix product) of coerced reals is the coerced real contraction. -/
theorem dot_coe {ι : Type*} [Fintype ι] (x w : ι → ℝ) :
    (∑ d, (x d : EReal) * (w d : EReal)) = ((∑ d, x d * w d : ℝ) : EReal) :=
  (Finset.sum_congr rfl fun d _ => mul_coe (x d) (w d)).trans (coe_sum_univ fun d => x d * w d)

/-- The same onto a zero accumulator, as a matrix product with a zero accumulator reads. -/
theorem zero_add_dot_coe {ι : Type*} [Fintype ι] (x w : ι → ℝ) :
    (0 : EReal) + (∑ d, (x d : EReal) * (w d : EReal)) = ((∑ d, x d * w d : ℝ) : EReal) := by
  rw [zero_add, dot_coe]

/-- A contraction plus a real (a bias) is a coerced real. -/
theorem dot_add_coe {ι : Type*} [Fintype ι] (x w : ι → ℝ) (b : ℝ) :
    (∑ d, (x d : EReal) * (w d : EReal)) + (b : EReal) = (((∑ d, x d * w d) + b : ℝ) : EReal) := by
  rw [dot_coe, add_coe]

/-! ### The float words of the two programs, as extended reals -/

/-- The bf16 word 0x3E00 denotes 1/8. -/
theorem ofBits_eighth : Ideal.ofBits .bf16 0x3E00#16 = ((1 / 8 : ℝ) : EReal) := by
  simp [Ideal.ofBits, Ideal.ieee, -EReal.coe_mul]; norm_num

/-- The same word as a scalar constant of a kernel reads it. -/
theorem scalar_ofBits_eighth : (Scalar.ofBits (F := Ideal) .bf16 0x3E00#16) = ((1 / 8 : ℝ) : EReal) :=
  ofBits_eighth

/-- The f32 word 0x41000000 denotes 8. -/
theorem ofBits_eight : Ideal.ofBits .f32 0x41000000#32 = ((8 : ℝ) : EReal) := by
  simp [Ideal.ofBits, Ideal.ieee, -EReal.coe_mul]; norm_num

/-- The f32 word 0x3F800000 denotes 1. -/
theorem ofBits_one : Ideal.ofBits .f32 0x3F800000#32 = ((1 : ℝ) : EReal) := by
  simp [Ideal.ofBits, Ideal.ieee, -EReal.coe_mul]; norm_num

theorem scalar_ofBits_one : (Scalar.ofBits (F := Ideal) .f32 0x3F800000#32) = ((1 : ℝ) : EReal) := ofBits_one

/-- The f32 word 0xFF800000 denotes -∞, the bottom of the extended reals. -/
theorem ofBits_neg_inf : Ideal.ofBits .f32 0xFF800000#32 = (⊥ : EReal) := by
  simp [Ideal.ofBits, Ideal.ieee]

theorem floatOps_ofBits_neg_inf : FloatOps.ofBits (F := Ideal) .f32 0xFF800000#32 = (⊥ : EReal) := ofBits_neg_inf

/-- The f32 zero word denotes 0. -/
theorem ofBits_zero : Ideal.ofBits .f32 0x00000000#32 = (0 : EReal) := Ideal.ofBits_zero_f32

/-! ### The quotient of coerced reals -/

/-- The quotient of two coerced reals by a nonzero divisor is the coerced real quotient. -/
theorem div_coe_coe (a b : ℝ) (hb : b ≠ 0) : Ideal.div (a : EReal) (b : EReal) = ((a / b : ℝ) : EReal) := by
  rw [Ideal.div_coe hb, ← EReal.coe_mul, mul_one_div]

/-- The vector quotient and the host's quotient are the one function. -/
theorem divf_eq_div {φ : FTy} (x y : Ideal φ) : FloatOps.divf x y = Ideal.div x y := rfl
theorem hostDivf_eq_div {φ : FTy} (x y : Ideal φ) : FloatOps.hostDivf x y = Ideal.div x y := rfl

/-! ### Folding the scale 1/8 into the contraction -/

/-- The contraction of the scaled left operand, as a coerced real. -/
theorem scaled_dot_coe {ι : Type*} [Fintype ι] (q k : ι → ℝ) :
    (∑ d, ((q d : EReal) * ((1 / 8 : ℝ) : EReal)) * (k d : EReal)) = (((∑ d, q d * k d) / 8 : ℝ) : EReal) := by
  have h : ∀ d, ((q d : EReal) * ((1 / 8 : ℝ) : EReal)) * (k d : EReal) = ((q d * k d / 8 : ℝ) : EReal) := fun d => by
    rw [← EReal.coe_mul, ← EReal.coe_mul]; congr 1; ring
  rw [Finset.sum_congr rfl fun d _ => h d, coe_sum_univ, Finset.sum_div]

/-- The contraction divided by 8, as a coerced real. -/
theorem dot_div_eight_coe {ι : Type*} [Fintype ι] (q k : ι → ℝ) :
    Ideal.div (∑ d, (q d : EReal) * (k d : EReal)) ((8 : ℝ) : EReal) = (((∑ d, q d * k d) / 8 : ℝ) : EReal) := by
  rw [dot_coe, div_coe_coe _ _ (by norm_num)]

/-- Scaling the left operand by 1/8 before the contraction is dividing the contraction by 8. -/
theorem scale_fold {ι : Type*} [Fintype ι] (q k : ι → ℝ) :
    (∑ d, ((q d : EReal) * ((1 / 8 : ℝ) : EReal)) * (k d : EReal))
      = Ideal.div (∑ d, (q d : EReal) * (k d : EReal)) ((8 : ℝ) : EReal) :=
  (scaled_dot_coe q k).trans (dot_div_eight_coe q k).symm

/-! ### The exponential and the difference of reals -/

/-- The exponential of a coerced real is the coerced real exponential. -/
theorem exp_coe (r : ℝ) : Ideal.exp (r : EReal) = ((Real.exp r : ℝ) : EReal) := rfl

/-- A kernel's exponential and the host's are that one function. -/
theorem floatExp_coe {φ : FTy} (r : ℝ) : FloatOps.exp (F := Ideal) (φ := φ) (r : EReal) = ((Real.exp r : ℝ) : EReal) := rfl
theorem hostExp_coe {φ : FTy} (r : ℝ) :
    FloatOps.hostUnary (F := Ideal) (φ := φ) .exp (r : EReal) = ((Real.exp r : ℝ) : EReal) := rfl

/-- The exponential of the difference of two coerced reals. -/
theorem exp_sub_coe (a b : ℝ) : Ideal.exp ((a : EReal) - (b : EReal)) = ((Real.exp (a - b) : ℝ) : EReal) := by
  rw [sub_coe, exp_coe]

theorem exp_coe_pos (r : ℝ) : (0 : EReal) < Ideal.exp (r : EReal) := EReal.coe_pos.2 (Real.exp_pos r)
theorem exp_coe_ne_top (r : ℝ) : Ideal.exp (r : EReal) ≠ ⊤ := EReal.coe_ne_top _
theorem exp_coe_ne_bot (r : ℝ) : Ideal.exp (r : EReal) ≠ ⊥ := EReal.coe_ne_bot _

/-- A kernel's and the host's difference of two coerced reals is the coerced real difference. -/
theorem subf_coe {φ : FTy} (a b : ℝ) : FloatOps.subf (F := Ideal) (φ := φ) (a : EReal) (b : EReal) = ((a - b : ℝ) : EReal) :=
  sub_coe a b

/-- A row sum of exponentials over a nonempty index type is positive. -/
theorem sum_exp_pos {κ : Type*} [Fintype κ] [Nonempty κ] (s : κ → ℝ) (m : ℝ) : 0 < ∑ k, Real.exp (s k - m) :=
  Finset.sum_pos (fun k _ => Real.exp_pos _) Finset.univ_nonempty

/-! ### The running maximum from -∞ -/

/-- The maximum with -∞ is the other operand. -/
theorem bot_max (x : EReal) : max ⊥ x = x := max_bot_left x
theorem max_bot' (x : EReal) : max x ⊥ = x := max_bot_right x

/-- The fold of the maximum from -∞ over a nonempty finite family of coerced reals is the coerced greatest entry. -/
theorem fold_max_coe {κ : Type*} [Fintype κ] [Nonempty κ] (s : κ → ℝ) :
    (Finset.univ : Finset κ).fold max (⊥ : EReal) (fun k => (s k : EReal))
      = ((Finset.univ.sup' Finset.univ_nonempty s : ℝ) : EReal) := by
  have h1 : (Finset.univ : Finset κ).fold max (⊥ : EReal) (fun k => (s k : EReal))
      = Finset.univ.sup' Finset.univ_nonempty (fun k => (s k : EReal)) :=
    (Finset.sup'_eq_sup Finset.univ_nonempty _).symm
  rw [h1]
  exact (Finset.apply_sup'_eq_sup'_comp Finset.univ_nonempty (f := s) (fun r : ℝ => (r : EReal))
    (fun x y => EReal.coe_strictMono.monotone.map_max)).symm

/-- So it is a real, at least every entry, and one of the entries. -/
theorem fold_max_real {κ : Type*} [Fintype κ] [Nonempty κ] (s : κ → ℝ) :
    ∃ r : ℝ, (Finset.univ : Finset κ).fold max (⊥ : EReal) (fun k => (s k : EReal)) = (r : EReal)
      ∧ (∀ k, s k ≤ r) ∧ ∃ k, r = s k := by
  refine ⟨Finset.univ.sup' Finset.univ_nonempty s, fold_max_coe s, fun k => Finset.le_sup' s (Finset.mem_univ k), ?_⟩
  obtain ⟨k, _, hk⟩ := Finset.exists_mem_eq_sup' Finset.univ_nonempty s
  exact ⟨k, hk⟩

/-- The same with the accumulator spelt as the f32 word of -∞. -/
theorem fold_max_ofBits_real {κ : Type*} [Fintype κ] [Nonempty κ] (s : κ → ℝ) :
    ∃ r : ℝ, (Finset.univ : Finset κ).fold max (Ideal.ofBits .f32 0xFF800000#32) (fun k => (s k : EReal)) = (r : EReal)
      ∧ (∀ k, s k ≤ r) ∧ ∃ k, r = s k := by
  rw [ofBits_neg_inf]; exact fold_max_real s

/-! ### Normalizing after the weighted sum is normalizing each weight before it -/

/-- For real weights p, values v and a nonzero real l: the weighted sum times the reciprocal of l is the
    sum of the weights each divided by l, times the values; both are the real (∑ p v) / l. -/
theorem weighted_mul_recip_coe {κ : Type*} [Fintype κ] (p v : κ → ℝ) (l : ℝ) (hl : l ≠ 0) :
    (∑ k, (p k : EReal) * (v k : EReal)) * Ideal.div ((1 : ℝ) : EReal) (l : EReal)
      = (((∑ k, p k * v k) / l : ℝ) : EReal) := by
  rw [dot_coe, div_coe_coe _ _ hl, ← EReal.coe_mul, mul_one_div]

theorem weighted_div_coe {κ : Type*} [Fintype κ] (p v : κ → ℝ) (l : ℝ) (hl : l ≠ 0) :
    (∑ k, Ideal.div (p k : EReal) (l : EReal) * (v k : EReal)) = (((∑ k, p k * v k) / l : ℝ) : EReal) := by
  have h : ∀ k, Ideal.div (p k : EReal) (l : EReal) * (v k : EReal) = ((p k * v k / l : ℝ) : EReal) := fun k => by
    rw [div_coe_coe _ _ hl, ← EReal.coe_mul]; congr 1; ring
  rw [Finset.sum_congr rfl fun k _ => h k, coe_sum_univ, Finset.sum_div]

theorem normalize_after_gen {κ : Type*} [Fintype κ] (p v : κ → ℝ) (l : ℝ) (hl : l ≠ 0) :
    (∑ k, (p k : EReal) * (v k : EReal)) * Ideal.div ((1 : ℝ) : EReal) (l : EReal)
      = ∑ k, Ideal.div (p k : EReal) (l : EReal) * (v k : EReal) :=
  (weighted_mul_recip_coe p v l hl).trans (weighted_div_coe p v l hl).symm

/-- The softmax form: weights exp (s k - m), normalizer their sum (positive over a nonempty index type). -/
theorem normalize_after {κ : Type*} [Fintype κ] [Nonempty κ] (s v : κ → ℝ) (m : ℝ) :
    (∑ k, ((Real.exp (s k - m) : ℝ) : EReal) * (v k : EReal))
        * Ideal.div ((1 : ℝ) : EReal) ((∑ k, Real.exp (s k - m) : ℝ) : EReal)
      = ∑ k, Ideal.div ((Real.exp (s k - m) : ℝ) : EReal) ((∑ k, Real.exp (s k - m) : ℝ) : EReal) * (v k : EReal) :=
  normalize_after_gen (fun k => Real.exp (s k - m)) v _ (sum_exp_pos s m).ne'

/-- The row sum of the coerced exponentials is the coerced real row sum. -/
theorem sum_exp_coe {κ : Type*} [Fintype κ] (s : κ → ℝ) (m : ℝ) :
    (∑ k, Ideal.exp ((s k : EReal) - (m : EReal))) = ((∑ k, Real.exp (s k - m) : ℝ) : EReal) :=
  (Finset.sum_congr rfl fun k _ => exp_sub_coe (s k) m).trans (coe_sum_univ _)

end Cert.AttnLaws

end
-- ==== Proof.AttnRow.lean ====
/- One row of scaled dot-product attention over the extended reals, in the two arrangements to be compared:
   (K) the scale 1/8 folded into the query before the contraction, the row maximum taken from -∞, the
   weights exp (score - maximum), and the weighted sum of values multiplied AFTERWARDS by the reciprocal of
   the weights' sum; (R) the contraction divided by 8, the maximum taken from -∞ and once more against -∞,
   the same exponentials, and each weight divided by the weights' sum BEFORE the weighted sum. For finite
   (real) queries, keys and values the scores agree, the maxima agree and are real, and the two rows are
   the same real number. Also: a contraction of finite operands is finite. -/
import proofs.«177362_j16192026706464_2_alg».proof.Proof.AttnLaws

noncomputable section

namespace Cert.AttnRow

open Idealize.ShloMosaic Cert.AttnLaws
open scoped BigOperators

variable {κ τ : Type*} [Fintype κ] [Fintype τ]

/-! ### The two arrangements, spelt with the float words and operations as they stand -/

/-- (K) scores: the scale folded into the query. -/
@[reducible] def SK (q : τ → EReal) (k : κ → τ → EReal) (j : κ) : EReal :=
  ∑ t, (q t * Ideal.ofBits .bf16 0x3E00#16) * k j t
/-- (K) row maximum, from -∞. -/
@[reducible] def MK (q : τ → EReal) (k : κ → τ → EReal) : EReal :=
  (Finset.univ : Finset κ).fold max (Ideal.ofBits .f32 0xFF800000#32) (fun j => SK q k j)
/-- (K) weights. -/
@[reducible] def PK (q : τ → EReal) (k : κ → τ → EReal) (j : κ) : EReal := Ideal.exp (SK q k j - MK q k)
/-- (K) the row: weighted sum, then times the reciprocal of the weights' sum. -/
@[reducible] def outK (q : τ → EReal) (k : κ → τ → EReal) (v : κ → EReal) : EReal :=
  (∑ j, PK q k j * v j) * Ideal.div (Ideal.ofBits .f32 0x3F800000#32) (∑ j, PK q k j)
/-- (R) scores: the contraction divided by 8. -/
@[reducible] def SR (q : τ → EReal) (k : κ → τ → EReal) (j : κ) : EReal :=
  Ideal.div (∑ t, q t * k j t) (Ideal.ofBits .f32 0x41000000#32)
/-- (R) row maximum, from -∞ and once more against -∞. -/
@[reducible] def MR (q : τ → EReal) (k : κ → τ → EReal) : EReal :=
  max (Ideal.ofBits .f32 0xFF800000#32)
    ((Finset.univ : Finset κ).fold max (Ideal.ofBits .f32 0xFF800000#32) (fun j => SR q k j))
/-- (R) weights before normalization. -/
@[reducible] def ER (q : τ → EReal) (k : κ → τ → EReal) (j : κ) : EReal := Ideal.exp (SR q k j - MR q k)
/-- (R) the row: each weight divided by the weights' sum, then the weighted sum. -/
@[reducible] def outR (q : τ → EReal) (k : κ → τ → EReal) (v : κ → EReal) : EReal :=
  ∑ j, Ideal.div (ER q k j) (∑ j', ER q k j') * v j

/-! ### The real quantities both arrangements compute -/

/-- The real score (∑ q k) / 8. -/
def sR (qr : τ → ℝ) (kr : κ → τ → ℝ) (j : κ) : ℝ := (∑ t, qr t * kr j t) / 8
/-- The greatest real score of the row. -/
def mR [Nonempty κ] (qr : τ → ℝ) (kr : κ → τ → ℝ) : ℝ := Finset.univ.sup' Finset.univ_nonempty (sR qr kr)
/-- The real weight exp (score - greatest score). -/
def pR [Nonempty κ] (qr : τ → ℝ) (kr : κ → τ → ℝ) (j : κ) : ℝ := Real.exp (sR qr kr j - mR qr kr)
/-- The real row (∑ p v) / (∑ p). -/
def oR [Nonempty κ] (qr : τ → ℝ) (kr : κ → τ → ℝ) (vr : κ → ℝ) : ℝ :=
  (∑ j, pR qr kr j * vr j) / (∑ j, pR qr kr j)

theorem sum_pR_pos [Nonempty κ] (qr : τ → ℝ) (kr : κ → τ → ℝ) : 0 < ∑ j, pR qr kr j :=
  sum_exp_pos (sR qr kr) (mR qr kr)

/-! ### Each piece at coerced reals -/

theorem SK_coe (qr : τ → ℝ) (kr : κ → τ → ℝ) (j : κ) :
    SK (fun t => (qr t : EReal)) (fun j t => (kr j t : EReal)) j = (sR qr kr j : EReal) := by
  unfold SK; rw [ofBits_eighth]; exact scaled_dot_coe qr (kr j)

theorem SR_coe (qr : τ → ℝ) (kr : κ → τ → ℝ) (j : κ) :
    SR (fun t => (qr t : EReal)) (fun j t => (kr j t : EReal)) j = (sR qr kr j : EReal) := by
  unfold SR; rw [ofBits_eight]; exact dot_div_eight_coe qr (kr j)

theorem MK_coe [Nonempty κ] (qr : τ → ℝ) (kr : κ → τ → ℝ) :
    MK (fun t => (qr t : EReal)) (fun j t => (kr j t : EReal)) = (mR qr kr : EReal) := by
  unfold MK
  rw [show (fun j => SK (fun t => (qr t : EReal)) (fun j t => (kr j t : EReal)) j)
        = fun j => (sR qr kr j : EReal) from funext (SK_coe qr kr), ofBits_neg_inf]
  exact fold_max_coe (sR qr kr)

theorem MR_coe [Nonempty κ] (qr : τ → ℝ) (kr : κ → τ → ℝ) :
    MR (fun t => (qr t : EReal)) (fun j t => (kr j t : EReal)) = (mR qr kr : EReal) := by
  unfold MR
  rw [show (fun j => SR (fun t => (qr t : EReal)) (fun j t => (kr j t : EReal)) j)
        = fun j => (sR qr kr j : EReal) from funext (SR_coe qr kr), ofBits_neg_inf, bot_max]
  exact fold_max_coe (sR qr kr)

theorem PK_coe [Nonempty κ] (qr : τ → ℝ) (kr : κ → τ → ℝ) (j : κ) :
    PK (fun t => (qr t : EReal)) (fun j t => (kr j t : EReal)) j = (pR qr kr j : EReal) := by
  unfold PK; rw [SK_coe, MK_coe]; exact exp_sub_coe _ _

theorem ER_coe [Nonempty κ] (qr : τ → ℝ) (kr : κ → τ → ℝ) (j : κ) :
    ER (fun t => (qr t : EReal)) (fun j t => (kr j t : EReal)) j = (pR qr kr j : EReal) := by
  unfold ER; rw [SR_coe, MR_coe]; exact exp_sub_coe _ _

theorem outK_coe [Nonempty κ] (qr : τ → ℝ) (kr : κ → τ → ℝ) (vr : κ → ℝ) :
    outK (fun t => (qr t : EReal)) (fun j t => (kr j t : EReal)) (fun j => (vr j : EReal)) = (oR qr kr vr : EReal) := by
  unfold outK
  rw [show (fun j => PK (fun t => (qr t : EReal)) (fun j t => (kr j t : EReal)) j)
        = fun j => (pR qr kr j : EReal) from funext (PK_coe qr kr)]
  simp only [PK_coe]
  rw [ofBits_one, coe_sum_univ]
  exact weighted_mul_recip_coe (pR qr kr) vr _ (sum_pR_pos qr kr).ne'

theorem outR_coe [Nonempty κ] (qr : τ → ℝ) (kr : κ → τ → ℝ) (vr : κ → ℝ) :
    outR (fun t => (qr t : EReal)) (fun j t => (kr j t : EReal)) (fun j => (vr j : EReal)) = (oR qr kr vr : EReal) := by
  unfold outR
  simp only [ER_coe]
  rw [coe_sum_univ]
  exact weighted_div_coe (pR qr kr) vr _ (sum_pR_pos qr kr).ne'

/-! ### The statements for finite extended-real families -/

/-- A pointwise-finite family is the coercion of a real family. -/
theorem exists_real_fun {α : Type*} (f : α → EReal) (h : ∀ a, ∃ r : ℝ, f a = (r : EReal)) :
    ∃ g : α → ℝ, f = fun a => (g a : EReal) := by
  choose g hg using h; exact ⟨g, funext hg⟩

theorem exists_real_fun₂ {α β : Type*} (f : α → β → EReal) (h : ∀ a b, ∃ r : ℝ, f a b = (r : EReal)) :
    ∃ g : α → β → ℝ, f = fun a b => (g a b : EReal) := by
  choose g hg using h; exact ⟨g, funext fun a => funext (hg a)⟩

/-- A contraction (one entry of a matrix product) of finite operands is finite. -/
theorem dot_real {ι : Type*} [Fintype ι] (x w : ι → EReal) (hx : ∀ d, ∃ r : ℝ, x d = (r : EReal))
    (hw : ∀ d, ∃ r : ℝ, w d = (r : EReal)) : ∃ r : ℝ, (∑ d, x d * w d) = (r : EReal) := by
  obtain ⟨xr, rfl⟩ := exists_real_fun x hx
  obtain ⟨wr, rfl⟩ := exists_real_fun w hw
  exact ⟨_, dot_coe xr wr⟩

section Row
variable (q : τ → EReal) (k : κ → τ → EReal) (v : κ → EReal)
  (hq : ∀ t, ∃ r : ℝ, q t = (r : EReal)) (hk : ∀ j t, ∃ r : ℝ, k j t = (r : EReal))
  (hv : ∀ j, ∃ r : ℝ, v j = (r : EReal))
include hq hk

/-- The two scores agree. -/
theorem SK_eq_SR (j : κ) : SK q k j = SR q k j := by
  obtain ⟨qr, rfl⟩ := exists_real_fun q hq
  obtain ⟨kr, rfl⟩ := exists_real_fun₂ k hk
  rw [SK_coe, SR_coe]

/-- The score is a real. -/
theorem SK_real (j : κ) : ∃ r : ℝ, SK q k j = (r : EReal) := by
  obtain ⟨qr, rfl⟩ := exists_real_fun q hq
  obtain ⟨kr, rfl⟩ := exists_real_fun₂ k hk
  exact ⟨_, SK_coe qr kr j⟩

theorem SR_real (j : κ) : ∃ r : ℝ, SR q k j = (r : EReal) := by
  obtain ⟨qr, rfl⟩ := exists_real_fun q hq
  obtain ⟨kr, rfl⟩ := exists_real_fun₂ k hk
  exact ⟨_, SR_coe qr kr j⟩

variable [Nonempty κ]

/-- The two row maxima agree. -/
theorem MK_eq_MR : MK q k = MR q k := by
  obtain ⟨qr, rfl⟩ := exists_real_fun q hq
  obtain ⟨kr, rfl⟩ := exists_real_fun₂ k hk
  rw [MK_coe, MR_coe]

/-- The row maximum is a real. -/
theorem MK_real : ∃ r : ℝ, MK q k = (r : EReal) := by
  obtain ⟨qr, rfl⟩ := exists_real_fun q hq
  obtain ⟨kr, rfl⟩ := exists_real_fun₂ k hk
  exact ⟨_, MK_coe qr kr⟩

theorem MR_real : ∃ r : ℝ, MR q k = (r : EReal) := by
  obtain ⟨qr, rfl⟩ := exists_real_fun q hq
  obtain ⟨kr, rfl⟩ := exists_real_fun₂ k hk
  exact ⟨_, MR_coe qr kr⟩

/-- The two weights agree, and are positive reals. -/
theorem PK_eq_ER (j : κ) : PK q k j = ER q k j := by
  obtain ⟨qr, rfl⟩ := exists_real_fun q hq
  obtain ⟨kr, rfl⟩ := exists_real_fun₂ k hk
  rw [PK_coe, ER_coe]

theorem PK_real (j : κ) : ∃ r : ℝ, 0 < r ∧ PK q k j = (r : EReal) := by
  obtain ⟨qr, rfl⟩ := exists_real_fun q hq
  obtain ⟨kr, rfl⟩ := exists_real_fun₂ k hk
  exact ⟨_, Real.exp_pos _, PK_coe qr kr j⟩

include hv

/-- One row of attention: the two arrangements give the same value. -/
theorem attn_row : outK q k v = outR q k v := by
  obtain ⟨qr, rfl⟩ := exists_real_fun q hq
  obtain ⟨kr, rfl⟩ := exists_real_fun₂ k hk
  obtain ⟨vr, rfl⟩ := exists_real_fun v hv
  rw [outK_coe, outR_coe]

/-- And that value is a real. -/
theorem outK_real : ∃ r : ℝ, outK q k v = (r : EReal) := by
  obtain ⟨qr, rfl⟩ := exists_real_fun q hq
  obtain ⟨kr, rfl⟩ := exists_real_fun₂ k hk
  obtain ⟨vr, rfl⟩ := exists_real_fun v hv
  exact ⟨_, outK_coe qr kr vr⟩

theorem outR_real : ∃ r : ℝ, outR q k v = (r : EReal) := by
  obtain ⟨qr, rfl⟩ := exists_real_fun q hq
  obtain ⟨kr, rfl⟩ := exists_real_fun₂ k hk
  obtain ⟨vr, rfl⟩ := exists_real_fun v hv
  exact ⟨_, outR_coe qr kr vr⟩

end Row

end Cert.AttnRow

end
-- ==== Proof.Common.lean ====
/-
  The two programs' results as ONE family of formulas over the argument arrays.

  An entry of a projected and re-laid array is a row of the activations against a row of the weight (`proj`). One
  entry of the attention output is a function of a query row, the head's key rows and one column of the head's values;
  the kernel computes it with the scale folded into the queries and the normalisation after the product with the
  values (`attnK`), the reference scales the scores and normalises the weights (`attnR`). For finite inputs every
  projection entry is a real number, and then the two agree (the one-row law). The result is the output projection of
  the attention output, re-laid back, plus the bias (`result`).
-/
import proofs.«177362_j16192026706464_2_alg».proof.Proof.AttnRow
import Idealize.ShloMosaic.Lib.ValueIdx

noncomputable section

namespace Cert.Common

open Idealize.ShloMosaic Idealize.ShloMosaic.ValueIdx

/-- The activations' shape, the weights' shape, the bias' shape. -/
abbrev SX : Shape := ⟨3, ![2, 2048, 1024]⟩
abbrev SW : Shape := ⟨2, ![1024, 1024]⟩
abbrev SB : Shape := ⟨1, ![1024]⟩

/-- One entry of a projected and re-laid array: row `(b, s)` of the activations against row `h·64 + t` of the weight. -/
def proj (x : SX.Idx → EReal) (w : SW.Idx → EReal) (b : Fin 2) (h : Fin 16) (s : Fin 2048) (t : Fin 64) : EReal :=
  ∑ d : Fin 1024, x (ix3 b s d) * w (ix2 (⟨h.val * 64 + t.val, by omega⟩ : Fin 1024) d)

/-- Finite activations against finite weights give a real number. -/
theorem proj_real (x : SX.Idx → EReal) (w : SW.Idx → EReal) (hx : ∀ i, ∃ r : ℝ, x i = (r : EReal)) (hw : ∀ i, ∃ r : ℝ, w i = (r : EReal))
    (b : Fin 2) (h : Fin 16) (s : Fin 2048) (t : Fin 64) : ∃ r : ℝ, proj x w b h s t = (r : EReal) :=
  Cert.AttnRow.dot_real _ _ (fun _ => hx _) (fun _ => hw _)

/-- One entry of the attention output as the kernel computes it. -/
def attnK (x : SX.Idx → EReal) (wq wk wv : SW.Idx → EReal) (b : Fin 2) (h : Fin 16) (q : Fin 2048) (d : Fin 64) : EReal :=
  Cert.AttnRow.outK (fun t : Fin 64 => proj x wq b h q t) (fun (j : Fin 2048) (t : Fin 64) => proj x wk b h j t)
    (fun j : Fin 2048 => proj x wv b h j d)

/-- One entry of the attention output as the reference computes it. -/
def attnR (x : SX.Idx → EReal) (wq wk wv : SW.Idx → EReal) (b : Fin 2) (h : Fin 16) (q : Fin 2048) (d : Fin 64) : EReal :=
  Cert.AttnRow.outR (fun t : Fin 64 => proj x wq b h q t) (fun (j : Fin 2048) (t : Fin 64) => proj x wk b h j t)
    (fun j : Fin 2048 => proj x wv b h j d)

/-- For finite inputs the two attention formulas agree: the scores are the same reals, so are the row maxima and the
    weights, and a sum of products divided by a positive real is the sum of the products with the divided weights. -/
theorem attnK_eq_attnR (x : SX.Idx → EReal) (wq wk wv : SW.Idx → EReal) (hx : ∀ i, ∃ r : ℝ, x i = (r : EReal))
    (hq : ∀ i, ∃ r : ℝ, wq i = (r : EReal)) (hk : ∀ i, ∃ r : ℝ, wk i = (r : EReal)) (hv : ∀ i, ∃ r : ℝ, wv i = (r : EReal))
    (b : Fin 2) (h : Fin 16) (q : Fin 2048) (d : Fin 64) : attnK x wq wk wv b h q d = attnR x wq wk wv b h q d :=
  Cert.AttnRow.attn_row _ _ _ (fun t => proj_real x wq hx hq b h q t) (fun j t => proj_real x wk hx hk b h j t)
    (fun j => proj_real x wv hx hv b h j d)

/-- One entry of the result: the attention output of row `(b, s)`, its heads side by side, against row `e` of the output
    weight, plus the bias. -/
def result (A : Fin 2 → Fin 16 → Fin 2048 → Fin 64 → EReal) (wo : SW.Idx → EReal) (bo : SB.Idx → EReal)
    (b : Fin 2) (s : Fin 2048) (e : Fin 1024) : EReal :=
  (∑ d : Fin 1024, A b (⟨d.val / 64, by omega⟩ : Fin 16) s (⟨d.val % 64, by omega⟩ : Fin 64) * wo (ix2 e d)) + bo (ix1 e)

end Cert.Common

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«177362_j16192026706464_2_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.Payloads.lean ====
/-
  The three kernel bodies' stored values, read at an index, over the extended reals.

  Each body stores a value computed from the blocks it loaded. Over the extended reals every float operation is
  exact and a change of format is the identity, so each stored value, read at one index, is a closed expression
  in the loaded blocks' entries:
  • the projection body stores three column bands of one product `x · w` (`w` the three projection matrices side
    by side): band `b` at `(r, e)` is `∑ d, x (r, d) * w (d, 1024 b + e)`;
  • the output body stores `x · w` plus the bias row: at `(r, e)`, `(∑ d, x (r, d) * w (d, e)) + b (0, e)`;
  • the attention body stores, for one head and one tile of queries, the softmax-weighted sum of the value rows:
    with scores `S r j = ∑ t, (q (r, t) * c) * k (j, t)` (`c` the scale constant), row maxima `M r` (the fold of
    `max` over the row from the reduction's initial value), weights `P r j = exp (S r j - M r)`, the stored value
    at `(r, d)` is `(∑ j, P r j * v (j, d)) * (1 / ∑ j, P r j)`, the quotient being the ideal division.
-/
import proofs.«177362_j16192026706464_2_alg».proof.Proof.Gen.KernelIdeal.Skeleton
import proofs.«177362_j16192026706464_2_alg».proof.Proof.LibColumns
import proofs.«177362_j16192026706464_2_alg».proof.Proof.LibRowSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Idealize.ShloMosaic Idealize.ShloMosaic.ValueIdx Cert.KernelIdeal Cert.KernelIdeal.Gen

/-! ## A plain matrix product into the zero accumulator, read at an index -/

/-- The left operand's index of `dot_S512x1024_S1024x3072_S512x3072_1_0_0_1_n_n`: row from the output's row, column the contracted coordinate. -/
theorem matmul_proj_apply_lhs0 (i : S512x3072.Idx) (q : dot_S512x1024_S1024x3072_S512x3072_1_0_0_1_n_n.contr.Idx) : (dot_S512x1024_S1024x3072_S512x3072_1_0_0_1_n_n.lhsIdx i q 0).val = (i 0).val := by
  unfold DotDims.lhsIdx
  rw [dif_neg (show ¬(0 : Fin S512x1024.rank) ∈ dot_S512x1024_S1024x3072_S512x3072_1_0_0_1_n_n.lhsBatch by decide),
    dif_pos (show (0 : Fin S512x1024.rank) ∈ dot_S512x1024_S1024x3072_S512x3072_1_0_0_1_n_n.lhsNonContracting by decide)]
  rfl
theorem matmul_proj_apply_lhs1 (i : S512x3072.Idx) (q : dot_S512x1024_S1024x3072_S512x3072_1_0_0_1_n_n.contr.Idx) : (dot_S512x1024_S1024x3072_S512x3072_1_0_0_1_n_n.lhsIdx i q 1).val = (q ⟨0, by decide⟩).val :=
  dot_S512x1024_S1024x3072_S512x3072_1_0_0_1_n_n.lhsIdx_val_of_single rfl i q
/-- The right operand's index: row the contracted coordinate, column from the output's column. -/
theorem matmul_proj_apply_rhs0 (i : S512x3072.Idx) (q : dot_S512x1024_S1024x3072_S512x3072_1_0_0_1_n_n.contr.Idx) : (dot_S512x1024_S1024x3072_S512x3072_1_0_0_1_n_n.rhsIdx i q 0).val = (q ⟨0, by decide⟩).val :=
  dot_S512x1024_S1024x3072_S512x3072_1_0_0_1_n_n.rhsIdx_val_of_single rfl i q
theorem matmul_proj_apply_rhs1 (i : S512x3072.Idx) (q : dot_S512x1024_S1024x3072_S512x3072_1_0_0_1_n_n.contr.Idx) : (dot_S512x1024_S1024x3072_S512x3072_1_0_0_1_n_n.rhsIdx i q 1).val = (i 1).val := by
  unfold DotDims.rhsIdx
  rw [dif_neg (show ¬(1 : Fin S1024x3072.rank) ∈ dot_S512x1024_S1024x3072_S512x3072_1_0_0_1_n_n.rhsBatch by decide),
    dif_pos (show (1 : Fin S1024x3072.rank) ∈ dot_S512x1024_S1024x3072_S512x3072_1_0_0_1_n_n.rhsNonContracting by decide)]
  rfl

/-- The projection body's product `[512, 1024] · [1024, 3072]` into the zero accumulator at `(a, b)`: the sum over the contracted coordinate. -/
theorem matmul_proj_apply {φ₁ φ₂ : FTy} (A : FVec Ideal S512x1024 φ₁) (B : FVec Ideal S1024x3072 φ₂) (a : Fin 512) (b : Fin 3072) :
    matmul dot_S512x1024_S1024x3072_S512x3072_1_0_0_1_n_n none A B (constant (F := Ideal) S512x3072 .f32 0x00000000#32) (ix2 a b)
      = ∑ c : Fin 1024, A (ix2 a c) * B (ix2 c b) := by
  show FloatOps.matmul dot_S512x1024_S1024x3072_S512x3072_1_0_0_1_n_n none A B _ (ix2 a b) = _
  rw [Ideal.matmul_constant_zero_apply, ← Equiv.sum_comp (contrEquiv1 dot_S512x1024_S1024x3072_S512x3072_1_0_0_1_n_n 1024 rfl rfl).symm]
  refine Finset.sum_congr rfl fun c _ => ?_
  have hc := contrEquiv1_symm_val dot_S512x1024_S1024x3072_S512x3072_1_0_0_1_n_n 1024 rfl rfl c
  have el : dot_S512x1024_S1024x3072_S512x3072_1_0_0_1_n_n.lhsIdx (ix2 a b) ((contrEquiv1 dot_S512x1024_S1024x3072_S512x3072_1_0_0_1_n_n 1024 rfl rfl).symm c) = ix2 a c :=
    funext fun ax => Fin.ext (by
      match ax with
      | ⟨0, _⟩ => exact matmul_proj_apply_lhs0 _ _
      | ⟨1, _⟩ => exact (matmul_proj_apply_lhs1 _ _).trans hc)
  have er : dot_S512x1024_S1024x3072_S512x3072_1_0_0_1_n_n.rhsIdx (ix2 a b) ((contrEquiv1 dot_S512x1024_S1024x3072_S512x3072_1_0_0_1_n_n 1024 rfl rfl).symm c) = ix2 c b :=
    funext fun ax => Fin.ext (by
      match ax with
      | ⟨0, _⟩ => exact (matmul_proj_apply_rhs0 _ _).trans hc
      | ⟨1, _⟩ => exact matmul_proj_apply_rhs1 _ _)
  rw [el, er]

/-- The left operand's index of `dot_S512x1024_S1024x1024_S512x1024_1_0_0_1_n_n`: row from the output's row, column the contracted coordinate. -/
theorem matmul_out_apply_lhs0 (i : S512x1024.Idx) (q : dot_S512x1024_S1024x1024_S512x1024_1_0_0_1_n_n.contr.Idx) : (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide),
    dif_pos (show (0 : Fin S512x1024.rank) ∈ dot_S512x1024_S1024x1024_S512x1024_1_0_0_1_n_n.lhsNonContracting by decide)]
  rfl
theorem matmul_out_apply_lhs1 (i : S512x1024.Idx) (q : dot_S512x1024_S1024x1024_S512x1024_1_0_0_1_n_n.contr.Idx) : (dot_S512x1024_S1024x1024_S512x1024_1_0_0_1_n_n.lhsIdx i q 1).val = (q ⟨0, by decide⟩).val :=
  dot_S512x1024_S1024x1024_S512x1024_1_0_0_1_n_n.lhsIdx_val_of_single rfl i q
/-- The right operand's index: row the contracted coordinate, column from the output's column. -/
theorem matmul_out_apply_rhs0 (i : S512x1024.Idx) (q : dot_S512x1024_S1024x1024_S512x1024_1_0_0_1_n_n.contr.Idx) : (dot_S512x1024_S1024x1024_S512x1024_1_0_0_1_n_n.rhsIdx i q 0).val = (q ⟨0, by decide⟩).val :=
  dot_S512x1024_S1024x1024_S512x1024_1_0_0_1_n_n.rhsIdx_val_of_single rfl i q
theorem matmul_out_apply_rhs1 (i : S512x1024.Idx) (q : dot_S512x1024_S1024x1024_S512x1024_1_0_0_1_n_n.contr.Idx) : (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide),
    dif_pos (show (1 : Fin S1024x1024.rank) ∈ dot_S512x1024_S1024x1024_S512x1024_1_0_0_1_n_n.rhsNonContracting by decide)]
  rfl

/-- The output body's product `[512, 1024] · [1024, 1024]` into the zero accumulator at `(a, b)`. -/
theorem matmul_out_apply {φ₁ φ₂ : FTy} (A : FVec Ideal S512x1024 φ₁) (B : FVec Ideal S1024x1024 φ₂) (a : Fin 512) (b : Fin 1024) :
    matmul dot_S512x1024_S1024x1024_S512x1024_1_0_0_1_n_n none A B (constant (F := Ideal) S512x1024 .f32 0x00000000#32) (ix2 a b)
      = ∑ c : Fin 1024, A (ix2 a c) * B (ix2 c b) := by
  show FloatOps.matmul dot_S512x1024_S1024x1024_S512x1024_1_0_0_1_n_n none A B _ (ix2 a b) = _
  rw [Ideal.matmul_constant_zero_apply, ← Equiv.sum_comp (contrEquiv1 dot_S512x1024_S1024x1024_S512x1024_1_0_0_1_n_n 1024 rfl rfl).symm]
  refine Finset.sum_congr rfl fun c _ => ?_
  have hc := contrEquiv1_symm_val dot_S512x1024_S1024x1024_S512x1024_1_0_0_1_n_n 1024 rfl rfl c
  have el : dot_S512x1024_S1024x1024_S512x1024_1_0_0_1_n_n.lhsIdx (ix2 a b) ((contrEquiv1 dot_S512x1024_S1024x1024_S512x1024_1_0_0_1_n_n 1024 rfl rfl).symm c) = ix2 a c :=
    funext fun ax => Fin.ext (by
      match ax with
      | ⟨0, _⟩ => exact matmul_out_apply_lhs0 _ _
      | ⟨1, _⟩ => exact (matmul_out_apply_lhs1 _ _).trans hc)
  have er : dot_S512x1024_S1024x1024_S512x1024_1_0_0_1_n_n.rhsIdx (ix2 a b) ((contrEquiv1 dot_S512x1024_S1024x1024_S512x1024_1_0_0_1_n_n 1024 rfl rfl).symm c) = ix2 c b :=
    funext fun ax => Fin.ext (by
      match ax with
      | ⟨0, _⟩ => exact (matmul_out_apply_rhs0 _ _).trans hc
      | ⟨1, _⟩ => exact matmul_out_apply_rhs1 _ _)
  rw [el, er]

/-- The left operand's index of `dot_S512x64_S64x2048_S512x2048_1_0_0_1_n_n`: row from the output's row, column the contracted coordinate. -/
theorem matmul_qk_apply_lhs0 (i : S512x2048.Idx) (q : dot_S512x64_S64x2048_S512x2048_1_0_0_1_n_n.contr.Idx) : (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide),
    dif_pos (show (0 : Fin S512x64.rank) ∈ dot_S512x64_S64x2048_S512x2048_1_0_0_1_n_n.lhsNonContracting by decide)]
  rfl
theorem matmul_qk_apply_lhs1 (i : S512x2048.Idx) (q : dot_S512x64_S64x2048_S512x2048_1_0_0_1_n_n.contr.Idx) : (dot_S512x64_S64x2048_S512x2048_1_0_0_1_n_n.lhsIdx i q 1).val = (q ⟨0, by decide⟩).val :=
  dot_S512x64_S64x2048_S512x2048_1_0_0_1_n_n.lhsIdx_val_of_single rfl i q
/-- The right operand's index: row the contracted coordinate, column from the output's column. -/
theorem matmul_qk_apply_rhs0 (i : S512x2048.Idx) (q : dot_S512x64_S64x2048_S512x2048_1_0_0_1_n_n.contr.Idx) : (dot_S512x64_S64x2048_S512x2048_1_0_0_1_n_n.rhsIdx i q 0).val = (q ⟨0, by decide⟩).val :=
  dot_S512x64_S64x2048_S512x2048_1_0_0_1_n_n.rhsIdx_val_of_single rfl i q
theorem matmul_qk_apply_rhs1 (i : S512x2048.Idx) (q : dot_S512x64_S64x2048_S512x2048_1_0_0_1_n_n.contr.Idx) : (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide),
    dif_pos (show (1 : Fin S64x2048.rank) ∈ dot_S512x64_S64x2048_S512x2048_1_0_0_1_n_n.rhsNonContracting by decide)]
  rfl

/-- The attention body's score product `[512, 64] · [64, 2048]` into the zero accumulator at `(a, b)`. -/
theorem matmul_qk_apply {φ₁ φ₂ : FTy} (A : FVec Ideal S512x64 φ₁) (B : FVec Ideal S64x2048 φ₂) (a : Fin 512) (b : Fin 2048) :
    matmul dot_S512x64_S64x2048_S512x2048_1_0_0_1_n_n none A B (constant (F := Ideal) S512x2048 .f32 0x00000000#32) (ix2 a b)
      = ∑ c : Fin 64, A (ix2 a c) * B (ix2 c b) := by
  show FloatOps.matmul dot_S512x64_S64x2048_S512x2048_1_0_0_1_n_n none A B _ (ix2 a b) = _
  rw [Ideal.matmul_constant_zero_apply, ← Equiv.sum_comp (contrEquiv1 dot_S512x64_S64x2048_S512x2048_1_0_0_1_n_n 64 rfl rfl).symm]
  refine Finset.sum_congr rfl fun c _ => ?_
  have hc := contrEquiv1_symm_val dot_S512x64_S64x2048_S512x2048_1_0_0_1_n_n 64 rfl rfl c
  have el : dot_S512x64_S64x2048_S512x2048_1_0_0_1_n_n.lhsIdx (ix2 a b) ((contrEquiv1 dot_S512x64_S64x2048_S512x2048_1_0_0_1_n_n 64 rfl rfl).symm c) = ix2 a c :=
    funext fun ax => Fin.ext (by
      match ax with
      | ⟨0, _⟩ => exact matmul_qk_apply_lhs0 _ _
      | ⟨1, _⟩ => exact (matmul_qk_apply_lhs1 _ _).trans hc)
  have er : dot_S512x64_S64x2048_S512x2048_1_0_0_1_n_n.rhsIdx (ix2 a b) ((contrEquiv1 dot_S512x64_S64x2048_S512x2048_1_0_0_1_n_n 64 rfl rfl).symm c) = ix2 c b :=
    funext fun ax => Fin.ext (by
      match ax with
      | ⟨0, _⟩ => exact (matmul_qk_apply_rhs0 _ _).trans hc
      | ⟨1, _⟩ => exact matmul_qk_apply_rhs1 _ _)
  rw [el, er]

/-- The left operand's index of `dot_S512x2048_S2048x64_S512x64_1_0_0_1_n_n`: row from the output's row, column the contracted coordinate. -/
theorem matmul_pv_apply_lhs0 (i : S512x64.Idx) (q : dot_S512x2048_S2048x64_S512x64_1_0_0_1_n_n.contr.Idx) : (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide),
    dif_pos (show (0 : Fin S512x2048.rank) ∈ dot_S512x2048_S2048x64_S512x64_1_0_0_1_n_n.lhsNonContracting by decide)]
  rfl
theorem matmul_pv_apply_lhs1 (i : S512x64.Idx) (q : dot_S512x2048_S2048x64_S512x64_1_0_0_1_n_n.contr.Idx) : (dot_S512x2048_S2048x64_S512x64_1_0_0_1_n_n.lhsIdx i q 1).val = (q ⟨0, by decide⟩).val :=
  dot_S512x2048_S2048x64_S512x64_1_0_0_1_n_n.lhsIdx_val_of_single rfl i q
/-- The right operand's index: row the contracted coordinate, column from the output's column. -/
theorem matmul_pv_apply_rhs0 (i : S512x64.Idx) (q : dot_S512x2048_S2048x64_S512x64_1_0_0_1_n_n.contr.Idx) : (dot_S512x2048_S2048x64_S512x64_1_0_0_1_n_n.rhsIdx i q 0).val = (q ⟨0, by decide⟩).val :=
  dot_S512x2048_S2048x64_S512x64_1_0_0_1_n_n.rhsIdx_val_of_single rfl i q
theorem matmul_pv_apply_rhs1 (i : S512x64.Idx) (q : dot_S512x2048_S2048x64_S512x64_1_0_0_1_n_n.contr.Idx) : (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide),
    dif_pos (show (1 : Fin S2048x64.rank) ∈ dot_S512x2048_S2048x64_S512x64_1_0_0_1_n_n.rhsNonContracting by decide)]
  rfl

/-- The attention body's weighted sum of value rows `[512, 2048] · [2048, 64]` into the zero accumulator at `(a, b)`. -/
theorem matmul_pv_apply {φ₁ φ₂ : FTy} (A : FVec Ideal S512x2048 φ₁) (B : FVec Ideal S2048x64 φ₂) (a : Fin 512) (b : Fin 64) :
    matmul dot_S512x2048_S2048x64_S512x64_1_0_0_1_n_n none A B (constant (F := Ideal) S512x64 .f32 0x00000000#32) (ix2 a b)
      = ∑ c : Fin 2048, A (ix2 a c) * B (ix2 c b) := by
  show FloatOps.matmul dot_S512x2048_S2048x64_S512x64_1_0_0_1_n_n none A B _ (ix2 a b) = _
  rw [Ideal.matmul_constant_zero_apply, ← Equiv.sum_comp (contrEquiv1 dot_S512x2048_S2048x64_S512x64_1_0_0_1_n_n 2048 rfl rfl).symm]
  refine Finset.sum_congr rfl fun c _ => ?_
  have hc := contrEquiv1_symm_val dot_S512x2048_S2048x64_S512x64_1_0_0_1_n_n 2048 rfl rfl c
  have el : dot_S512x2048_S2048x64_S512x64_1_0_0_1_n_n.lhsIdx (ix2 a b) ((contrEquiv1 dot_S512x2048_S2048x64_S512x64_1_0_0_1_n_n 2048 rfl rfl).symm c) = ix2 a c :=
    funext fun ax => Fin.ext (by
      match ax with
      | ⟨0, _⟩ => exact matmul_pv_apply_lhs0 _ _
      | ⟨1, _⟩ => exact (matmul_pv_apply_lhs1 _ _).trans hc)
  have er : dot_S512x2048_S2048x64_S512x64_1_0_0_1_n_n.rhsIdx (ix2 a b) ((contrEquiv1 dot_S512x2048_S2048x64_S512x64_1_0_0_1_n_n 2048 rfl rfl).symm c) = ix2 c b :=
    funext fun ax => Fin.ext (by
      match ax with
      | ⟨0, _⟩ => exact (matmul_pv_apply_rhs0 _ _).trans hc
      | ⟨1, _⟩ => exact matmul_pv_apply_rhs1 _ _)
  rw [el, er]

/-! ## The projection body: three column bands of one product -/

/-- The projection body's product of the loaded blocks at `(r, c)`. -/
theorem pay1_apply (x : Vec Ideal S512x1024 .bf16) (w : Vec Ideal S1024x3072 .bf16) (r : Fin 512) (c : Fin 3072) :
    k0_pay1 (F := Ideal) x w (ix2 r c) = ∑ d : Fin 1024, x (ix2 r d) * w (ix2 d c) := by
  unfold k0_pay1
  simp only [shapeCast_self]
  exact matmul_proj_apply x w r c

/-- The first band (columns `0 … 1023`) at `(r, e)`. -/
theorem pay2_apply (x : Vec Ideal S512x1024 .bf16) (w : Vec Ideal S1024x3072 .bf16) (r : Fin 512) (e : Fin 1024) :
    k0_pay2 (F := Ideal) x w (ix2 r e) = ∑ d : Fin 1024, x (ix2 r d) * w (ix2 d (⟨e.val, by omega⟩ : Fin 3072)) := by
  unfold k0_pay2
  rw [truncf_apply]
  refine (slice2_axis1_apply 0 (k0_pay1 (F := Ideal) x w) slices_S512x3072_o0_0_S512x1024 r e (⟨e.val, by omega⟩ : Fin 3072) (by simp)).trans ?_
  exact pay1_apply x w r _

/-- The second band (columns `1024 … 2047`) at `(r, e)`. -/
theorem pay3_apply (x : Vec Ideal S512x1024 .bf16) (w : Vec Ideal S1024x3072 .bf16) (r : Fin 512) (e : Fin 1024) :
    k0_pay3 (F := Ideal) x w (ix2 r e) = ∑ d : Fin 1024, x (ix2 r d) * w (ix2 d (⟨1024 + e.val, by omega⟩ : Fin 3072)) := by
  unfold k0_pay3
  rw [truncf_apply]
  refine (slice2_axis1_apply 1024 (k0_pay1 (F := Ideal) x w) slices_S512x3072_o0_1024_S512x1024 r e (⟨1024 + e.val, by omega⟩ : Fin 3072) rfl).trans ?_
  exact pay1_apply x w r _

/-- The third band (columns `2048 … 3071`) at `(r, e)`. -/
theorem pay4_apply (x : Vec Ideal S512x1024 .bf16) (w : Vec Ideal S1024x3072 .bf16) (r : Fin 512) (e : Fin 1024) :
    k0_pay4 (F := Ideal) x w (ix2 r e) = ∑ d : Fin 1024, x (ix2 r d) * w (ix2 d (⟨2048 + e.val, by omega⟩ : Fin 3072)) := by
  unfold k0_pay4
  rw [truncf_apply]
  refine (slice2_axis1_apply 2048 (k0_pay1 (F := Ideal) x w) slices_S512x3072_o0_2048_S512x1024 r e (⟨2048 + e.val, by omega⟩ : Fin 3072) rfl).trans ?_
  exact pay1_apply x w r _

/-! ## The output body: a product plus the bias row -/

/-- The output body's stored value at `(r, e)`. -/
theorem pay_out_apply (x : Vec Ideal S512x1024 .bf16) (w : Vec Ideal S1024x1024 .bf16) (b : Vec Ideal S1x1024 .f32)
    (r : Fin 512) (e : Fin 1024) :
    k2_pay1 (F := Ideal) x w b (ix2 r e) = (∑ d : Fin 1024, x (ix2 r d) * w (ix2 d e)) + b (ix2 (0 : Fin 1) e) := by
  unfold k2_pay1
  simp only [shapeCast_self]
  rw [addf_apply, matmul_out_apply, broadcastTo_1b_ab_apply]

/-! ## Two leading unit axes dropped or added by a shape cast -/

section Layout
variable {α : Type}

/-- A `[1, 1, a, b]` array cast to `[a, b]` reads, at `(i, j)`, the operand at `(0, 0, i, j)`: the two indices have the
    same row-major position. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem shapeCast_ab_11ab_apply {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

end Layout

/-! ## The attention body: scores, row maxima, weights, and the normalised weighted sum -/

/-- The score of query row `r` against key row `j`: the scaled query row times the key row. -/
def S (q : Vec Ideal S1x1x512x64 .bf16) (k : Vec Ideal S1x1x2048x64 .bf16) (r : Fin 512) (j : Fin 2048) : EReal :=
  ∑ t : Fin 64, (q (ix4 (0 : Fin 1) (0 : Fin 1) r t) * Ideal.ofBits .bf16 0x3E00#16) * k (ix4 (0 : Fin 1) (0 : Fin 1) j t)

/-- The maximum of row `r` of the scores: the fold of `max` over the row from the reduction's initial value. -/
def M (q : Vec Ideal S1x1x512x64 .bf16) (k : Vec Ideal S1x1x2048x64 .bf16) (r : Fin 512) : EReal :=
  (Finset.univ : Finset (Fin 2048)).fold max (Ideal.ofBits .f32 0xFF800000#32) (fun j => S q k r j)

/-- The unnormalised softmax weight of key row `j` for query row `r`. -/
def P (q : Vec Ideal S1x1x512x64 .bf16) (k : Vec Ideal S1x1x2048x64 .bf16) (r : Fin 512) (j : Fin 2048) : EReal :=
  Ideal.exp (S q k r j - M q k r)

/-- The scores as the body computes them: the scaled query block times the transposed key block. -/
def scoreVec (q : Vec Ideal S1x1x512x64 .bf16) (k : Vec Ideal S1x1x2048x64 .bf16) : FVec Ideal S512x2048 .f32 :=
  matmul dot_S512x64_S64x2048_S512x2048_1_0_0_1_n_n none
    (mulf (shapeCast S512x64 q shapeCasts_S1x1x512x64_S512x64 : FVec Ideal S512x64 .bf16)
      (broadcast S512x64 (Scalar.ofBits (F := Ideal) .bf16 0x3E00#16)))
    (transpose S64x2048 [1, 0] (shapeCast S2048x64 k shapeCasts_S1x1x2048x64_S2048x64 : FVec Ideal S2048x64 .bf16)
      transposes_S2048x64_p1_0_S64x2048)
    (constant (F := Ideal) S512x2048 .f32 0x00000000#32)

/-- Each row's maximum, spread back along the row. -/
def rowMaxVec (s : FVec Ideal S512x2048 .f32) : FVec Ideal S512x2048 .f32 :=
  broadcastTo S512x2048
    (shapeCast S512x1 (multiReduction (F := Ideal) .maximumf [1] S512 s 0xFF800000#32 reduces_S512x2048_S512 (.inl rfl) rfl)
      shapeCasts_S512_S512x1)
    broadcasts_S512x1_S512x2048

/-- The weights: the exponential of each score minus its row's maximum. -/
def weightVec (s : FVec Ideal S512x2048 .f32) : FVec Ideal S512x2048 .f32 := exp (subf s (rowMaxVec s))

/-- One over each row's sum of weights, spread along a row of `64`. -/
def invSumVec (p : FVec Ideal S512x2048 .f32) : FVec Ideal S512x64 .f32 :=
  broadcastTo S512x64
    (divf (broadcast S512x1 (Scalar.ofBits (F := Ideal) .f32 0x3F800000#32))
      (shapeCast S512x1 (multiReduction (F := Ideal) .add [1] S512 p 0x00000000#32 reduces_S512x2048_S512 (.inl rfl) rfl)
        shapeCasts_S512_S512x1))
    broadcasts_S512x1_S512x64

/-- The attention body's stored value in terms of the vectors above. -/
def attnVec (q : Vec Ideal S1x1x512x64 .bf16) (k v : Vec Ideal S1x1x2048x64 .bf16) : FVec Ideal S1x1x512x64 .bf16 :=
  shapeCast S1x1x512x64
    (truncf .bf16
      (mulf
        (matmul dot_S512x2048_S2048x64_S512x64_1_0_0_1_n_n none
          (truncf .bf16 (weightVec (scoreVec q k)) bitsLt_bf16_f32 : FVec Ideal S512x2048 .bf16)
          (shapeCast S2048x64 v shapeCasts_S1x1x2048x64_S2048x64 : FVec Ideal S2048x64 .bf16)
          (constant (F := Ideal) S512x64 .f32 0x00000000#32))
        (invSumVec (weightVec (scoreVec q k))))
      bitsLt_bf16_f32 : FVec Ideal S512x64 .bf16)
    shapeCasts_S512x64_S1x1x512x64

/-- The printed stored value is that term: the same operations in the same order. -/
theorem pay_attn_eq (q : Vec Ideal S1x1x512x64 .bf16) (k v : Vec Ideal S1x1x2048x64 .bf16) :
    k1_pay1 (F := Ideal) q k v = attnVec q k v := rfl

/-- The body's scores at `(r, j)`. -/
theorem scoreVec_apply (q : Vec Ideal S1x1x512x64 .bf16) (k : Vec Ideal S1x1x2048x64 .bf16) (r : Fin 512) (j : Fin 2048) :
    scoreVec q k (ix2 r j) = S q k r j := by
  unfold scoreVec S
  refine (matmul_qk_apply _ _ r j).trans ?_
  refine Finset.sum_congr rfl fun t _ => ?_
  rw [mulf_apply, broadcast_apply, transpose_ix2_apply, shapeCast_11ab_ab_apply, shapeCast_11ab_ab_apply]
  rfl

/-- A row's maximum, spread along the row, at `(r, j)`: the fold of `max` over row `r`. -/
theorem rowMaxVec_apply (s : FVec Ideal S512x2048 .f32) (r : Fin 512) (j : Fin 2048) :
    rowMaxVec s (ix2 r j)
      = (Finset.univ : Finset (Fin 2048)).fold max (Ideal.ofBits .f32 0xFF800000#32) (fun k => s (ix2 r k)) := by
  unfold rowMaxVec
  refine (Cert.Columns.broadcastTo_a1_ab_apply _ broadcasts_S512x1_S512x2048 r j).trans ?_
  refine (Cert.Columns.shapeCast_a_a1_apply _ shapeCasts_S512_S512x1 r (0 : Fin 1)).trans ?_
  exact Cert.Columns.multiReduction_maximumf_row s 0xFF800000#32 reduces_S512x2048_S512 (.inl rfl) rfl r

/-- The weights at `(r, j)`. -/
theorem weightVec_apply (s : FVec Ideal S512x2048 .f32) (r : Fin 512) (j : Fin 2048) :
    weightVec s (ix2 r j)
      = Ideal.exp (s (ix2 r j)
          - (Finset.univ : Finset (Fin 2048)).fold max (Ideal.ofBits .f32 0xFF800000#32) (fun k => s (ix2 r k))) := by
  unfold weightVec
  show Ideal.exp (s (ix2 r j) - rowMaxVec s (ix2 r j)) = _
  rw [rowMaxVec_apply]

/-- One over a row's sum at `(r, d)`: the ideal quotient of the constant one by the row's sum. -/
theorem invSumVec_apply (p : FVec Ideal S512x2048 .f32) (r : Fin 512) (d : Fin 64) :
    invSumVec p (ix2 r d) = Ideal.div (Ideal.ofBits .f32 0x3F800000#32) (∑ j : Fin 2048, p (ix2 r j)) := by
  unfold invSumVec
  refine (Cert.Columns.broadcastTo_a1_ab_apply _ broadcasts_S512x1_S512x64 r d).trans ?_
  rw [divf_apply, broadcast_apply]
  refine congrArg (Ideal.div _) ?_
  refine (Cert.Columns.shapeCast_a_a1_apply _ shapeCasts_S512_S512x1 r (0 : Fin 1)).trans ?_
  exact Cert.RowSum.multiReduction_add_row p 0x00000000#32 reduces_S512x2048_S512 (.inl rfl) rfl r

/-- The weights of the body's own scores are `P`. -/
theorem weight_score_apply (q : Vec Ideal S1x1x512x64 .bf16) (k : Vec Ideal S1x1x2048x64 .bf16) (r : Fin 512) (j : Fin 2048) :
    weightVec (scoreVec q k) (ix2 r j) = P q k r j := by
  rw [weightVec_apply]
  simp only [scoreVec_apply]
  rfl

/-- The attention body's stored value at `(0, 0, r, d)`. -/
theorem attn_apply (q : Vec Ideal S1x1x512x64 .bf16) (k v : Vec Ideal S1x1x2048x64 .bf16) (r : Fin 512) (d : Fin 64) :
    k1_pay1 (F := Ideal) q k v (ix4 (0 : Fin 1) (0 : Fin 1) r d)
      = (∑ j : Fin 2048, P q k r j * v (ix4 (0 : Fin 1) (0 : Fin 1) j d))
          * Ideal.div (Ideal.ofBits .f32 0x3F800000#32) (∑ j : Fin 2048, P q k r j) := by
  rw [pay_attn_eq]
  unfold attnVec
  refine (shapeCast_ab_11ab_apply _ shapeCasts_S512x64_S1x1x512x64 (0 : Fin 1) (0 : Fin 1) r d).trans ?_
  rw [truncf_apply, mulf_apply, invSumVec_apply]
  refine congrArg₂ (· * ·) ?_ ?_
  · refine (matmul_pv_apply _ _ r d).trans ?_
    refine Finset.sum_congr rfl fun j _ => ?_
    rw [truncf_apply, weight_score_apply, shapeCast_11ab_ab_apply]
  · exact congrArg (Ideal.div _) (Finset.sum_congr rfl fun j _ => weight_score_apply q k r j)

end Cert.KernelIdeal.Payloads

end
-- ==== Proof.TileArrays.lean ====
/-
  From blocks to arrays, for the two tiled matrix products of the program at the extended reals: each grid point of the
  projection and of the output product writes one 512-row tile of its result, the tiles cover the result's rows, and so
  every result array is one function of the operand arrays, entry by entry: a row of the left operand against a column
  of the right operand (plus the bias entry of that column, for the output product).
-/
import proofs.«177362_j16192026706464_2_alg».proof.Proof.IRegion0
import proofs.«177362_j16192026706464_2_alg».proof.Proof.IRegion2
import proofs.«177362_j16192026706464_2_alg».proof.Proof.Payloads
import Idealize.ShloMosaic.Lib.Pipeline.Value
import Idealize.ShloMosaic.Lib.ValueIdx

noncomputable section

namespace Cert.KernelIdeal.Tiles

open Cert.KernelIdeal Cert.KernelIdeal.Gen Cert.KernelIdeal.Frame
open Idealize.ShloMosaic Idealize.ShloMosaic.TcCoe Idealize.SL.Sem Idealize.ShloMosaic.ValueIdx
open Idealize.ShloMosaic.Pipeline (Dat)
open scoped BigOperators

-- the TensorCore's buffer contents when a region is entered
variable (V : (c : Dev nD) → (b : Ref sig .tc) → Buf (Elt Ideal) ((c : Thread nD τ).loc b))

/-- The zero offset of a whole-buffer rectangle. -/
theorem origin2 : (![0, 0] : Fin 2 → Nat) = fun _ => 0 := funext fun a => by fin_cases a <;> rfl

-- products and sums of array entries, as extended reals
local infixl:70 " ⬝ " => (HMul.hMul : EReal → EReal → EReal)
local infixl:65 " ⊹ " => (HAdd.hAdd : EReal → EReal → EReal)

/-! # The output product: rows of the attention output against the whole weight, plus the bias row -/

/-- The result of the output product as one function of its three operand arrays: entry `(r, e)` is row `r` of the left
    operand against column `e` of the weight, plus the bias at `e`. -/
def outProduct (x : S4096x1024.Idx → EReal) (w : S1024x1024.Idx → EReal) (b : S1x1024.Idx → EReal) : S4096x1024.Idx → EReal :=
  fun i => (∑ d : Fin 1024, x (ix2 (i 0) d) * w (ix2 d (i 1))) + b (ix2 (0 : Fin 1) (i 1))

/-- The block indices over the grid: point `t` reads and writes row tile `t`; the weight and the bias are whole. -/
theorem tileIndex2 : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The left operand's block at point `t` is rows `512 t … 512 t + 511` of its array. -/
theorem lhsTile2 (c : Dev nD) (t : Fin cfg2.N) (r : Fin 512) (d : Fin 1024) (i : Fin 4096) (hi : i.val = t.val * 512 + r.val) :
    (iblk2 V c 0 t : Vec Ideal S512x1024 .bf16) (ix2 r d) = (V c main_v16 : S4096x1024.Idx → EReal) (ix2 i d) := by
  obtain ⟨e0, e1, -⟩ := tileIndex2 t
  show (V c main_v16 : S4096x1024.Idx → EReal) (((cfg2.win 0).blk t).view.emb (ix2 r d)) = _
  refine congrArg _ (funext fun a => Fin.ext ?_)
  match a with
  | ⟨0, _⟩ => show win2_0.index t (0 : Fin 2) * 512 + 1 * r.val = i.val; omega
  | ⟨1, _⟩ => show win2_0.index t (1 : Fin 2) * 1024 + 1 * d.val = d.val; omega

/-- The weight's block at every point is the whole weight. -/
theorem rhsTile2 (c : Dev nD) (t : Fin cfg2.N) (d e : Fin 1024) :
    (iblk2 V c 1 t : Vec Ideal S1024x1024 .bf16) (ix2 d e) = (V c main_v18 : S1024x1024.Idx → EReal) (ix2 d e) := by
  obtain ⟨-, -, e0, e1, -⟩ := tileIndex2 t
  show (V c main_v18 : S1024x1024.Idx → EReal) (((cfg2.win 1).blk t).view.emb (ix2 d e)) = _
  refine congrArg _ (funext fun a => Fin.ext ?_)
  match a with
  | ⟨0, _⟩ => show win2_1.index t (0 : Fin 2) * 1024 + 1 * d.val = d.val; omega
  | ⟨1, _⟩ => show win2_1.index t (1 : Fin 2) * 1024 + 1 * e.val = e.val; omega

/-- The bias row's block at every point is the whole row. -/
theorem biasTile2 (c : Dev nD) (t : Fin cfg2.N) (e : Fin 1024) :
    (iblk2 V c 2 t : Vec Ideal S1x1024 .f32) (ix2 (0 : Fin 1) e) = (V c main_v19 : S1x1024.Idx → EReal) (ix2 (0 : Fin 1) e) := by
  obtain ⟨-, -, -, -, e0, e1, -⟩ := tileIndex2 t
  show (V c main_v19 : S1x1024.Idx → EReal) (((cfg2.win 2).blk t).view.emb (ix2 (0 : Fin 1) e)) = _
  refine congrArg _ (funext fun a => Fin.ext ?_)
  match a with
  | ⟨0, _⟩ => show win2_2.index t (0 : Fin 2) * 1 + 1 * (0 : Fin 1).val = (0 : Fin 1).val; omega
  | ⟨1, _⟩ => show win2_2.index t (1 : Fin 2) * 1024 + 1 * e.val = e.val; omega

/-- What point `t` writes back is tile `t` of `outProduct` of the operand arrays as the region finds them. -/
theorem flushed2_3_eq (c : Dev nD) (t : Fin cfg2.N) :
    (dat2 V c).flushed 3 t = ((cfg2.win 3).blk t).view.read (Elt Ideal) (outProduct (V c main_v16) (V c main_v18) (V c main_v19)) := by
  show (cfg2.win 3).cut (grid2.coords t) ((dat2 V c).after 3 t) = _
  rw [after2_3]
  unfold out2_3
  rw [View.canon_unit_zero origin2]
  simp only [View.ld_unit_zero (S := S512x1024) origin2, View.ld_unit_zero (S := S1024x1024) origin2, View.ld_unit_zero (S := S1x1024) origin2]
  funext j
  obtain ⟨r, e, rfl⟩ : ∃ (r : Fin 512) (e : Fin 1024), j = ix2 r e := ⟨j 0, j 1, eq_ix2 j⟩
  obtain ⟨-, -, -, -, -, -, e0, e1⟩ := tileIndex2 t
  have ht : t.val < 8 := lt_of_lt_of_eq t.isLt N_2
  have hemb : ((cfg2.win 3).blk t).view.emb (ix2 r e) = (ix2 (⟨t.val * 512 + r.val, by omega⟩ : Fin 4096) e : S4096x1024.Idx) := by
    funext a; apply Fin.ext
    match a with
    | ⟨0, _⟩ => show win2_3.index t (0 : Fin 2) * 512 + 1 * r.val = t.val * 512 + r.val; omega
    | ⟨1, _⟩ => show win2_3.index t (1 : Fin 2) * 1024 + 1 * e.val = e.val; omega
  show k2_pay1 (F := Ideal) (iblk2 V c 0 t) (iblk2 V c 1 t) (iblk2 V c 2 t) (ix2 r e)
    = outProduct (V c main_v16) (V c main_v18) (V c main_v19) (((cfg2.win 3).blk t).view.emb (ix2 r e))
  refine (Payloads.pay_out_apply _ _ _ r e).trans ?_
  refine Eq.trans ?_ (congrArg (outProduct (V c main_v16) (V c main_v18) (V c main_v19)) hemb).symm
  show _ = (∑ d : Fin 1024, V c main_v16 (ix2 (⟨t.val * 512 + r.val, by omega⟩ : Fin 4096) d) ⬝ V c main_v18 (ix2 d e))
    ⊹ V c main_v19 (ix2 (0 : Fin 1) e)
  refine congrArg₂ (fun a b : EReal => a + b) (Finset.sum_congr rfl fun d _ => ?_) (biasTile2 V c t e)
  exact congrArg₂ (fun a b : EReal => a * b) (lhsTile2 V c t r d _ rfl) (rhsTile2 V c t d e)

/-- An index of the result is in point `t`'s tile iff each coordinate is in the tile's range on its axis. -/
theorem mem_tile2_3 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v20).slice (win2_3.rect t)).set ↔ _
  rw [View.set_slice_whole, Rect.mem_set_unit]
  exact Iff.rfl

/-- The tiles cover the result: row `r` lies in the tile of point `r / 512`. -/
theorem tiles_cover2_3 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ : ∃ t : Fin cfg2.N, t.val = (i 0).val / 512 :=
    ⟨⟨(i 0).val / 512, lt_of_lt_of_eq (by omega : (i 0).val / 512 < 8) N_2.symm⟩, rfl⟩
  obtain ⟨-, -, -, -, -, -, e0, e1⟩ := tileIndex2 t
  refine ⟨t, flush2_3 t, ?_⟩
  rw [mem_tile2_3]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- The result array after the region: `outProduct` of the operand arrays as the region finds them. -/
theorem final2_3_array (c : Dev nD) :
    (dat2 V c).arrAt 3 cfg2.N = outProduct (V c main_v16) (V c main_v18) (V c main_v19) :=
  (dat2 V c).arrAt_eq_of_cover 3 (outProduct (V c main_v16) (V c main_v18) (V c main_v19)) (fun t _ => flushed2_3_eq V c t) tiles_cover2_3

/-- The result array after the region, entry by entry: row `r` of the left operand against column `e` of the weight,
    plus the bias at `e`. -/
theorem final2_3 (c : Dev nD) (r : Fin 4096) (e : Fin 1024) :
    (dat2 V c).arrAt 3 cfg2.N (ix2 r e)
      = (∑ d : Fin 1024, V c main_v16 (ix2 r d) ⬝ V c main_v18 (ix2 d e)) ⊹ V c main_v19 (ix2 (0 : Fin 1) e) :=
  congrFun (final2_3_array V c) (ix2 r e)

/-! # The projection: rows of the input against the fused weight, one array per 1024-column band -/

/-- Column `e` of the first band of the fused weight (columns `0 … 1023`). -/
def bandCol0 (e : Fin 1024) : Fin 3072 := ⟨e.val, by omega⟩
/-- Column `e` of the second band (columns `1024 … 2047`). -/
def bandCol1 (e : Fin 1024) : Fin 3072 := ⟨1024 + e.val, by omega⟩
/-- Column `e` of the third band (columns `2048 … 3071`). -/
def bandCol2 (e : Fin 1024) : Fin 3072 := ⟨2048 + e.val, by omega⟩

/-- One band of the projection as one function of the two operand arrays: entry `(r, e)` is row `r` of the left operand
    against the band's column `e` of the fused weight. -/
def bandProduct (col : Fin 1024 → Fin 3072) (x : S4096x1024.Idx → EReal) (w : S1024x3072.Idx → EReal) : S4096x1024.Idx → EReal :=
  fun i => ∑ d : Fin 1024, x (ix2 (i 0) d) * w (ix2 d (col (i 1)))

/-- The block indices over the grid: point `t` reads row tile `t` of the input and writes row tile `t` of each band;
    the fused weight is whole. -/
theorem tileIndex0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The input's block at point `t` is rows `512 t … 512 t + 511` of its array. -/
theorem lhsTile0 (c : Dev nD) (t : Fin cfg0.N) (r : Fin 512) (d : Fin 1024) (i : Fin 4096) (hi : i.val = t.val * 512 + r.val) :
    (iblk0 V c 0 t : Vec Ideal S512x1024 .bf16) (ix2 r d) = (V c main_v1 : S4096x1024.Idx → EReal) (ix2 i d) := by
  obtain ⟨e0, e1, -⟩ := tileIndex0 t
  show (V c main_v1 : S4096x1024.Idx → EReal) (((cfg0.win 0).blk t).view.emb (ix2 r d)) = _
  refine congrArg _ (funext fun a => Fin.ext ?_)
  match a with
  | ⟨0, _⟩ => show win0_0.index t (0 : Fin 2) * 512 + 1 * r.val = i.val; omega
  | ⟨1, _⟩ => show win0_0.index t (1 : Fin 2) * 1024 + 1 * d.val = d.val; omega

/-- The fused weight's block at every point is the whole weight. -/
theorem rhsTile0 (c : Dev nD) (t : Fin cfg0.N) (d : Fin 1024) (e : Fin 3072) :
    (iblk0 V c 1 t : Vec Ideal S1024x3072 .bf16) (ix2 d e) = (V c main_v6 : S1024x3072.Idx → EReal) (ix2 d e) := by
  obtain ⟨-, -, e0, e1, -⟩ := tileIndex0 t
  show (V c main_v6 : S1024x3072.Idx → EReal) (((cfg0.win 1).blk t).view.emb (ix2 d e)) = _
  refine congrArg _ (funext fun a => Fin.ext ?_)
  match a with
  | ⟨0, _⟩ => show win0_1.index t (0 : Fin 2) * 1024 + 1 * d.val = d.val; omega
  | ⟨1, _⟩ => show win0_1.index t (1 : Fin 2) * 3072 + 1 * e.val = e.val; omega

/-- What point `t` writes back to the first band's array is tile `t` of that band of the product of the operand
    arrays as the region finds them. -/
theorem flushed0_2_eq (c : Dev nD) (t : Fin cfg0.N) :
    (dat0 V c).flushed 2 t = ((cfg0.win 2).blk t).view.read (Elt Ideal) (bandProduct bandCol0 (V c main_v1) (V c main_v6)) := by
  show (cfg0.win 2).cut (grid0.coords t) ((dat0 V c).after 2 t) = _
  rw [after0_2]
  unfold out0_2
  rw [View.canon_unit_zero origin2]
  simp only [View.ld_unit_zero (S := S512x1024) origin2, View.ld_unit_zero (S := S1024x3072) origin2]
  funext j
  obtain ⟨r, e, rfl⟩ : ∃ (r : Fin 512) (e : Fin 1024), j = ix2 r e := ⟨j 0, j 1, eq_ix2 j⟩
  have e0 : win0_2.index t (0 : Fin 2) = t.val := (tileIndex0 t).2.2.2.2.1
  have e1 : win0_2.index t (1 : Fin 2) = 0 := (tileIndex0 t).2.2.2.2.2.1
  have ht : t.val < 8 := lt_of_lt_of_eq t.isLt N_0
  have hemb : ((cfg0.win 2).blk t).view.emb (ix2 r e) = (ix2 (⟨t.val * 512 + r.val, by omega⟩ : Fin 4096) e : S4096x1024.Idx) := by
    funext a; apply Fin.ext
    match a with
    | ⟨0, _⟩ => show win0_2.index t (0 : Fin 2) * 512 + 1 * r.val = t.val * 512 + r.val; omega
    | ⟨1, _⟩ => show win0_2.index t (1 : Fin 2) * 1024 + 1 * e.val = e.val; omega
  show k0_pay2 (F := Ideal) (iblk0 V c 0 t) (iblk0 V c 1 t) (ix2 r e)
    = bandProduct bandCol0 (V c main_v1) (V c main_v6) (((cfg0.win 2).blk t).view.emb (ix2 r e))
  refine (Payloads.pay2_apply _ _ r e).trans ?_
  refine Eq.trans ?_ (congrArg (bandProduct bandCol0 (V c main_v1) (V c main_v6)) hemb).symm
  show _ = ∑ d : Fin 1024, V c main_v1 (ix2 (⟨t.val * 512 + r.val, by omega⟩ : Fin 4096) d) ⬝ V c main_v6 (ix2 d (bandCol0 e))
  refine Finset.sum_congr rfl fun d _ => ?_
  exact congrArg₂ (fun a b : EReal => a * b) (lhsTile0 V c t r d _ rfl) (rhsTile0 V c t d _)

/-- An index of the first band's array is in point `t`'s tile iff each coordinate is in the tile's range on its axis. -/
theorem mem_tile0_2 (t : Fin cfg0.N) (i : S4096x1024.Idx) :
    i ∈ ((cfg0.win 2).blk t).view.set ↔ ∀ a : Fin 2, win0_2.index t a * S512x1024.size a ≤ (i a).val ∧ (i a).val < win0_2.index t a * S512x1024.size a + S512x1024.size a := by
  show i ∈ ((View.whole main_v7_0).slice (win0_2.rect t)).set ↔ _
  rw [View.set_slice_whole, Rect.mem_set_unit]
  exact Iff.rfl

/-- The tiles cover the first band's array: row `r` lies in the tile of point `r / 512`. -/
theorem tiles_cover0_2 (i : S4096x1024.Idx) :
    ∃ t : Fin cfg0.N, (cfg0.win 2).flush t = true ∧ i ∈ ((cfg0.win 2).blk t).view.set := by
  have hi0 : (i 0).val < 4096 := (i 0).isLt
  have hi1 : (i 1).val < 1024 := (i 1).isLt
  obtain ⟨t, ht⟩ : ∃ t : Fin cfg0.N, t.val = (i 0).val / 512 :=
    ⟨⟨(i 0).val / 512, lt_of_lt_of_eq (by omega : (i 0).val / 512 < 8) N_0.symm⟩, rfl⟩
  have e0 : win0_2.index t (0 : Fin 2) = t.val := (tileIndex0 t).2.2.2.2.1
  have e1 : win0_2.index t (1 : Fin 2) = 0 := (tileIndex0 t).2.2.2.2.2.1
  refine ⟨t, flush0_2 t, ?_⟩
  rw [mem_tile0_2]
  intro a
  match a with
  | ⟨0, _⟩ => show win0_2.index t (0 : Fin 2) * 512 ≤ (i 0).val ∧ (i 0).val < win0_2.index t (0 : Fin 2) * 512 + 512; omega
  | ⟨1, _⟩ => show win0_2.index t (1 : Fin 2) * 1024 ≤ (i 1).val ∧ (i 1).val < win0_2.index t (1 : Fin 2) * 1024 + 1024; omega

/-- The first band's array after the region: that band of the product of the operand arrays as the region finds them. -/
theorem final0_2_array (c : Dev nD) :
    (dat0 V c).arrAt 2 cfg0.N = bandProduct bandCol0 (V c main_v1) (V c main_v6) :=
  (dat0 V c).arrAt_eq_of_cover 2 (bandProduct bandCol0 (V c main_v1) (V c main_v6)) (fun t _ => flushed0_2_eq V c t) tiles_cover0_2

/-- The first band's array after the region, entry by entry: row `r` of the left operand against column
    `e` of the fused weight. -/
theorem final0_2 (c : Dev nD) (r : Fin 4096) (e : Fin 1024) :
    (dat0 V c).arrAt 2 cfg0.N (ix2 r e)
      = ∑ d : Fin 1024, V c main_v1 (ix2 r d) ⬝ V c main_v6 (ix2 d (⟨e.val, by omega⟩ : Fin 3072)) :=
  congrFun (final0_2_array V c) (ix2 r e)

/-- What point `t` writes back to the second band's array is tile `t` of that band of the product of the operand
    arrays as the region finds them. -/
theorem flushed0_3_eq (c : Dev nD) (t : Fin cfg0.N) :
    (dat0 V c).flushed 3 t = ((cfg0.win 3).blk t).view.read (Elt Ideal) (bandProduct bandCol1 (V c main_v1) (V c main_v6)) := by
  show (cfg0.win 3).cut (grid0.coords t) ((dat0 V c).after 3 t) = _
  rw [after0_3]
  unfold out0_3
  rw [View.canon_unit_zero origin2]
  simp only [View.ld_unit_zero (S := S512x1024) origin2, View.ld_unit_zero (S := S1024x3072) origin2]
  funext j
  obtain ⟨r, e, rfl⟩ : ∃ (r : Fin 512) (e : Fin 1024), j = ix2 r e := ⟨j 0, j 1, eq_ix2 j⟩
  have e0 : win0_3.index t (0 : Fin 2) = t.val := (tileIndex0 t).2.2.2.2.2.2.1
  have e1 : win0_3.index t (1 : Fin 2) = 0 := (tileIndex0 t).2.2.2.2.2.2.2.1
  have ht : t.val < 8 := lt_of_lt_of_eq t.isLt N_0
  have hemb : ((cfg0.win 3).blk t).view.emb (ix2 r e) = (ix2 (⟨t.val * 512 + r.val, by omega⟩ : Fin 4096) e : S4096x1024.Idx) := by
    funext a; apply Fin.ext
    match a with
    | ⟨0, _⟩ => show win0_3.index t (0 : Fin 2) * 512 + 1 * r.val = t.val * 512 + r.val; omega
    | ⟨1, _⟩ => show win0_3.index t (1 : Fin 2) * 1024 + 1 * e.val = e.val; omega
  show k0_pay3 (F := Ideal) (iblk0 V c 0 t) (iblk0 V c 1 t) (ix2 r e)
    = bandProduct bandCol1 (V c main_v1) (V c main_v6) (((cfg0.win 3).blk t).view.emb (ix2 r e))
  refine (Payloads.pay3_apply _ _ r e).trans ?_
  refine Eq.trans ?_ (congrArg (bandProduct bandCol1 (V c main_v1) (V c main_v6)) hemb).symm
  show _ = ∑ d : Fin 1024, V c main_v1 (ix2 (⟨t.val * 512 + r.val, by omega⟩ : Fin 4096) d) ⬝ V c main_v6 (ix2 d (bandCol1 e))
  refine Finset.sum_congr rfl fun d _ => ?_
  exact congrArg₂ (fun a b : EReal => a * b) (lhsTile0 V c t r d _ rfl) (rhsTile0 V c t d _)

/-- An index of the second band's array is in point `t`'s tile iff each coordinate is in the tile's range on its axis. -/
theorem mem_tile0_3 (t : Fin cfg0.N) (i : S4096x1024.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v7_1).slice (win0_3.rect t)).set ↔ _
  rw [View.set_slice_whole, Rect.mem_set_unit]
  exact Iff.rfl

/-- The tiles cover the second band's array: row `r` lies in the tile of point `r / 512`. -/
theorem tiles_cover0_3 (i : S4096x1024.Idx) :
    ∃ t : Fin cfg0.N, (cfg0.win 3).flush t = true ∧ i ∈ ((cfg0.win 3).blk t).view.set := by
  have hi0 : (i 0).val < 4096 := (i 0).isLt
  have hi1 : (i 1).val < 1024 := (i 1).isLt
  obtain ⟨t, ht⟩ : ∃ t : Fin cfg0.N, t.val = (i 0).val / 512 :=
    ⟨⟨(i 0).val / 512, lt_of_lt_of_eq (by omega : (i 0).val / 512 < 8) N_0.symm⟩, rfl⟩
  have e0 : win0_3.index t (0 : Fin 2) = t.val := (tileIndex0 t).2.2.2.2.2.2.1
  have e1 : win0_3.index t (1 : Fin 2) = 0 := (tileIndex0 t).2.2.2.2.2.2.2.1
  refine ⟨t, flush0_3 t, ?_⟩
  rw [mem_tile0_3]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- The second band's array after the region: that band of the product of the operand arrays as the region finds them. -/
theorem final0_3_array (c : Dev nD) :
    (dat0 V c).arrAt 3 cfg0.N = bandProduct bandCol1 (V c main_v1) (V c main_v6) :=
  (dat0 V c).arrAt_eq_of_cover 3 (bandProduct bandCol1 (V c main_v1) (V c main_v6)) (fun t _ => flushed0_3_eq V c t) tiles_cover0_3

/-- The second band's array after the region, entry by entry: row `r` of the left operand against column
    `1024 + e` of the fused weight. -/
theorem final0_3 (c : Dev nD) (r : Fin 4096) (e : Fin 1024) :
    (dat0 V c).arrAt 3 cfg0.N (ix2 r e)
      = ∑ d : Fin 1024, V c main_v1 (ix2 r d) ⬝ V c main_v6 (ix2 d (⟨1024 + e.val, by omega⟩ : Fin 3072)) :=
  congrFun (final0_3_array V c) (ix2 r e)

/-- What point `t` writes back to the third band's array is tile `t` of that band of the product of the operand
    arrays as the region finds them. -/
theorem flushed0_4_eq (c : Dev nD) (t : Fin cfg0.N) :
    (dat0 V c).flushed 4 t = ((cfg0.win 4).blk t).view.read (Elt Ideal) (bandProduct bandCol2 (V c main_v1) (V c main_v6)) := by
  show (cfg0.win 4).cut (grid0.coords t) ((dat0 V c).after 4 t) = _
  rw [after0_4]
  unfold out0_4
  rw [View.canon_unit_zero origin2]
  simp only [View.ld_unit_zero (S := S512x1024) origin2, View.ld_unit_zero (S := S1024x3072) origin2]
  funext j
  obtain ⟨r, e, rfl⟩ : ∃ (r : Fin 512) (e : Fin 1024), j = ix2 r e := ⟨j 0, j 1, eq_ix2 j⟩
  have e0 : win0_4.index t (0 : Fin 2) = t.val := (tileIndex0 t).2.2.2.2.2.2.2.2.1
  have e1 : win0_4.index t (1 : Fin 2) = 0 := (tileIndex0 t).2.2.2.2.2.2.2.2.2
  have ht : t.val < 8 := lt_of_lt_of_eq t.isLt N_0
  have hemb : ((cfg0.win 4).blk t).view.emb (ix2 r e) = (ix2 (⟨t.val * 512 + r.val, by omega⟩ : Fin 4096) e : S4096x1024.Idx) := by
    funext a; apply Fin.ext
    match a with
    | ⟨0, _⟩ => show win0_4.index t (0 : Fin 2) * 512 + 1 * r.val = t.val * 512 + r.val; omega
    | ⟨1, _⟩ => show win0_4.index t (1 : Fin 2) * 1024 + 1 * e.val = e.val; omega
  show k0_pay4 (F := Ideal) (iblk0 V c 0 t) (iblk0 V c 1 t) (ix2 r e)
    = bandProduct bandCol2 (V c main_v1) (V c main_v6) (((cfg0.win 4).blk t).view.emb (ix2 r e))
  refine (Payloads.pay4_apply _ _ r e).trans ?_
  refine Eq.trans ?_ (congrArg (bandProduct bandCol2 (V c main_v1) (V c main_v6)) hemb).symm
  show _ = ∑ d : Fin 1024, V c main_v1 (ix2 (⟨t.val * 512 + r.val, by omega⟩ : Fin 4096) d) ⬝ V c main_v6 (ix2 d (bandCol2 e))
  refine Finset.sum_congr rfl fun d _ => ?_
  exact congrArg₂ (fun a b : EReal => a * b) (lhsTile0 V c t r d _ rfl) (rhsTile0 V c t d _)

/-- An index of the third band's array is in point `t`'s tile iff each coordinate is in the tile's range on its axis. -/
theorem mem_tile0_4 (t : Fin cfg0.N) (i : S4096x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v7_2).slice (win0_4.rect t)).set ↔ _
  rw [View.set_slice_whole, Rect.mem_set_unit]
  exact Iff.rfl

/-- The tiles cover the third band's array: row `r` lies in the tile of point `r / 512`. -/
theorem tiles_cover0_4 (i : S4096x1024.Idx) :
    ∃ t : Fin cfg0.N, (cfg0.win 4).flush t = true ∧ i ∈ ((cfg0.win 4).blk t).view.set := by
  have hi0 : (i 0).val < 4096 := (i 0).isLt
  have hi1 : (i 1).val < 1024 := (i 1).isLt
  obtain ⟨t, ht⟩ : ∃ t : Fin cfg0.N, t.val = (i 0).val / 512 :=
    ⟨⟨(i 0).val / 512, lt_of_lt_of_eq (by omega : (i 0).val / 512 < 8) N_0.symm⟩, rfl⟩
  have e0 : win0_4.index t (0 : Fin 2) = t.val := (tileIndex0 t).2.2.2.2.2.2.2.2.1
  have e1 : win0_4.index t (1 : Fin 2) = 0 := (tileIndex0 t).2.2.2.2.2.2.2.2.2
  refine ⟨t, flush0_4 t, ?_⟩
  rw [mem_tile0_4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- The third band's array after the region: that band of the product of the operand arrays as the region finds them. -/
theorem final0_4_array (c : Dev nD) :
    (dat0 V c).arrAt 4 cfg0.N = bandProduct bandCol2 (V c main_v1) (V c main_v6) :=
  (dat0 V c).arrAt_eq_of_cover 4 (bandProduct bandCol2 (V c main_v1) (V c main_v6)) (fun t _ => flushed0_4_eq V c t) tiles_cover0_4

/-- The third band's array after the region, entry by entry: row `r` of the left operand against column
    `2048 + e` of the fused weight. -/
theorem final0_4 (c : Dev nD) (r : Fin 4096) (e : Fin 1024) :
    (dat0 V c).arrAt 4 cfg0.N (ix2 r e)
      = ∑ d : Fin 1024, V c main_v1 (ix2 r d) ⬝ V c main_v6 (ix2 d (⟨2048 + e.val, by omega⟩ : Fin 3072)) :=
  congrFun (final0_4_array V c) (ix2 r e)

end Cert.KernelIdeal.Tiles

end
-- ==== Proof.AttnArray.lean ====
/-
  The attention call's output array after its run, index by index, over the extended reals.

  The call runs once per (batch `b`, head `h`, tile `qi` of 512 query rows). At a point it reads the tile of queries
  `(b, h, 512 qi + r, ·)` and the head's whole keys and values `(b, h, ·, ·)`, and writes back the tile
  `(b, h, 512 qi + r, ·)` of the output. The body's stored value at `(r, d)` is the normalised softmax-weighted sum
  of the value rows (the module of stored values), which depends on the point only through the rows it reads; so every
  write-back is a block of ONE function of the arrays as the call finds them (`attnArray`): at `(b, h, q, d)` one row
  of attention (the module of attention rows: scores with the scale folded into the query, the row maximum, the
  weights `exp (score - maximum)`, the weighted sum of the values' column `d` times the reciprocal of the weights'
  sum) of the query row `(b, h, q, ·)` against the head's keys `(b, h, ·, ·)` and values `(b, h, ·, d)`. The output's
  128 blocks tile the array (the point covering `(b, h, q, ·)` is `(b, h, q / 512)`), so the array ends holding that
  function.
-/
import proofs.«177362_j16192026706464_2_alg».proof.Proof.IRegion1
import proofs.«177362_j16192026706464_2_alg».proof.Proof.Payloads
import proofs.«177362_j16192026706464_2_alg».proof.Proof.AttnRow
import Idealize.ShloMosaic.Lib.Pipeline.Value
import Idealize.ShloMosaic.Lib.ValueIdx

noncomputable section

namespace Cert.KernelIdeal.AttnArray

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frame

-- the TensorCore's buffer contents when the call is entered
variable (V : (c : Dev nD) → (b : Ref sig .tc) → Buf (Elt Ideal) ((c : Thread nD τ).loc b))

/-! ## The output as one function of the arrays -/

/-- The query, key and value arrays as the call finds them, as functions into the extended reals. -/
abbrev qry (c : Dev nD) : S2x16x2048x64.Idx → EReal := V c main_v9
abbrev key (c : Dev nD) : S2x16x2048x64.Idx → EReal := V c main_v11
abbrev val (c : Dev nD) : S2x16x2048x64.Idx → EReal := V c main_v13

/-- The output at `(b, h, q, d)` as a function of three arrays `Q`, `K`, `W` (queries, keys, values): one row of
    attention, the query row `(b, h, q, ·)` against the head's key rows `(b, h, j, ·)`, weighting the values' column
    `(b, h, j, d)`. -/
def attnEntry (Q K W : S2x16x2048x64.Idx → EReal) (b : Fin 2) (h : Fin 16) (q : Fin 2048) (d : Fin 64) : EReal :=
  Cert.AttnRow.outK (fun t : Fin 64 => Q (ix4 b h q t)) (fun (j : Fin 2048) (t : Fin 64) => K (ix4 b h j t))
    (fun j : Fin 2048 => W (ix4 b h j d))

/-- The output array as one function of the three arrays. -/
def attnArray (Q K W : S2x16x2048x64.Idx → EReal) : S2x16x2048x64.Idx → EReal :=
  fun i => attnEntry Q K W (i 0) (i 1) (i 2) (i 3)

theorem attnArray_apply (Q K W : S2x16x2048x64.Idx → EReal) (b : Fin 2) (h : Fin 16) (q : Fin 2048) (d : Fin 64) :
    attnArray Q K W (ix4 b h q d) = attnEntry Q K W b h q d := rfl

/-! ## The index maps over the grid -/

theorem hz : (![0, 0, 0, 0] : Fin 4 → Nat) = fun _ => 0 := funext fun a => by fin_cases a <;> rfl

/-- The printed index maps, decided over the 128 points: the query window moves with the output window, the key and
    value windows follow its batch and head and stay at row block 0, and the output's block indices stay in range. -/
theorem idx_facts : ∀ t : Fin cfg1.N,
    (win1_0.index t (0 : Fin 4) = win1_3.index t (0 : Fin 4) ∧ win1_0.index t (1 : Fin 4) = win1_3.index t (1 : Fin 4)
      ∧ win1_0.index t (2 : Fin 4) = win1_3.index t (2 : Fin 4) ∧ win1_0.index t (3 : Fin 4) = 0)
    ∧ (win1_1.index t (0 : Fin 4) = win1_3.index t (0 : Fin 4) ∧ win1_1.index t (1 : Fin 4) = win1_3.index t (1 : Fin 4)
      ∧ win1_1.index t (2 : Fin 4) = 0 ∧ win1_1.index t (3 : Fin 4) = 0)
    ∧ (win1_2.index t (0 : Fin 4) = win1_3.index t (0 : Fin 4) ∧ win1_2.index t (1 : Fin 4) = win1_3.index t (1 : Fin 4)
      ∧ win1_2.index t (2 : Fin 4) = 0 ∧ win1_2.index t (3 : Fin 4) = 0)
    ∧ (win1_3.index t (0 : Fin 4) < 2 ∧ win1_3.index t (1 : Fin 4) < 16 ∧ win1_3.index t (2 : Fin 4) < 4
      ∧ win1_3.index t (3 : Fin 4) = 0) :=
  (by decide +kernel : ∀ t : Fin grid1.N, _)

/-- The output window's block index at point `t`, in closed form: the grid runs over (batch, head, query tile) with the
    tile fastest. Decided over the 128 points. -/
theorem out_index : ∀ t : Fin cfg1.N, win1_3.index t (0 : Fin 4) = t.val / 64 ∧ win1_3.index t (1 : Fin 4) = t.val / 4 % 16
    ∧ win1_3.index t (2 : Fin 4) = t.val % 4 ∧ win1_3.index t (3 : Fin 4) = 0 :=
  (by decide +kernel : ∀ t : Fin grid1.N, _)

/-! ## The input blocks as rows of the arrays -/

/-- The query block at point `t`, at `(0, 0, r, x)`, is the query array at the point's batch and head, row
    `512 ·` (the point's tile) `+ r`. -/
theorem qblk_apply (c : Dev nD) (t : Fin cfg1.N) (r : Fin 512) (x : Fin 64) (b : Fin 2) (h : Fin 16) (q : Fin 2048)
    (hb : win1_0.index t (0 : Fin 4) = b.val) (hh : win1_0.index t (1 : Fin 4) = h.val)
    (hq : win1_0.index t (2 : Fin 4) * 512 + r.val = q.val) (h3 : win1_0.index t (3 : Fin 4) = 0) :
    (iblk1 V c 0 t : Vec Ideal S1x1x512x64 .bf16) (ix4 (0 : Fin 1) (0 : Fin 1) r x)
      = qry V c (ix4 b h q x) := by
  show qry V c (((cfg1.win 0).blk t).view.emb (ix4 (0 : Fin 1) (0 : Fin 1) r x)) = _
  refine congrArg _ (funext fun a => Fin.ext ?_)
  match a with
  | ⟨0, _⟩ => show win1_0.index t (0 : Fin 4) * 1 + 1 * 0 = b.val; omega
  | ⟨1, _⟩ => show win1_0.index t (1 : Fin 4) * 1 + 1 * 0 = h.val; omega
  | ⟨2, _⟩ => show win1_0.index t (2 : Fin 4) * 512 + 1 * r.val = q.val; omega
  | ⟨3, _⟩ => show win1_0.index t (3 : Fin 4) * 64 + 1 * x.val = x.val; omega

/-- The key block at point `t`, at `(0, 0, j, x)`, is the key array at the point's batch and head, row `j`. -/
theorem kblk_apply (c : Dev nD) (t : Fin cfg1.N) (j : Fin 2048) (x : Fin 64) (b : Fin 2) (h : Fin 16)
    (hb : win1_1.index t (0 : Fin 4) = b.val) (hh : win1_1.index t (1 : Fin 4) = h.val)
    (h2 : win1_1.index t (2 : Fin 4) = 0) (h3 : win1_1.index t (3 : Fin 4) = 0) :
    (iblk1 V c 1 t : Vec Ideal S1x1x2048x64 .bf16) (ix4 (0 : Fin 1) (0 : Fin 1) j x)
      = key V c (ix4 b h j x) := by
  show key V c (((cfg1.win 1).blk t).view.emb (ix4 (0 : Fin 1) (0 : Fin 1) j x)) = _
  refine congrArg _ (funext fun a => Fin.ext ?_)
  match a with
  | ⟨0, _⟩ => show win1_1.index t (0 : Fin 4) * 1 + 1 * 0 = b.val; omega
  | ⟨1, _⟩ => show win1_1.index t (1 : Fin 4) * 1 + 1 * 0 = h.val; omega
  | ⟨2, _⟩ => show win1_1.index t (2 : Fin 4) * 2048 + 1 * j.val = j.val; omega
  | ⟨3, _⟩ => show win1_1.index t (3 : Fin 4) * 64 + 1 * x.val = x.val; omega

/-- The value block at point `t`, at `(0, 0, j, x)`, is the value array at the point's batch and head, row `j`. -/
theorem vblk_apply (c : Dev nD) (t : Fin cfg1.N) (j : Fin 2048) (x : Fin 64) (b : Fin 2) (h : Fin 16)
    (hb : win1_2.index t (0 : Fin 4) = b.val) (hh : win1_2.index t (1 : Fin 4) = h.val)
    (h2 : win1_2.index t (2 : Fin 4) = 0) (h3 : win1_2.index t (3 : Fin 4) = 0) :
    (iblk1 V c 2 t : Vec Ideal S1x1x2048x64 .bf16) (ix4 (0 : Fin 1) (0 : Fin 1) j x)
      = val V c (ix4 b h j x) := by
  show val V c (((cfg1.win 2).blk t).view.emb (ix4 (0 : Fin 1) (0 : Fin 1) j x)) = _
  refine congrArg _ (funext fun a => Fin.ext ?_)
  match a with
  | ⟨0, _⟩ => show win1_2.index t (0 : Fin 4) * 1 + 1 * 0 = b.val; omega
  | ⟨1, _⟩ => show win1_2.index t (1 : Fin 4) * 1 + 1 * 0 = h.val; omega
  | ⟨2, _⟩ => show win1_2.index t (2 : Fin 4) * 2048 + 1 * j.val = j.val; omega
  | ⟨3, _⟩ => show win1_2.index t (3 : Fin 4) * 64 + 1 * x.val = x.val; omega

/-! ## The body's scores, maxima and weights on the blocks are the arrays' rows' -/

section Rows
variable (c : Dev nD) (t : Fin cfg1.N) (r : Fin 512) (b : Fin 2) (h : Fin 16) (q : Fin 2048)
  (hb0 : win1_0.index t (0 : Fin 4) = b.val) (hh0 : win1_0.index t (1 : Fin 4) = h.val)
  (hq0 : win1_0.index t (2 : Fin 4) * 512 + r.val = q.val) (h30 : win1_0.index t (3 : Fin 4) = 0)
  (hb1 : win1_1.index t (0 : Fin 4) = b.val) (hh1 : win1_1.index t (1 : Fin 4) = h.val)
  (h21 : win1_1.index t (2 : Fin 4) = 0) (h31 : win1_1.index t (3 : Fin 4) = 0)

include hb0 hh0 hq0 h30 hb1 hh1 h21 h31

/-- The body's score of block row `r` against key row `j` is the score of the arrays' row `q`. -/
theorem S_blk (j : Fin 2048) :
    Payloads.S (iblk1 V c 0 t) (iblk1 V c 1 t) r j
      = Cert.AttnRow.SK (fun x : Fin 64 => qry V c (ix4 b h q x)) (fun (j : Fin 2048) (x : Fin 64) => key V c (ix4 b h j x)) j := by
  unfold Payloads.S
  refine Finset.sum_congr rfl fun x _ => ?_
  exact congrArg₂ (· * ·) (congrArg (· * _) (qblk_apply V c t r x b h q hb0 hh0 hq0 h30))
    (kblk_apply V c t j x b h hb1 hh1 h21 h31)

/-- So is the row's maximum. -/
theorem M_blk :
    Payloads.M (iblk1 V c 0 t) (iblk1 V c 1 t) r
      = Cert.AttnRow.MK (fun x : Fin 64 => qry V c (ix4 b h q x)) (fun (j : Fin 2048) (x : Fin 64) => key V c (ix4 b h j x)) := by
  unfold Payloads.M
  exact congrArg (fun f => Finset.fold max (Ideal.ofBits .f32 0xFF800000#32) f (Finset.univ : Finset (Fin 2048)))
    (funext fun j => S_blk V c t r b h q hb0 hh0 hq0 h30 hb1 hh1 h21 h31 j)

/-- And so are the weights. -/
theorem P_blk (j : Fin 2048) :
    Payloads.P (iblk1 V c 0 t) (iblk1 V c 1 t) r j
      = Cert.AttnRow.PK (fun x : Fin 64 => qry V c (ix4 b h q x)) (fun (j : Fin 2048) (x : Fin 64) => key V c (ix4 b h j x)) j := by
  unfold Payloads.P
  rw [S_blk V c t r b h q hb0 hh0 hq0 h30 hb1 hh1 h21 h31 j, M_blk V c t r b h q hb0 hh0 hq0 h30 hb1 hh1 h21 h31]

end Rows

/-! ## What a point writes back, and the array after the run -/

/-- What point `t` writes back is block `t` of `attnArray` of the arrays as the call finds them. -/
theorem flushed_eq (c : Dev nD) (t : Fin cfg1.N) :
    (dat1 (F := Ideal) V c).flushed 3 t
      = ((cfg1.win 3).blk t).view.read (Elt Ideal) (attnArray (qry V c) (key V c) (val V c)) := by
  show (cfg1.win 3).cut (grid1.coords t) ((dat1 (F := Ideal) V c).after 3 t) = _
  rw [after1_3]
  unfold out1_3
  rw [View.canon_unit_zero hz]
  simp only [View.ld_unit_zero (S := S1x1x512x64) hz, View.ld_unit_zero (S := S1x1x2048x64) hz]
  obtain ⟨⟨a0, a1, a2, a3⟩, ⟨b0, b1, b2, b3⟩, ⟨c0, c1, c2, c3⟩, ⟨d0, d1, d2, d3⟩⟩ := idx_facts t
  refine funext fun (y : S1x1x512x64.Idx) => ?_
  obtain ⟨u, u', r, d, rfl⟩ : ∃ (u u' : Fin 1) (r : Fin 512) (d : Fin 64), y = ix4 u u' r d :=
    ⟨y 0, y 1, y 2, y 3, eq_ix4 y⟩
  obtain rfl : u = 0 := Subsingleton.elim _ _
  obtain rfl : u' = 0 := Subsingleton.elim _ _
  have hr : r.val < 512 := r.isLt
  -- the array index of the block's element
  have hemb : ((cfg1.win 3).blk t).view.emb (ix4 (0 : Fin 1) (0 : Fin 1) r d)
      = ix4 (⟨win1_3.index t (0 : Fin 4), d0⟩ : Fin 2) (⟨win1_3.index t (1 : Fin 4), d1⟩ : Fin 16)
          (⟨win1_3.index t (2 : Fin 4) * 512 + r.val, by omega⟩ : Fin 2048) d := by
    funext a; apply Fin.ext
    match a with
    | ⟨0, _⟩ => show win1_3.index t (0 : Fin 4) * 1 + 1 * 0 = win1_3.index t (0 : Fin 4); omega
    | ⟨1, _⟩ => show win1_3.index t (1 : Fin 4) * 1 + 1 * 0 = win1_3.index t (1 : Fin 4); omega
    | ⟨2, _⟩ => show win1_3.index t (2 : Fin 4) * 512 + 1 * r.val = win1_3.index t (2 : Fin 4) * 512 + r.val; omega
    | ⟨3, _⟩ => show win1_3.index t (3 : Fin 4) * 64 + 1 * d.val = d.val; omega
  show k1_pay1 (F := Ideal) (iblk1 V c 0 t) (iblk1 V c 1 t) (iblk1 V c 2 t) (ix4 (0 : Fin 1) (0 : Fin 1) r d)
    = attnArray (qry V c) (key V c) (val V c) (((cfg1.win 3).blk t).view.emb (ix4 (0 : Fin 1) (0 : Fin 1) r d))
  rw [hemb, attnArray_apply]
  refine (Payloads.attn_apply (iblk1 V c 0 t) (iblk1 V c 1 t) (iblk1 V c 2 t) r d).trans ?_
  unfold attnEntry Cert.AttnRow.outK
  have hP := fun j : Fin 2048 => P_blk V c t r (⟨win1_3.index t (0 : Fin 4), d0⟩ : Fin 2)
    (⟨win1_3.index t (1 : Fin 4), d1⟩ : Fin 16) (⟨win1_3.index t (2 : Fin 4) * 512 + r.val, by omega⟩ : Fin 2048)
    a0 a1 (by show _ = win1_3.index t (2 : Fin 4) * 512 + r.val; rw [a2]) a3 b0 b1 b2 b3 j
  refine congrArg₂ (· * ·) (Finset.sum_congr rfl fun j _ => ?_)
    (congrArg (Ideal.div _) (Finset.sum_congr rfl fun j _ => hP j))
  exact congrArg₂ (· * ·) (hP j) (vblk_apply V c t j d _ _ c0 c1 c2 c3)

/-- An index of the array is in point `t`'s block iff each coordinate is in the block's range on its axis. -/
theorem mem_blk (t : Fin cfg1.N) (i : S2x16x2048x64.Idx) :
    i ∈ ((cfg1.win 3).blk t).view.set ↔ ∀ a : Fin 4, win1_3.index t a * S1x1x512x64.size a ≤ (i a).val
      ∧ (i a).val < win1_3.index t a * S1x1x512x64.size a + S1x1x512x64.size a := by
  show i ∈ ((View.whole main_v14).slice (win1_3.rect t)).set ↔ _
  rw [View.set_slice_whole, Rect.mem_set_unit]
  exact Iff.rfl

/-- The output's blocks tile the array: `(b, h, q, ·)` is in the block of the point `(b, h, q / 512)`. -/
theorem cover (i : S2x16x2048x64.Idx) :
    ∃ t : Fin cfg1.N, (cfg1.win 3).flush t = true ∧ i ∈ ((cfg1.win 3).blk t).view.set := by
  have hi0 : (i 0).val < 2 := (i 0).isLt
  have hi1 : (i 1).val < 16 := (i 1).isLt
  have hi2 : (i 2).val < 2048 := (i 2).isLt
  have hi3 : (i 3).val < 64 := (i 3).isLt
  have hN : cfg1.N = 128 := N_1
  obtain ⟨t, ht⟩ : ∃ t : Fin cfg1.N, t.val = (i 0).val * 64 + (i 1).val * 4 + (i 2).val / 512 :=
    ⟨⟨(i 0).val * 64 + (i 1).val * 4 + (i 2).val / 512, by omega⟩, rfl⟩
  obtain ⟨q0, q1, q2, q3⟩ := out_index t
  refine ⟨t, flush1_3 t, ?_⟩
  rw [mem_blk]
  intro a
  match a with
  | ⟨0, _⟩ => show win1_3.index t (0 : Fin 4) * 1 ≤ (i 0).val ∧ (i 0).val < win1_3.index t (0 : Fin 4) * 1 + 1; omega
  | ⟨1, _⟩ => show win1_3.index t (1 : Fin 4) * 1 ≤ (i 1).val ∧ (i 1).val < win1_3.index t (1 : Fin 4) * 1 + 1; omega
  | ⟨2, _⟩ => show win1_3.index t (2 : Fin 4) * 512 ≤ (i 2).val ∧ (i 2).val < win1_3.index t (2 : Fin 4) * 512 + 512; omega
  | ⟨3, _⟩ => show win1_3.index t (3 : Fin 4) * 64 ≤ (i 3).val ∧ (i 3).val < win1_3.index t (3 : Fin 4) * 64 + 64; omega

/-- The output array after the run is `attnArray` of the query, key and value arrays as the call finds them. -/
theorem final1_3_array (c : Dev nD) :
    (dat1 (F := Ideal) V c).arrAt 3 cfg1.N = attnArray (V c main_v9) (V c main_v11) (V c main_v13) :=
  (dat1 (F := Ideal) V c).arrAt_eq_of_cover 3 (attnArray (qry V c) (key V c) (val V c)) (fun t _ => flushed_eq V c t) cover

/-- The output array after the run, at `(b, h, q, d)`. -/
theorem final1_3 (c : Dev nD) (b : Fin 2) (h : Fin 16) (q : Fin 2048) (d : Fin 64) :
    (dat1 (F := Ideal) V c).arrAt 3 cfg1.N (ix4 b h q d)
      = attnEntry (V c main_v9) (V c main_v11) (V c main_v13) b h q d :=
  congrFun (final1_3_array V c) (ix4 b h q d)

end Cert.KernelIdeal.AttnArray

end
-- ==== Proof.LibNaryThree.lean ====
/-
  A host operation of three operands named by a literal family of references, read at its own result.
-/
import Idealize.ShloMosaic.Lib.StableHlo.Run

noncomputable section

namespace Idealize.ShloMosaic.StableHlo

variable {τ : Topo} {sig : RefSig} {Val : EltTy → Type} {x a b y : Ref sig .tc}

/-- The result of an operation of THREE operands given as a literal family `![x, a, b]` (a concatenation of three
    arrays), with each operand's contents read AT ITS OWN REFERENCE: `Fin.cons (F x) (Fin.cons (F a) (Fin.cons (F b) _))`
    in place of `fun k => F (![x, a, b] k)`. Under the binder the reference `![…] k` is no literal, so nothing more can
    be said of the operands' contents; after this rewriting each operand's contents is a term of its own, which further
    rewriting of a line of operations reaches. (The library states the same for four operands.) -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.HostReads.lean ====
/-
  The host operations between the pallas_calls, read at an index, on extended reals (where a change of float format is
  the identity): each array a pallas_call reads is an argument, or an earlier pallas_call's output, rearranged — rows
  regrouped, a matrix transposed, three matrices laid side by side, position and head exchanged — and each entry of it is
  one entry of that source.
-/
import proofs.«177362_j16192026706464_2_alg».proof.Proof.IRun
import proofs.«177362_j16192026706464_2_alg».proof.Proof.LibNaryThree
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.HostReads

open Idealize.ShloMosaic Idealize.ShloMosaic.TcCoe Idealize.ShloMosaic.ValueIdx
open Cert.KernelIdeal Cert.KernelIdeal.Gen Cert.KernelIdeal.Frame

variable (m : (ℓ : Loc nD τ sig) → Buf (Elt Ideal) ℓ) (ρ : Dev nD → PrngReg) (c : Dev nD)

/-- The result, an array [2, 2048, 1024], is the last pallas_call's output [4096, 1024] with its rows regrouped: entry
    (b, s, e) is row 2048 b + s, column e. -/
theorem read_v21 (b : Fin 2) (s : Fin 2048) (e : Fin 1024) :
    (B7 m ρ c (Proc.devRef .tc main_v21) : S2x2048x1024.Idx → EReal) (ix3 b s e)
      = (B6 m ρ c (Proc.devRef .tc main_v20) : S4096x1024.Idx → EReal)
          (ix2 (⟨b.val * 2048 + s.val, by omega⟩ : Fin 4096) e) := by
  have e1 : (B7 m ρ c (Proc.devRef .tc main_v21) : S2x2048x1024.Idx → EReal)
      = shapeCast S2x2048x1024 (B6 m ρ c (Proc.devRef .tc main_v20) : S4096x1024.Idx → EReal) shapeCasts_S4096x1024_S2x2048x1024 := by
    show StableHlo.after hostOps3 (B6 m ρ c) (Proc.devRef .tc main_v21) = _
    after_results; rfl
  rw [e1]
  refine shapeCast_apply (s := S4096x1024) (t := S2x2048x1024) _ _ _ _ ?_
  rw [Shape.rowMajor_val_two (d := ![4096, 1024]), Shape.rowMajor_val_three (d := ![2, 2048, 1024])]
  rfl

/-- The output projection's weight as the last pallas_call reads it is the transposed argument: entry (d, e) is the
    argument's (e, d) (a change of float format is the identity on extended reals). -/
theorem read_v18 (d e : Fin 1024) :
    (B5 m ρ c (Proc.devRef .tc main_v18) : S1024x1024.Idx → EReal) (ix2 d e)
      = (m ((c : Thread nD τ).loc main_arg4) : S1024x1024.Idx → EReal) (ix2 e d) := by
  have e1 : (B5 m ρ c (Proc.devRef .tc main_v18) : S1024x1024.Idx → EReal)
      = truncf (F := Ideal) .bf16 (transpose S1024x1024 [1, 0] (B4 m ρ c (Proc.devRef .tc main_arg4) : S1024x1024.Idx → EReal)
          transposes_S1024x1024_S1024x1024_1_0) bitsLt_bf16_f32 := by
    show StableHlo.after hostOps2 (B4 m ρ c) (Proc.devRef .tc main_v18) = _
    after_results
  have e2 : B4 m ρ c (Proc.devRef .tc main_arg4) = m ((c : Thread nD τ).loc main_arg4) :=
    calc B4 m ρ c (Proc.devRef .tc main_arg4)
      _ = B3 m ρ c (Proc.devRef .tc main_arg4) := B4_of_ne m ρ c main_arg4 (by decide)
      _ = B2 m ρ c (Proc.devRef .tc main_arg4) := StableHlo.after_of_writes_sub hostOps1 _ hostOps1_writes (by decide : main_arg4 ∉ hostOps1_W)
      _ = B1 m ρ c (Proc.devRef .tc main_arg4) := B2_of_ne m ρ c main_arg4 (by decide)
      _ = B0 m ρ c (Proc.devRef .tc main_arg4) := StableHlo.after_of_writes_sub hostOps0 _ hostOps0_writes (by decide : main_arg4 ∉ hostOps0_W)
      _ = m ((c : Thread nD τ).loc main_arg4) := rfl
  rw [e1, e2]
  exact transpose_ix2_apply (a := 1024) (b := 1024) _ _ d e

/-- The bias as the last pallas_call reads it, one row of 1024 entries, is the argument vector. -/
theorem read_v19 (u : Fin 1) (e : Fin 1024) :
    (B5 m ρ c (Proc.devRef .tc main_v19) : S1x1024.Idx → EReal) (ix2 u e)
      = (m ((c : Thread nD τ).loc main_arg5) : S1024.Idx → EReal) (ix1 e) := by
  have e1 : (B5 m ρ c (Proc.devRef .tc main_v19) : S1x1024.Idx → EReal)
      = shapeCast S1x1024 (B4 m ρ c (Proc.devRef .tc main_arg5) : S1024.Idx → EReal) shapeCasts_S1024_S1x1024 := by
    show StableHlo.after hostOps2 (B4 m ρ c) (Proc.devRef .tc main_v19) = _
    after_results; rfl
  have e2 : B4 m ρ c (Proc.devRef .tc main_arg5) = m ((c : Thread nD τ).loc main_arg5) :=
    calc B4 m ρ c (Proc.devRef .tc main_arg5)
      _ = B3 m ρ c (Proc.devRef .tc main_arg5) := B4_of_ne m ρ c main_arg5 (by decide)
      _ = B2 m ρ c (Proc.devRef .tc main_arg5) := StableHlo.after_of_writes_sub hostOps1 _ hostOps1_writes (by decide : main_arg5 ∉ hostOps1_W)
      _ = B1 m ρ c (Proc.devRef .tc main_arg5) := B2_of_ne m ρ c main_arg5 (by decide)
      _ = B0 m ρ c (Proc.devRef .tc main_arg5) := StableHlo.after_of_writes_sub hostOps0 _ hostOps0_writes (by decide : main_arg5 ∉ hostOps0_W)
      _ = m ((c : Thread nD τ).loc main_arg5) := rfl
  rw [e1, e2]
  exact shapeCast_a_1a_apply (a := 1024) _ _ u e

section Heads
variable {α : Type}

/-- Rows regrouped as (batch, position) and columns as (head, lane), then position and head exchanged: entry
    (b, h, s, t) of the result is the matrix's row 2048 b + s, column 64 h + t. -/
theorem splitHeads_apply (x : S4096x1024.Idx → α) (b : Fin 2) (h : Fin 16) (s : Fin 2048) (t : Fin 64) :
    transpose S2x16x2048x64 [0, 2, 1, 3] (shapeCast S2x2048x16x64 x shapeCasts_S4096x1024_S2x2048x16x64)
        transposes_S2x2048x16x64_S2x16x2048x64_0_2_1_3 (ix4 b h s t)
      = x (ix2 (⟨b.val * 2048 + s.val, by omega⟩ : Fin 4096) (⟨h.val * 64 + t.val, by omega⟩ : Fin 1024)) := by
  refine (transpose_apply (s := S2x2048x16x64) (t := S2x16x2048x64) _ _ _ (ix4 b h s t) (ix4 b s h t)
    fun a => match a with | ⟨0, _⟩ => rfl | ⟨1, _⟩ => rfl | ⟨2, _⟩ => rfl | ⟨3, _⟩ => rfl).trans ?_
  refine shapeCast_apply (s := S4096x1024) (t := S2x2048x16x64) _ _ _ _ ?_
  rw [Shape.rowMajor_val_two (d := ![4096, 1024]), Shape.rowMajor_val_four (d := ![2, 2048, 16, 64])]
  show (b.val * 2048 + s.val) * 1024 + (h.val * 64 + t.val) = ((b.val * 2048 + s.val) * 16 + h.val) * 64 + t.val
  omega

/-- The inverse arrangement: head and position exchanged back, then (batch, position) merged into rows and (head, lane)
    into columns: row 2048 b + s, column 64 h + t of the result is entry (b, h, s, t). -/
theorem mergeHeads_apply (x : S2x16x2048x64.Idx → α) (b : Fin 2) (h : Fin 16) (s : Fin 2048) (t : Fin 64) :
    shapeCast S4096x1024 (transpose S2x2048x16x64 [0, 2, 1, 3] x transposes_S2x16x2048x64_S2x2048x16x64_0_2_1_3)
        shapeCasts_S2x2048x16x64_S4096x1024
        (ix2 (⟨b.val * 2048 + s.val, by omega⟩ : Fin 4096) (⟨h.val * 64 + t.val, by omega⟩ : Fin 1024))
      = x (ix4 b h s t) := by
  refine (shapeCast_apply (s := S2x2048x16x64) (t := S4096x1024) _ _ _ (ix4 b s h t) ?_).trans ?_
  · rw [Shape.rowMajor_val_two (d := ![4096, 1024]), Shape.rowMajor_val_four (d := ![2, 2048, 16, 64])]
    show ((b.val * 2048 + s.val) * 16 + h.val) * 64 + t.val = (b.val * 2048 + s.val) * 1024 + (h.val * 64 + t.val)
    omega
  · exact transpose_apply (s := S2x16x2048x64) (t := S2x2048x16x64) _ _ _ (ix4 b s h t) (ix4 b h s t)
      fun a => match a with | ⟨0, _⟩ => rfl | ⟨1, _⟩ => rfl | ⟨2, _⟩ => rfl | ⟨3, _⟩ => rfl

end Heads

/-- The queries as the attention pallas_call reads them: entry (b, h, s, t) is the projection's row 2048 b + s, column
    64 h + t. -/
theorem read_v9 (b : Fin 2) (h : Fin 16) (s : Fin 2048) (t : Fin 64) :
    (B3 m ρ c (Proc.devRef .tc main_v9) : S2x16x2048x64.Idx → EReal) (ix4 b h s t)
      = (B2 m ρ c (Proc.devRef .tc main_v7_0) : S4096x1024.Idx → EReal)
          (ix2 (⟨b.val * 2048 + s.val, by omega⟩ : Fin 4096) (⟨h.val * 64 + t.val, by omega⟩ : Fin 1024)) := by
  have e1 : (B3 m ρ c (Proc.devRef .tc main_v9) : S2x16x2048x64.Idx → EReal)
      = transpose S2x16x2048x64 [0, 2, 1, 3] (shapeCast S2x2048x16x64 (B2 m ρ c (Proc.devRef .tc main_v7_0) : S4096x1024.Idx → EReal)
          shapeCasts_S4096x1024_S2x2048x16x64) transposes_S2x2048x16x64_S2x16x2048x64_0_2_1_3 := by
    show StableHlo.after hostOps1 (B2 m ρ c) (Proc.devRef .tc main_v9) = _
    after_results; rfl
  rw [e1]
  exact splitHeads_apply _ b h s t

/-- The keys as the attention pallas_call reads them, likewise. -/
theorem read_v11 (b : Fin 2) (h : Fin 16) (s : Fin 2048) (t : Fin 64) :
    (B3 m ρ c (Proc.devRef .tc main_v11) : S2x16x2048x64.Idx → EReal) (ix4 b h s t)
      = (B2 m ρ c (Proc.devRef .tc main_v7_1) : S4096x1024.Idx → EReal)
          (ix2 (⟨b.val * 2048 + s.val, by omega⟩ : Fin 4096) (⟨h.val * 64 + t.val, by omega⟩ : Fin 1024)) := by
  have e1 : (B3 m ρ c (Proc.devRef .tc main_v11) : S2x16x2048x64.Idx → EReal)
      = transpose S2x16x2048x64 [0, 2, 1, 3] (shapeCast S2x2048x16x64 (B2 m ρ c (Proc.devRef .tc main_v7_1) : S4096x1024.Idx → EReal)
          shapeCasts_S4096x1024_S2x2048x16x64) transposes_S2x2048x16x64_S2x16x2048x64_0_2_1_3 := by
    show StableHlo.after hostOps1 (B2 m ρ c) (Proc.devRef .tc main_v11) = _
    after_results; rfl
  rw [e1]
  exact splitHeads_apply _ b h s t

/-- The values as the attention pallas_call reads them, likewise. -/
theorem read_v13 (b : Fin 2) (h : Fin 16) (s : Fin 2048) (t : Fin 64) :
    (B3 m ρ c (Proc.devRef .tc main_v13) : S2x16x2048x64.Idx → EReal) (ix4 b h s t)
      = (B2 m ρ c (Proc.devRef .tc main_v7_2) : S4096x1024.Idx → EReal)
          (ix2 (⟨b.val * 2048 + s.val, by omega⟩ : Fin 4096) (⟨h.val * 64 + t.val, by omega⟩ : Fin 1024)) := by
  have e1 : (B3 m ρ c (Proc.devRef .tc main_v13) : S2x16x2048x64.Idx → EReal)
      = transpose S2x16x2048x64 [0, 2, 1, 3] (shapeCast S2x2048x16x64 (B2 m ρ c (Proc.devRef .tc main_v7_2) : S4096x1024.Idx → EReal)
          shapeCasts_S4096x1024_S2x2048x16x64) transposes_S2x2048x16x64_S2x16x2048x64_0_2_1_3 := by
    show StableHlo.after hostOps1 (B2 m ρ c) (Proc.devRef .tc main_v13) = _
    after_results; rfl
  rw [e1]
  exact splitHeads_apply _ b h s t

/-- The attention output as the last pallas_call reads it: row 2048 b + s, column 64 h + t is the attention
    pallas_call's entry (b, h, s, t). -/
theorem read_v16 (b : Fin 2) (h : Fin 16) (s : Fin 2048) (t : Fin 64) :
    (B5 m ρ c (Proc.devRef .tc main_v16) : S4096x1024.Idx → EReal)
        (ix2 (⟨b.val * 2048 + s.val, by omega⟩ : Fin 4096) (⟨h.val * 64 + t.val, by omega⟩ : Fin 1024))
      = (B4 m ρ c (Proc.devRef .tc main_v14) : S2x16x2048x64.Idx → EReal) (ix4 b h s t) := by
  have e1 : (B5 m ρ c (Proc.devRef .tc main_v16) : S4096x1024.Idx → EReal)
      = shapeCast S4096x1024 (transpose S2x2048x16x64 [0, 2, 1, 3] (B4 m ρ c (Proc.devRef .tc main_v14) : S2x16x2048x64.Idx → EReal)
          transposes_S2x16x2048x64_S2x2048x16x64_0_2_1_3) shapeCasts_S2x2048x16x64_S4096x1024 := by
    show StableHlo.after hostOps2 (B4 m ρ c) (Proc.devRef .tc main_v16) = _
    after_results; rfl
  rw [e1]
  exact mergeHeads_apply _ b h s t

/-- The input as the projection pallas_call reads it, a matrix [4096, 1024]: row 2048 b + s, column d is the argument's
    entry (b, s, d) (a change of float format is the identity on extended reals). -/
theorem read_v1 (b : Fin 2) (s : Fin 2048) (d : Fin 1024) :
    (B1 m ρ c (Proc.devRef .tc main_v1) : S4096x1024.Idx → EReal) (ix2 (⟨b.val * 2048 + s.val, by omega⟩ : Fin 4096) d)
      = (m ((c : Thread nD τ).loc main_arg0) : S2x2048x1024.Idx → EReal) (ix3 b s d) := by
  have e1 : (B1 m ρ c (Proc.devRef .tc main_v1) : S4096x1024.Idx → EReal)
      = shapeCast S4096x1024 (truncf (F := Ideal) .bf16 (m ((c : Thread nD τ).loc main_arg0) : S2x2048x1024.Idx → EReal) bitsLt_bf16_f32)
          shapeCasts_S2x2048x1024_S4096x1024 := by
    show StableHlo.after hostOps0 (B0 m ρ c) (Proc.devRef .tc main_v1) = _
    after_results; rfl
  rw [e1]
  refine (shapeCast_apply (s := S2x2048x1024) (t := S4096x1024) _ _ _ (ix3 b s d) ?_).trans rfl
  rw [Shape.rowMajor_val_two (d := ![4096, 1024]), Shape.rowMajor_val_three (d := ![2, 2048, 1024])]
  rfl

section Concat
variable {α : Type}

/-- Three square matrices laid side by side: the first 1024 columns are the first matrix's. -/
theorem concat3_apply0 (x0 x1 x2 : S1024x1024.Idx → α) (d e : Fin 1024) :
    concatenate S1024x3072 1 [⟨S1024x1024, x0⟩, ⟨S1024x1024, x1⟩, ⟨S1024x1024, x2⟩]
        concatenates_S1024x1024_S1024x1024_S1024x1024_S1024x3072_d1 (ix2 d (⟨e.val, by omega⟩ : Fin 3072))
      = x0 (ix2 d e) :=
  concatenate_apply_piece (t := S1024x3072) 1 _ _ _ 0 (by show 0 < 3; decide) S1024x1024 x0 rfl rfl 0 rfl (ix2 d e)
    (fun b => match b with | ⟨0, _⟩ => fun _ => rfl | ⟨1, _⟩ => fun h => absurd rfl h) (Nat.zero_add _)

/-- The next 1024 columns are the second matrix's. -/
theorem concat3_apply1 (x0 x1 x2 : S1024x1024.Idx → α) (d e : Fin 1024) :
    concatenate S1024x3072 1 [⟨S1024x1024, x0⟩, ⟨S1024x1024, x1⟩, ⟨S1024x1024, x2⟩]
        concatenates_S1024x1024_S1024x1024_S1024x1024_S1024x3072_d1 (ix2 d (⟨1024 + e.val, by omega⟩ : Fin 3072))
      = x1 (ix2 d e) :=
  concatenate_apply_piece (t := S1024x3072) 1 _ _ _ 1 (by show 1 < 3; decide) S1024x1024 x1 rfl rfl 1024 rfl (ix2 d e)
    (fun b => match b with | ⟨0, _⟩ => fun _ => rfl | ⟨1, _⟩ => fun h => absurd rfl h) rfl

/-- The last 1024 columns are the third matrix's. -/
theorem concat3_apply2 (x0 x1 x2 : S1024x1024.Idx → α) (d e : Fin 1024) :
    concatenate S1024x3072 1 [⟨S1024x1024, x0⟩, ⟨S1024x1024, x1⟩, ⟨S1024x1024, x2⟩]
        concatenates_S1024x1024_S1024x1024_S1024x1024_S1024x3072_d1 (ix2 d (⟨2048 + e.val, by omega⟩ : Fin 3072))
      = x2 (ix2 d e) :=
  concatenate_apply_piece (t := S1024x3072) 1 _ _ _ 2 (by show 2 < 3; decide) S1024x1024 x2 rfl rfl 2048 rfl (ix2 d e)
    (fun b => match b with | ⟨0, _⟩ => fun _ => rfl | ⟨1, _⟩ => fun h => absurd rfl h) rfl

end Concat

/-- The rewriting of a line of host operations' results, with an operation of three operands read at each operand's own
    reference. -/
local macro "after_results3" : tactic =>
  `(tactic| (simp only [StableHlo.after_cons, StableHlo.after_nil]
             repeat (first
               | rw [StableHlo.unary_result] | rw [StableHlo.reshape_result] | rw [StableHlo.nary3_result]
               | (rw [StableHlo.unary_result_ne]; rotate_left; decide)
               | (rw [StableHlo.reshape_result_ne]; rotate_left; decide)
               | (rw [StableHlo.nary_result_ne]; rotate_left; decide))))

/-- The three projection weights as the projection pallas_call reads them: one matrix [1024, 3072], the three transposed
    arguments side by side. -/
theorem v6_eq :
    (B1 m ρ c (Proc.devRef .tc main_v6) : S1024x3072.Idx → EReal)
      = truncf (F := Ideal) .bf16 (concatenate S1024x3072 1
          [⟨S1024x1024, transpose S1024x1024 [1, 0] (m ((c : Thread nD τ).loc main_arg1) : S1024x1024.Idx → EReal) transposes_S1024x1024_S1024x1024_1_0⟩,
           ⟨S1024x1024, transpose S1024x1024 [1, 0] (m ((c : Thread nD τ).loc main_arg2) : S1024x1024.Idx → EReal) transposes_S1024x1024_S1024x1024_1_0⟩,
           ⟨S1024x1024, transpose S1024x1024 [1, 0] (m ((c : Thread nD τ).loc main_arg3) : S1024x1024.Idx → EReal) transposes_S1024x1024_S1024x1024_1_0⟩]
          concatenates_S1024x1024_S1024x1024_S1024x1024_S1024x3072_d1) bitsLt_bf16_f32 := by
  show StableHlo.after hostOps0 (B0 m ρ c) (Proc.devRef .tc main_v6) = _
  after_results3
  rfl

/-- Columns 0 … 1023 are the query weight transposed. -/
theorem read_v6_q (d e : Fin 1024) :
    (B1 m ρ c (Proc.devRef .tc main_v6) : S1024x3072.Idx → EReal) (ix2 d (⟨e.val, by omega⟩ : Fin 3072))
      = (m ((c : Thread nD τ).loc main_arg1) : S1024x1024.Idx → EReal) (ix2 e d) := by
  rw [v6_eq]
  refine (concat3_apply0 _ _ _ d e).trans ?_
  exact transpose_ix2_apply (a := 1024) (b := 1024) _ _ d e

/-- Columns 1024 … 2047 are the key weight transposed. -/
theorem read_v6_k (d e : Fin 1024) :
    (B1 m ρ c (Proc.devRef .tc main_v6) : S1024x3072.Idx → EReal) (ix2 d (⟨1024 + e.val, by omega⟩ : Fin 3072))
      = (m ((c : Thread nD τ).loc main_arg2) : S1024x1024.Idx → EReal) (ix2 e d) := by
  rw [v6_eq]
  refine (concat3_apply1 _ _ _ d e).trans ?_
  exact transpose_ix2_apply (a := 1024) (b := 1024) _ _ d e

/-- Columns 2048 … 3071 are the value weight transposed. -/
theorem read_v6_v (d e : Fin 1024) :
    (B1 m ρ c (Proc.devRef .tc main_v6) : S1024x3072.Idx → EReal) (ix2 d (⟨2048 + e.val, by omega⟩ : Fin 3072))
      = (m ((c : Thread nD τ).loc main_arg3) : S1024x1024.Idx → EReal) (ix2 e d) := by
  rw [v6_eq]
  refine (concat3_apply2 _ _ _ d e).trans ?_
  exact transpose_ix2_apply (a := 1024) (b := 1024) _ _ d e

end Cert.KernelIdeal.HostReads

end
-- ==== Proof.KernelSide.lean ====
/-
  The kernel program's result, entry by entry, in the common formulas. Each pallas_call's output array is read off the
  run as one function of the arrays the call found; the host operations between the calls only re-lay arrays (a reshape
  of rows, a split into heads and back, a transposed weight, three weights side by side). Composed: the arrays the
  attention call finds are the three projections, its output is the kernel's row formula over them, and the last call's
  output is the output projection of that, plus the bias.
-/
import proofs.«177362_j16192026706464_2_alg».proof.Proof.Common
import proofs.«177362_j16192026706464_2_alg».proof.Proof.IRun
import proofs.«177362_j16192026706464_2_alg».proof.Proof.TileArrays
import proofs.«177362_j16192026706464_2_alg».proof.Proof.AttnArray
import proofs.«177362_j16192026706464_2_alg».proof.Proof.HostReads

noncomputable section

namespace Cert.KernelSide

open Idealize.ShloMosaic Idealize.ShloMosaic.TcCoe Idealize.ShloMosaic.ValueIdx Idealize.SL.Sem
open Cert.KernelIdeal Cert.KernelIdeal.Frame Cert.KernelIdeal.Tiles Cert.KernelIdeal.AttnArray Cert.KernelIdeal.HostReads Cert.Common

/-- A band of the fused projection's product, read at row `(b, s)` and column `h·64 + t`, is the projection by the
    weight whose transpose fills that band. -/
theorem band_entry (col : Fin 1024 → Fin 3072) (x : S4096x1024.Idx → EReal) (w : S1024x3072.Idx → EReal)
    (X : SX.Idx → EReal) (W : SW.Idx → EReal) (b : Fin 2) (h : Fin 16) (s : Fin 2048) (t : Fin 64)
    (hx : ∀ d : Fin 1024, x (ix2 (⟨b.val * 2048 + s.val, by omega⟩ : Fin 4096) d) = X (ix3 b s d))
    (hw : ∀ d : Fin 1024, w (ix2 d (col ⟨h.val * 64 + t.val, by omega⟩)) = W (ix2 (⟨h.val * 64 + t.val, by omega⟩ : Fin 1024) d)) :
    bandProduct col x w (ix2 (⟨b.val * 2048 + s.val, by omega⟩ : Fin 4096) (⟨h.val * 64 + t.val, by omega⟩ : Fin 1024)) = proj X W b h s t :=
  Finset.sum_congr rfl fun d _ => congrArg₂ (· * ·) (hx d) (hw d)

variable (m : (ℓ : Loc nD τ sig) → Buf (Elt Ideal) ℓ) (ρ : Dev nD → PrngReg) (c : Dev nD)

/-- The query array the attention call finds is the projection by the query weight: the first band of the fused
    projection's product, whose rows are the activations' rows and whose columns are the weight's rows. -/
theorem kernel_q (b : Fin 2) (h : Fin 16) (s : Fin 2048) (t : Fin 64) :
    (B3 (F := Ideal) m ρ c (Proc.devRef .tc main_v9) : S2x16x2048x64.Idx → EReal) (ix4 b h s t)
      = proj (m ((c : Thread nD τ).loc main_arg0)) (m ((c : Thread nD τ).loc main_arg1)) b h s t := by
  refine (read_v9 m ρ c b h s t).trans ?_
  refine (congrFun ((B2_arr m ρ c 2).trans (final0_2_array (E1 m ρ) c)) _).trans ?_
  exact band_entry bandCol0 _ _ _ _ b h s t (fun d => read_v1 m ρ c b s d) (fun d => read_v6_q m ρ c d ⟨h.val * 64 + t.val, by omega⟩)

/-- The key array: the second band. -/
theorem kernel_k (b : Fin 2) (h : Fin 16) (s : Fin 2048) (t : Fin 64) :
    (B3 (F := Ideal) m ρ c (Proc.devRef .tc main_v11) : S2x16x2048x64.Idx → EReal) (ix4 b h s t)
      = proj (m ((c : Thread nD τ).loc main_arg0)) (m ((c : Thread nD τ).loc main_arg2)) b h s t := by
  refine (read_v11 m ρ c b h s t).trans ?_
  refine (congrFun ((B2_arr m ρ c 3).trans (final0_3_array (E1 m ρ) c)) _).trans ?_
  exact band_entry bandCol1 _ _ _ _ b h s t (fun d => read_v1 m ρ c b s d) (fun d => read_v6_k m ρ c d ⟨h.val * 64 + t.val, by omega⟩)

/-- The value array: the third band. -/
theorem kernel_v (b : Fin 2) (h : Fin 16) (s : Fin 2048) (t : Fin 64) :
    (B3 (F := Ideal) m ρ c (Proc.devRef .tc main_v13) : S2x16x2048x64.Idx → EReal) (ix4 b h s t)
      = proj (m ((c : Thread nD τ).loc main_arg0)) (m ((c : Thread nD τ).loc main_arg3)) b h s t := by
  refine (read_v13 m ρ c b h s t).trans ?_
  refine (congrFun ((B2_arr m ρ c 4).trans (final0_4_array (E1 m ρ) c)) _).trans ?_
  exact band_entry bandCol2 _ _ _ _ b h s t (fun d => read_v1 m ρ c b s d) (fun d => read_v6_v m ρ c d ⟨h.val * 64 + t.val, by omega⟩)

/-- The attention call's output, one entry: the kernel's row formula over the three projections. -/
theorem kernel_attn (b : Fin 2) (h : Fin 16) (q : Fin 2048) (d : Fin 64) :
    (B4 (F := Ideal) m ρ c (Proc.devRef .tc main_v14) : S2x16x2048x64.Idx → EReal) (ix4 b h q d)
      = attnK (m ((c : Thread nD τ).loc main_arg0)) (m ((c : Thread nD τ).loc main_arg1))
          (m ((c : Thread nD τ).loc main_arg2)) (m ((c : Thread nD τ).loc main_arg3)) b h q d := by
  refine (congrFun (B4_arr m ρ c 3) _).trans <| (final1_3 (E3 m ρ) c b h q d).trans ?_
  have hq : (fun t : Fin 64 => (E3 (F := Ideal) m ρ c main_v9 : S2x16x2048x64.Idx → EReal) (ix4 b h q t))
      = fun t => proj (m ((c : Thread nD τ).loc main_arg0)) (m ((c : Thread nD τ).loc main_arg1)) b h q t :=
    funext fun t => kernel_q m ρ c b h q t
  have hk : (fun (j : Fin 2048) (t : Fin 64) => (E3 (F := Ideal) m ρ c main_v11 : S2x16x2048x64.Idx → EReal) (ix4 b h j t))
      = fun j t => proj (m ((c : Thread nD τ).loc main_arg0)) (m ((c : Thread nD τ).loc main_arg2)) b h j t :=
    funext fun j => funext fun t => kernel_k m ρ c b h j t
  have hv : (fun j : Fin 2048 => (E3 (F := Ideal) m ρ c main_v13 : S2x16x2048x64.Idx → EReal) (ix4 b h j d))
      = fun j => proj (m ((c : Thread nD τ).loc main_arg0)) (m ((c : Thread nD τ).loc main_arg3)) b h j d :=
    funext fun j => kernel_v m ρ c b h j d
  show Cert.AttnRow.outK (fun t : Fin 64 => (E3 (F := Ideal) m ρ c main_v9 : S2x16x2048x64.Idx → EReal) (ix4 b h q t))
      (fun (j : Fin 2048) (t : Fin 64) => (E3 (F := Ideal) m ρ c main_v11 : S2x16x2048x64.Idx → EReal) (ix4 b h j t))
      (fun j : Fin 2048 => (E3 (F := Ideal) m ρ c main_v13 : S2x16x2048x64.Idx → EReal) (ix4 b h j d)) = _
  rw [hq, hk, hv]
  rfl

/-- The program's result, one entry: the output projection of the attention call's output, its heads put back side by
    side, plus the bias. -/
theorem kernel_out (b : Fin 2) (s : Fin 2048) (e : Fin 1024) :
    (B7 (F := Ideal) m ρ c (Proc.devRef .tc main_v21) : S2x2048x1024.Idx → EReal) (ix3 b s e)
      = result (fun b h s t => (B4 (F := Ideal) m ρ c (Proc.devRef .tc main_v14) : S2x16x2048x64.Idx → EReal) (ix4 b h s t))
          (m ((c : Thread nD τ).loc main_arg4)) (m ((c : Thread nD τ).loc main_arg5)) b s e := by
  refine (read_v21 m ρ c b s e).trans ?_
  refine (congrFun ((B6_arr m ρ c 3).trans (final2_3_array (E5 m ρ) c)) _).trans ?_
  refine congrArg₂ (· + ·) (Finset.sum_congr rfl fun d _ => congrArg₂ (· * ·) ?_ (read_v18 m ρ c d e)) (read_v19 m ρ c 0 e)
  have hd : d = (⟨(⟨d.val / 64, by omega⟩ : Fin 16).val * 64 + (⟨d.val % 64, by omega⟩ : Fin 64).val, by omega⟩ : Fin 1024) :=
    Fin.ext (by show d.val = d.val / 64 * 64 + d.val % 64; omega)
  exact (congrArg (fun z => (E5 (F := Ideal) m ρ c main_v16 : S4096x1024.Idx → EReal) (ix2 (⟨b.val * 2048 + s.val, by omega⟩ : Fin 4096) z)) hd).trans
    (read_v16 m ρ c b ⟨d.val / 64, by omega⟩ s ⟨d.val % 64, by omega⟩)

/-- The program's result, one entry, over the argument arrays alone. -/
theorem kernel_entry (b : Fin 2) (s : Fin 2048) (e : Fin 1024) :
    (B7 (F := Ideal) m ρ c (Proc.devRef .tc main_v21) : S2x2048x1024.Idx → EReal) (ix3 b s e)
      = result (attnK (m ((c : Thread nD τ).loc main_arg0)) (m ((c : Thread nD τ).loc main_arg1))
          (m ((c : Thread nD τ).loc main_arg2)) (m ((c : Thread nD τ).loc main_arg3)))
          (m ((c : Thread nD τ).loc main_arg4)) (m ((c : Thread nD τ).loc main_arg5)) b s e := by
  refine (kernel_out m ρ c b s e).trans ?_
  exact congrArg (fun A => result A (m ((c : Thread nD τ).loc main_arg4)) (m ((c : Thread nD τ).loc main_arg5)) b s e)
    (funext fun b' => funext fun h' => funext fun s' => funext fun t' => kernel_attn m ρ c b' h' s' t')

end Cert.KernelSide

end
-- ==== Proof.RefRead.lean ====
/-
  The reference program read at an index, at the extended reals.

  The reference computes multi-head attention in four stages, each a composition of its host operations:
  • a projection x·wᵀ relaid by heads: [2,2048,1024] → [2,2048,16,64] → [2,16,2048,64] (`refQ`), whose entry
    (b, h, s, t) is ∑ d, x(b, s, d) · w(h·64 + t, d);
  • the attention core on three such arrays Q, K, V (`refAttn`): scores S(q, j) = (∑ t, Q(q,t)·K(j,t)) / 8, the row
    maximum M(q) taken from −∞ and joined once more with −∞, E(q, j) = exp(S(q,j) − M(q)), and the entry (b, h, q, d)
    is ∑ j, (E(q,j) / ∑ j', E(q,j')) · V(j, d);
  • the output projection (`refOut`): heads laid back side by side, times woᵀ, plus the bias;
  and the program's result is their composition (`ref_result`).
-/
import proofs.«177362_j16192026706464_2_alg».proof.Proof.Gen.ReferenceIdeal.Read
import proofs.«177362_j16192026706464_2_alg».proof.Proof.LibColumns
import Idealize.ShloMosaic.Lib.IdealHost

noncomputable section

namespace Cert.ReferenceIdeal.RefRead

open Cert.ReferenceIdeal Cert.ReferenceIdeal.Gen Idealize.ShloMosaic Idealize.ShloMosaic.TcCoe Idealize.SL.Sem Idealize.ShloMosaic.StableHlo
open Idealize.ShloMosaic.ValueIdx
open scoped BigOperators

/-! ## The projection, relaid by heads -/

/-- x·wᵀ, split into 16 heads of 64 columns and the head axis moved in front of the sequence axis. -/
def refQ (x : FVec Ideal S2x2048x1024 .f32) (w : FVec Ideal S1024x1024 .f32) : FVec Ideal S2x16x2048x64 .f32 :=
  Read.val_main_v2 (F := Ideal) x w

/-- Entry (b, h, s, t) of the relaid projection is row (b, s) of x against row h·64 + t of w. -/
theorem refQ_apply (x : FVec Ideal S2x2048x1024 .f32) (w : FVec Ideal S1024x1024 .f32)
    (b : Fin 2) (h : Fin 16) (s : Fin 2048) (t : Fin 64) :
    refQ x w (ix4 b h s t)
      = ∑ d : Fin 1024, x (ix3 b s d) * w (ix2 (⟨h.val * 64 + t.val, by omega⟩ : Fin 1024) d) := by
  unfold refQ
  rw [Read.val_main_v2_apply, Read.val_main_v1_apply, Read.val_main_v0_apply]
  have hb := b.isLt; have hh := h.isLt; have hs := s.isLt; have ht := t.isLt
  refine Finset.sum_congr rfl fun d _ => ?_
  have el : Read.lidx_main_v0 (Read.idx_main_v1 (Read.idx_main_v2 (ix4 b h s t))) d = ix3 b s d :=
    funext fun a => Fin.ext (by
      match a with
      | ⟨0, _⟩ => show (((b.val * 2048 + s.val) * 16 + h.val) * 64 + t.val) / 2097152 = b.val; omega
      | ⟨1, _⟩ => show (((b.val * 2048 + s.val) * 16 + h.val) * 64 + t.val) / 1024 % 2048 = s.val; omega
      | ⟨2, _⟩ => rfl)
  have er : Read.ridx_main_v0 (Read.idx_main_v1 (Read.idx_main_v2 (ix4 b h s t))) d
      = ix2 (⟨h.val * 64 + t.val, by omega⟩ : Fin 1024) d :=
    funext fun a => Fin.ext (by
      match a with
      | ⟨0, _⟩ => show (((b.val * 2048 + s.val) * 16 + h.val) * 64 + t.val) % 1024 = h.val * 64 + t.val; omega
      | ⟨1, _⟩ => rfl)
  rw [el, er]

/-! ## The attention core -/

/-- The score of query row q against key row j of head (b, h): their product over the 64 coordinates, divided by
    the constant 8. -/
def refS (Q K : FVec Ideal S2x16x2048x64 .f32) (b : Fin 2) (h : Fin 16) (q j : Fin 2048) : EReal :=
  Ideal.div (∑ t : Fin 64, Q (ix4 b h q t) * K (ix4 b h j t)) (Ideal.ofBits .f32 0x41000000#32)

/-- The maximum of score row q, folded from −∞ and joined once more with −∞. -/
def refM (Q K : FVec Ideal S2x16x2048x64 .f32) (b : Fin 2) (h : Fin 16) (q : Fin 2048) : EReal :=
  max (Ideal.ofBits .f32 0xFF800000#32)
    ((Finset.univ : Finset (Fin 2048)).fold max (Ideal.ofBits .f32 0xFF800000#32) (fun j => refS Q K b h q j))

/-- The exponential of a score less its row's maximum. -/
def refE (Q K : FVec Ideal S2x16x2048x64 .f32) (b : Fin 2) (h : Fin 16) (q j : Fin 2048) : EReal :=
  Ideal.exp (refS Q K b h q j - refM Q K b h q)

/-! ### The two batched products read at an index -/

/-- The product over the last axes of both operands, batched over the first two: at (b, h, q, j) the sum over the
    64 coordinates of the left operand's row q against the right operand's row j. -/
theorem dotQK_apply (Q K : FVec Ideal S2x16x2048x64 .f32) (i : S2x16x2048x2048.Idx) :
    Host.dotGeneral (F := Ideal) dot_S2x16x2048x64_S2x16x2048x64_S2x16x2048x2048_3_3_2_2_01_01 none Q K i
      = ∑ k : Fin 64, Q (Read.lidx_main_v9 i k) * K (Read.ridx_main_v9 i k) := by
  simp only [Host.dotGeneral]
  rw [Ideal.dotGeneral_apply, ← Equiv.sum_comp (ValueIdx.contrEquiv1 dot_S2x16x2048x64_S2x16x2048x64_S2x16x2048x2048_3_3_2_2_01_01 64 rfl rfl).symm]
  refine Finset.sum_congr rfl fun k _ => ?_
  have hk := ValueIdx.contrEquiv1_symm_val dot_S2x16x2048x64_S2x16x2048x64_S2x16x2048x2048_3_3_2_2_01_01 64 rfl rfl k
  have el : dot_S2x16x2048x64_S2x16x2048x64_S2x16x2048x2048_3_3_2_2_01_01.lhsIdx i ((ValueIdx.contrEquiv1 dot_S2x16x2048x64_S2x16x2048x64_S2x16x2048x2048_3_3_2_2_01_01 64 rfl rfl).symm k) = Read.lidx_main_v9 i k :=
    funext fun a => Fin.ext (by
      match a with
      | ⟨0, _⟩ => exact Read.lhs_main_v9_0 _ _
      | ⟨1, _⟩ => exact Read.lhs_main_v9_1 _ _
      | ⟨2, _⟩ => exact Read.lhs_main_v9_2 _ _
      | ⟨3, _⟩ => exact (Read.lhs_main_v9_3 _ _).trans hk)
  have er : dot_S2x16x2048x64_S2x16x2048x64_S2x16x2048x2048_3_3_2_2_01_01.rhsIdx i ((ValueIdx.contrEquiv1 dot_S2x16x2048x64_S2x16x2048x64_S2x16x2048x2048_3_3_2_2_01_01 64 rfl rfl).symm k) = Read.ridx_main_v9 i k :=
    funext fun a => Fin.ext (by
      match a with
      | ⟨0, _⟩ => exact Read.rhs_main_v9_0 _ _
      | ⟨1, _⟩ => exact Read.rhs_main_v9_1 _ _
      | ⟨2, _⟩ => exact Read.rhs_main_v9_2 _ _
      | ⟨3, _⟩ => exact (Read.rhs_main_v9_3 _ _).trans hk)
  rw [el, er]

/-- The product of the left operand's last axis with the right operand's third, batched over the first two: at
    (b, h, q, d) the sum over the 2048 rows j of the left operand at (q, j) times the right operand at (j, d). -/
theorem dotPV_apply (P : FVec Ideal S2x16x2048x2048 .f32) (V : FVec Ideal S2x16x2048x64 .f32) (i : S2x16x2048x64.Idx) :
    Host.dotGeneral (F := Ideal) dot_S2x16x2048x2048_S2x16x2048x64_S2x16x2048x64_3_2_2_3_01_01 none P V i
      = ∑ k : Fin 2048, P (Read.lidx_main_v23 i k) * V (Read.ridx_main_v23 i k) := by
  simp only [Host.dotGeneral]
  rw [Ideal.dotGeneral_apply, ← Equiv.sum_comp (ValueIdx.contrEquiv1 dot_S2x16x2048x2048_S2x16x2048x64_S2x16x2048x64_3_2_2_3_01_01 2048 rfl rfl).symm]
  refine Finset.sum_congr rfl fun k _ => ?_
  have hk := ValueIdx.contrEquiv1_symm_val dot_S2x16x2048x2048_S2x16x2048x64_S2x16x2048x64_3_2_2_3_01_01 2048 rfl rfl k
  have el : dot_S2x16x2048x2048_S2x16x2048x64_S2x16x2048x64_3_2_2_3_01_01.lhsIdx i ((ValueIdx.contrEquiv1 dot_S2x16x2048x2048_S2x16x2048x64_S2x16x2048x64_3_2_2_3_01_01 2048 rfl rfl).symm k) = Read.lidx_main_v23 i k :=
    funext fun a => Fin.ext (by
      match a with
      | ⟨0, _⟩ => exact Read.lhs_main_v23_0 _ _
      | ⟨1, _⟩ => exact Read.lhs_main_v23_1 _ _
      | ⟨2, _⟩ => exact Read.lhs_main_v23_2 _ _
      | ⟨3, _⟩ => exact (Read.lhs_main_v23_3 _ _).trans hk)
  have er : dot_S2x16x2048x2048_S2x16x2048x64_S2x16x2048x64_3_2_2_3_01_01.rhsIdx i ((ValueIdx.contrEquiv1 dot_S2x16x2048x2048_S2x16x2048x64_S2x16x2048x64_3_2_2_3_01_01 2048 rfl rfl).symm k) = Read.ridx_main_v23 i k :=
    funext fun a => Fin.ext (by
      match a with
      | ⟨0, _⟩ => exact Read.rhs_main_v23_0 _ _
      | ⟨1, _⟩ => exact Read.rhs_main_v23_1 _ _
      | ⟨2, _⟩ => exact (Read.rhs_main_v23_2 _ _).trans hk
      | ⟨3, _⟩ => exact Read.rhs_main_v23_3 _ _)
  rw [el, er]

/-! ### Reductions along the last axis, and a row value broadcast back along it -/

/-- Row (b, h, q) of the reduced array with coordinate k put back on the reduced (last) axis is the index
    (b, h, q, k). -/
theorem lift_last (hr : S2x16x2048x2048.Reduces [3] S2x16x2048) (b : Fin 2) (h : Fin 16) (q : Fin 2048)
    (k : Fin (S2x16x2048x2048.size 3)) : hr.lift (ix3 b h q) k = ix4 b h q (⟨k.val, k.isLt⟩ : Fin 2048) := by
  funext c; apply Fin.ext
  fin_cases c <;> rfl

/-- A reduce with a maximum body along the last axis, from the scalar constant w, read at row (b, h, q): the fold
    of max over the row's 2048 entries from the extended real w denotes. -/
theorem hostReduce_maximumf_last (s : FVec Ideal S2x16x2048x2048 .f32) (w : BitVec 32) (b : Fin 2) (h : Fin 16) (q : Fin 2048) :
    Host.reduce FloatOps.maximumf s (constant (F := Ideal) S_ .f32 w) reducesTo_S2x16x2048x2048_S2x16x2048_d3 h_S_ (ix3 b h q)
      = (Finset.univ : Finset (Fin 2048)).fold max (Ideal.ofBits .f32 w) (fun k => s (ix4 b h q k)) := by
  have hr : S2x16x2048x2048.Reduces [3] S2x16x2048 := by decide
  rw [Host.reduce_eq_fold_single FloatOps.maximumf s _ reducesTo_S2x16x2048x2048_S2x16x2048_d3 hr h_S_]
  exact congrArg (fun f => Finset.fold max (Ideal.ofBits .f32 w) f (Finset.univ : Finset (Fin 2048)))
    (funext fun k => congrArg s (lift_last hr b h q k))

/-- A float sum along the last axis, from the scalar constant w, read at row (b, h, q): w's extended real plus the
    sum of the row's 2048 entries. -/
theorem hostReduceAdd_last (e : FVec Ideal S2x16x2048x2048 .f32) (w : BitVec 32) (b : Fin 2) (h : Fin 16) (q : Fin 2048) :
    Host.reduceAdd (F := Ideal) e (constant (F := Ideal) S_ .f32 w) reducesTo_S2x16x2048x2048_S2x16x2048_d3 h_S_ (ix3 b h q)
      = Ideal.ofBits .f32 w + ∑ k : Fin 2048, e (ix4 b h q k) := by
  have hr : S2x16x2048x2048.Reduces [3] S2x16x2048 := by decide
  simp only [Host.reduceAdd, Ideal.hostReduceAdd_def]
  rw [Ideal.hostReduceAdd_single reducesTo_S2x16x2048x2048_S2x16x2048_d3 hr]
  refine congrArg (Ideal.ofBits .f32 w + ·) (Finset.sum_congr rfl fun k _ => ?_)
  exact congrArg e (lift_last hr b h q k)

/-- One value per row (b, h, q), as a column [2,16,2048,1] broadcast along the last axis. -/
def refKeep (m : FVec Ideal S2x16x2048 .f32) : FVec Ideal S2x16x2048x2048 .f32 :=
  broadcastInDim S2x16x2048x2048 ![0, 1, 2, 3] bcast_S2x16x2048x1_S2x16x2048x2048_0_1_2_3
    (broadcastInDim S2x16x2048x1 ![0, 1, 2] bcast_S2x16x2048_S2x16x2048x1_0_1_2 m)

/-- Every entry of row (b, h, q) of the broadcast is the row's value. -/
theorem refKeep_apply (m : FVec Ideal S2x16x2048 .f32) (b : Fin 2) (h : Fin 16) (q j : Fin 2048) :
    refKeep m (ix4 b h q j) = m (ix3 b h q) := by
  unfold refKeep
  refine (broadcastInDim_apply _ bcast_S2x16x2048x1_S2x16x2048x2048_0_1_2_3 _ (ix4 b h q j) (ix4 b h q (0 : Fin 1))
    (fun a => match a with
      | ⟨0, _⟩ => by show b.val = if (2 : Nat) = 1 then 0 else b.val; rw [if_neg (by decide)]
      | ⟨1, _⟩ => by show h.val = if (16 : Nat) = 1 then 0 else h.val; rw [if_neg (by decide)]
      | ⟨2, _⟩ => by show q.val = if (2048 : Nat) = 1 then 0 else q.val; rw [if_neg (by decide)]
      | ⟨3, _⟩ => by show 0 = if (1 : Nat) = 1 then 0 else j.val; rw [if_pos rfl])).trans ?_
  exact broadcastInDim_apply _ bcast_S2x16x2048_S2x16x2048x1_0_1_2 m (ix4 b h q (0 : Fin 1)) (ix3 b h q)
    (fun a => match a with
      | ⟨0, _⟩ => by show b.val = if (2 : Nat) = 1 then 0 else b.val; rw [if_neg (by decide)]
      | ⟨1, _⟩ => by show h.val = if (16 : Nat) = 1 then 0 else h.val; rw [if_neg (by decide)]
      | ⟨2, _⟩ => by show q.val = if (2048 : Nat) = 1 then 0 else q.val; rw [if_neg (by decide)])

/-! ### The stages of the core -/

/-- The scores: the batched product Q·Kᵀ divided, entry by entry, by the broadcast constant 8. -/
def refScores (Q K : FVec Ideal S2x16x2048x64 .f32) : FVec Ideal S2x16x2048x2048 .f32 :=
  Host.divf (F := Ideal) (Host.dotGeneral (F := Ideal) dot_S2x16x2048x64_S2x16x2048x64_S2x16x2048x2048_3_3_2_2_01_01 none Q K)
    (broadcastInDim S2x16x2048x2048 ![] bcast_S_S2x16x2048x2048 (constant (F := Ideal) S_ .f32 0x41000000#32))

theorem refScores_apply (Q K : FVec Ideal S2x16x2048x64 .f32) (b : Fin 2) (h : Fin 16) (q j : Fin 2048) :
    refScores Q K (ix4 b h q j) = refS Q K b h q j := by
  unfold refScores refS
  show Ideal.div (Host.dotGeneral (F := Ideal) dot_S2x16x2048x64_S2x16x2048x64_S2x16x2048x2048_3_3_2_2_01_01 none Q K (ix4 b h q j))
    (broadcastInDim S2x16x2048x2048 ![] bcast_S_S2x16x2048x2048 (constant (F := Ideal) S_ .f32 0x41000000#32) (ix4 b h q j)) = _
  rw [dotQK_apply, broadcastInDim_apply _ bcast_S_S2x16x2048x2048 _ (ix4 b h q j) ix0 (fun a => a.elim0)]
  refine congrArg₂ Ideal.div (Finset.sum_congr rfl fun t _ => ?_) rfl
  have el : Read.lidx_main_v9 (ix4 b h q j) t = ix4 b h q t :=
    funext fun a => Fin.ext (by match a with | ⟨0, _⟩ => rfl | ⟨1, _⟩ => rfl | ⟨2, _⟩ => rfl | ⟨3, _⟩ => rfl)
  have er : Read.ridx_main_v9 (ix4 b h q j) t = ix4 b h j t :=
    funext fun a => Fin.ext (by match a with | ⟨0, _⟩ => rfl | ⟨1, _⟩ => rfl | ⟨2, _⟩ => rfl | ⟨3, _⟩ => rfl)
  rw [el, er]

/-- The row maxima of a score array: the reduce from −∞ along the last axis, joined with a broadcast −∞. -/
def refRowMax (s : FVec Ideal S2x16x2048x2048 .f32) : FVec Ideal S2x16x2048 .f32 :=
  maximumf (broadcastInDim S2x16x2048 ![] bcast_S_S2x16x2048 (constant (F := Ideal) S_ .f32 0xFF800000#32))
    (Host.reduce FloatOps.maximumf s (constant (F := Ideal) S_ .f32 0xFF800000#32) reducesTo_S2x16x2048x2048_S2x16x2048_d3 h_S_)

theorem refRowMax_apply (s : FVec Ideal S2x16x2048x2048 .f32) (b : Fin 2) (h : Fin 16) (q : Fin 2048) :
    refRowMax s (ix3 b h q)
      = max (Ideal.ofBits .f32 0xFF800000#32)
          ((Finset.univ : Finset (Fin 2048)).fold max (Ideal.ofBits .f32 0xFF800000#32) (fun j => s (ix4 b h q j))) := by
  unfold refRowMax
  rw [maximumf_apply, hostReduce_maximumf_last, broadcastInDim_apply _ bcast_S_S2x16x2048 _ (ix3 b h q) ix0 (fun a => a.elim0),
    constant_apply]

/-- The exponentials of a score array less its row maxima. -/
def refExp (s : FVec Ideal S2x16x2048x2048 .f32) : FVec Ideal S2x16x2048x2048 .f32 :=
  Host.exp (F := Ideal) (subf s (refKeep (refRowMax s)))

theorem refExp_apply (s : FVec Ideal S2x16x2048x2048 .f32) (b : Fin 2) (h : Fin 16) (q j : Fin 2048) :
    refExp s (ix4 b h q j)
      = Ideal.exp (s (ix4 b h q j) - max (Ideal.ofBits .f32 0xFF800000#32)
          ((Finset.univ : Finset (Fin 2048)).fold max (Ideal.ofBits .f32 0xFF800000#32) (fun j => s (ix4 b h q j)))) := by
  unfold refExp
  show Ideal.exp ((s (ix4 b h q j) : EReal) - refKeep (refRowMax s) (ix4 b h q j)) = _
  rw [refKeep_apply, refRowMax_apply]

/-- The exponentials divided by their row sums (taken from the constant 0). -/
def refSoftmax (s : FVec Ideal S2x16x2048x2048 .f32) : FVec Ideal S2x16x2048x2048 .f32 :=
  Host.divf (F := Ideal) (refExp s)
    (refKeep (Host.reduceAdd (F := Ideal) (refExp s) (constant (F := Ideal) S_ .f32 0x00000000#32) reducesTo_S2x16x2048x2048_S2x16x2048_d3 h_S_))

theorem refSoftmax_apply (s : FVec Ideal S2x16x2048x2048 .f32) (b : Fin 2) (h : Fin 16) (q j : Fin 2048) :
    refSoftmax s (ix4 b h q j)
      = Ideal.div (refExp s (ix4 b h q j)) (∑ j' : Fin 2048, refExp s (ix4 b h q j')) := by
  unfold refSoftmax
  show Ideal.div (refExp s (ix4 b h q j))
    (refKeep (Host.reduceAdd (F := Ideal) (refExp s) (constant (F := Ideal) S_ .f32 0x00000000#32) reducesTo_S2x16x2048x2048_S2x16x2048_d3 h_S_) (ix4 b h q j)) = _
  rw [refKeep_apply, hostReduceAdd_last, Ideal.ofBits_zero_f32, zero_add]

/-- The attention core of three relaid arrays: the softmax of the scores of Q against K, times V. -/
def refAttn (Q K V : FVec Ideal S2x16x2048x64 .f32) : FVec Ideal S2x16x2048x64 .f32 :=
  Host.dotGeneral (F := Ideal) dot_S2x16x2048x2048_S2x16x2048x64_S2x16x2048x64_3_2_2_3_01_01 none (refSoftmax (refScores Q K)) V

/-- Entry (b, h, q, d) of the core: the rows j of V weighted by E(q, j) over the row sum of E(q, ·). -/
theorem refAttn_apply (Q K V : FVec Ideal S2x16x2048x64 .f32) (b : Fin 2) (h : Fin 16) (q : Fin 2048) (d : Fin 64) :
    refAttn Q K V (ix4 b h q d)
      = ∑ j : Fin 2048, Ideal.div (refE Q K b h q j) (∑ j' : Fin 2048, refE Q K b h q j') * V (ix4 b h j d) := by
  unfold refAttn
  rw [dotPV_apply]
  refine Finset.sum_congr rfl fun j _ => ?_
  have el : Read.lidx_main_v23 (ix4 b h q d) j = ix4 b h q j :=
    funext fun a => Fin.ext (by match a with | ⟨0, _⟩ => rfl | ⟨1, _⟩ => rfl | ⟨2, _⟩ => rfl | ⟨3, _⟩ => rfl)
  have er : Read.ridx_main_v23 (ix4 b h q d) j = ix4 b h j d :=
    funext fun a => Fin.ext (by match a with | ⟨0, _⟩ => rfl | ⟨1, _⟩ => rfl | ⟨2, _⟩ => rfl | ⟨3, _⟩ => rfl)
  rw [el, er, refSoftmax_apply]
  simp only [refExp_apply, refScores_apply]
  rfl

/-! ## The output projection -/

/-- The heads laid back side by side: [2,16,2048,64] → [2,2048,16,64] → [2,2048,1024]. -/
def refMerge (A : FVec Ideal S2x16x2048x64 .f32) : FVec Ideal S2x2048x1024 .f32 :=
  shapeCast _ (transpose S2x2048x16x64 [0, 2, 1, 3] A transposes_S2x16x2048x64_S2x2048x16x64_0_2_1_3)
    shapeCasts_S2x2048x16x64_S2x2048x1024

/-- Column d of the merged array is entry d mod 64 of head d / 64. -/
theorem refMerge_apply (A : FVec Ideal S2x16x2048x64 .f32) (b : Fin 2) (s : Fin 2048) (d : Fin 1024) :
    refMerge A (ix3 b s d)
      = A (ix4 b (⟨d.val / 64, by omega⟩ : Fin 16) s (⟨d.val % 64, by omega⟩ : Fin 64)) := by
  unfold refMerge
  have hb := b.isLt; have hs := s.isLt; have hd := d.isLt
  rw [shapeCast_apply _ shapeCasts_S2x2048x16x64_S2x2048x1024 (ix3 b s d)
    (ix4 b s (⟨d.val / 64, by omega⟩ : Fin 16) (⟨d.val % 64, by omega⟩ : Fin 64))
    (by rw [Shape.rowMajor_val_four, Shape.rowMajor_val_three]
        show ((b.val * 2048 + s.val) * 16 + d.val / 64) * 64 + d.val % 64 = (b.val * 2048 + s.val) * 1024 + d.val
        omega)]
  exact transpose_apply [0, 2, 1, 3] A transposes_S2x16x2048x64_S2x2048x16x64_0_2_1_3 _
    (ix4 b (⟨d.val / 64, by omega⟩ : Fin 16) s (⟨d.val % 64, by omega⟩ : Fin 64)) (fun a => match a with
      | ⟨0, _⟩ => rfl
      | ⟨1, _⟩ => rfl
      | ⟨2, _⟩ => rfl
      | ⟨3, _⟩ => rfl)

/-- The merged heads times woᵀ, plus the bias along the last axis. -/
def refOut (A : FVec Ideal S2x16x2048x64 .f32) (wo : FVec Ideal S1024x1024 .f32) (bo : FVec Ideal S1024 .f32) :
    FVec Ideal S2x2048x1024 .f32 :=
  addf (Host.dotGeneral (F := Ideal) dot_S2x2048x1024_S1024x1024_S2x2048x1024_2_1_01_0_n_n none (refMerge A) wo)
    (broadcastInDim S2x2048x1024 ![0, 1, 2] bcast_S1x1x1024_S2x2048x1024_0_1_2
      (broadcastInDim S1x1x1024 ![2] bcast_S1024_S1x1x1024_2 bo))

/-- Entry (b, s, e) of the output: row (b, s) of the merged heads against row e of wo, plus the bias at e. -/
theorem refOut_apply (A : FVec Ideal S2x16x2048x64 .f32) (wo : FVec Ideal S1024x1024 .f32) (bo : FVec Ideal S1024 .f32)
    (b : Fin 2) (s : Fin 2048) (e : Fin 1024) :
    refOut A wo bo (ix3 b s e)
      = (∑ d : Fin 1024, A (ix4 b (⟨d.val / 64, by omega⟩ : Fin 16) s (⟨d.val % 64, by omega⟩ : Fin 64)) * wo (ix2 e d))
        + bo (ix1 e) := by
  unfold refOut
  show (Read.val_main_v0 (F := Ideal) (refMerge A) wo (ix3 b s e) : EReal)
      + (Read.val_main_v28 (F := Ideal) bo (ix3 b s e) : EReal) = _
  rw [Read.val_main_v0_apply, Read.val_main_v28_apply, Read.val_main_v27_apply]
  congr 1
  · refine Finset.sum_congr rfl fun d _ => ?_
    have el : Read.lidx_main_v0 (ix3 b s e) d = ix3 b s d :=
      funext fun a => Fin.ext (by match a with | ⟨0, _⟩ => rfl | ⟨1, _⟩ => rfl | ⟨2, _⟩ => rfl)
    have er : Read.ridx_main_v0 (ix3 b s e) d = ix2 e d :=
      funext fun a => Fin.ext (by match a with | ⟨0, _⟩ => rfl | ⟨1, _⟩ => rfl)
    rw [el, er, refMerge_apply]
  · exact congrArg bo (funext fun a => Fin.ext (by match a with | ⟨0, _⟩ => rfl))

/-! ## The program's result -/

/-- The last stage, as a function of the program's six arguments, is the composition of the four stages above. -/
theorem val_result (x : FVec Ideal S2x2048x1024 .f32) (wq wk wv wo : FVec Ideal S1024x1024 .f32) (bo : FVec Ideal S1024 .f32) :
    Read.val_main_v29 (F := Ideal) x wq wk wv wo bo
      = refOut (refAttn (refQ x wq) (refQ x wk) (refQ x wv)) wo bo := rfl

/-- The term the reference's run states for its result is the composition of the four stages, at the arguments'
    contents in the initial memory. -/
theorem ref_result (m : (ℓ : Loc nD τ sig) → Buf (Elt Ideal) ℓ) (c : Dev nD) :
    Cert.ReferenceIdeal.Value.res_main_v29 m c
      = refOut (refAttn (refQ (m ((c.tc : Thread nD τ).loc main_arg0)) (m ((c.tc : Thread nD τ).loc main_arg1))) (refQ (m ((c.tc : Thread nD τ).loc main_arg0)) (m ((c.tc : Thread nD τ).loc main_arg2))) (refQ (m ((c.tc : Thread nD τ).loc main_arg0)) (m ((c.tc : Thread nD τ).loc main_arg3))))
          (m ((c.tc : Thread nD τ).loc main_arg4)) (m ((c.tc : Thread nD τ).loc main_arg5)) :=
  (Read.val_main_v29_eq (F := Ideal) m c).trans (val_result _ _ _ _ _ _)

end Cert.ReferenceIdeal.RefRead

end
-- ==== Proof.RefSide.lean ====
/-
  The reference's result, entry by entry, in the common formulas: its three projections are `proj`, its attention core
  is the reference's row formula over them, and its last stage is `result`.
-/
import proofs.«177362_j16192026706464_2_alg».proof.Proof.Common
import proofs.«177362_j16192026706464_2_alg».proof.Proof.RefRead

noncomputable section

namespace Cert.RefSide

open Idealize.ShloMosaic Idealize.ShloMosaic.TcCoe Idealize.ShloMosaic.ValueIdx Idealize.SL.Sem
open Cert.ReferenceIdeal Cert.ReferenceIdeal.RefRead Cert.Common

/-- The reference's attention core over its three projections, one entry. -/
theorem refAttn_entry (x : FVec Ideal S2x2048x1024 .f32) (wq wk wv : FVec Ideal S1024x1024 .f32)
    (b : Fin 2) (h : Fin 16) (q : Fin 2048) (d : Fin 64) :
    refAttn (refQ x wq) (refQ x wk) (refQ x wv) (ix4 b h q d) = attnR x wq wk wv b h q d := by
  refine (refAttn_apply _ _ _ b h q d).trans ?_
  have hq : (fun t : Fin 64 => refQ x wq (ix4 b h q t)) = fun t => proj x wq b h q t := funext fun t => refQ_apply x wq b h q t
  have hk : (fun (j : Fin 2048) (t : Fin 64) => refQ x wk (ix4 b h j t)) = fun j t => proj x wk b h j t :=
    funext fun j => funext fun t => refQ_apply x wk b h j t
  have hv : (fun j : Fin 2048 => refQ x wv (ix4 b h j d)) = fun j => proj x wv b h j d := funext fun j => refQ_apply x wv b h j d
  show Cert.AttnRow.outR (fun t : Fin 64 => refQ x wq (ix4 b h q t)) (fun (j : Fin 2048) (t : Fin 64) => refQ x wk (ix4 b h j t))
      (fun j : Fin 2048 => refQ x wv (ix4 b h j d)) = _
  rw [hq, hk, hv]
  rfl

/-- The reference's result, one entry. -/
theorem ref_entry (m : (ℓ : Loc nD τ sig) → Buf (Elt Ideal) ℓ) (c : Dev nD) (b : Fin 2) (s : Fin 2048) (e : Fin 1024) :
    (Cert.ReferenceIdeal.Value.res_main_v29 (F := Ideal) m c : S2x2048x1024.Idx → EReal) (ix3 b s e)
      = result (attnR (m ((c.tc : Thread nD τ).loc main_arg0)) (m ((c.tc : Thread nD τ).loc main_arg1))
          (m ((c.tc : Thread nD τ).loc main_arg2)) (m ((c.tc : Thread nD τ).loc main_arg3)))
          (m ((c.tc : Thread nD τ).loc main_arg4)) (m ((c.tc : Thread nD τ).loc main_arg5)) b s e := by
  rw [ref_result m c]
  refine (refOut_apply _ _ _ b s e).trans ?_
  refine congrArg₂ (· + ·) (Finset.sum_congr rfl fun d _ => congrArg₂ (· * ·) ?_ rfl) rfl
  exact refAttn_entry _ _ _ _ b _ s _

end Cert.RefSide

end
-- ==== Proof.FiniteInputs.lean ====
/- Finiteness of the inputs, read back from the precondition. The precondition takes, per argument array,
   the absolute value of every entry, compares it (less than) against +∞, takes the conjunction over all
   entries from true, and conjoins the six results. At the extended reals |x| < +∞ excludes both
   infinities, so every entry of every argument is a (coerced) real. -/
import proofs.«177362_j16192026706464_2_alg».proof.Pre_finite_inputs
import proofs.«177362_j16192026706464_2_alg».proof.Proof.Gen.Pre_finite_inputs
import Idealize.ShloMosaic.Lib.ReduceAll
import Idealize.ShloMosaic.Lib.ValueIdx
import Idealize.ShloMosaic.PureOps.Ideal

noncomputable section

namespace Cert.FiniteInputs

open Idealize.ShloMosaic Cert.Pre_finite_inputs

/-- The rank-0 shape has one index. -/
instance : Subsingleton S_.Idx := ⟨fun a b => funext fun d => d.elim0⟩

/-- The f32 word 0x7F800000 denotes +∞, the top of the extended reals. -/
theorem ofBits_pos_inf : Ideal.ofBits .f32 0x7F800000#32 = (⊤ : EReal) := by
  simp [Ideal.ofBits, Ideal.ieee]

/-- An extended real whose absolute value compares less than +∞ is a real. -/
theorem real_of_abs_lt_top (x : EReal)
    (h : Ideal.cmp .olt (max x (-x)) (Ideal.ofBits .f32 0x7F800000#32) = 1#1) : ∃ r : ℝ, x = (r : EReal) := by
  rw [ofBits_pos_inf] at h
  have hb : ∀ b : Bool, BitVec.ofBool b = 1#1 → b = true := by decide
  have hlt : max x (-x) < ⊤ := of_decide_eq_true (hb _ h)
  induction x using EReal.rec with
  | bot => simp at hlt
  | coe r => exact ⟨r, rfl⟩
  | top => simp at hlt

/-- One entry: the comparison word of |x i| against the broadcast +∞ being 1 makes x i a real. -/
theorem elem_real {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) :=
  real_of_abs_lt_top (x i) h

/-- One argument: the conjunction over all entries, from true, being 1 makes every entry a real. -/
theorem all_real {s : Shape} {axes : List (Fin s.rank)} (hb : S_.BroadcastsInDim s (![] : Fin 0 → Fin s.rank))
    (hr : s.ReducesTo axes S_) (hu : 0 < S_.numel) (x : FVec Ideal s .f32)
    (h : Host.reduce IntOp.andi
          (cmpf .olt (Host.absf x) (broadcastInDim s ![] hb (constant (F := Ideal) S_ .f32 0x7F800000#32)))
          (constantI S_ 1 1#1) hr hu ValueIdx.ix0 = 1#1) :
    ∀ i, ∃ r : ℝ, x i = (r : EReal) :=
  fun i => elem_real hb x i (Host.reduce_andi_all _ _ hr hu _ h i)

/-- The precondition makes every entry of every argument a real. -/
theorem finite_of_pre [hF : Cert.Pre_finite_inputs.Facts] (a0 : FVec Ideal S2x2048x1024 .f32)
    (a1 a2 a3 a4 : FVec Ideal S1024x1024 .f32) (a5 : FVec Ideal S1024 .f32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real _ _ _ a0 e0, all_real _ _ _ a1 e1, all_real _ _ _ a2 e2, all_real _ _ _ a3 e3,
    all_real _ _ _ a4 e4, all_real _ _ _ a5 e5⟩

end Cert.FiniteInputs

end
-- ==== Proof.Bridge.lean ====
/-
  The two idealised programs end with equal results: both results are, entry by entry, the common formula — the kernel's
  with the kernel's attention rows, the reference's with the reference's — and for finite inputs the two row formulas
  agree. The precondition gives the finiteness.
-/
import proofs.«177362_j16192026706464_2_alg».proof.Defs
import proofs.«177362_j16192026706464_2_alg».proof.Proof.KernelSide
import proofs.«177362_j16192026706464_2_alg».proof.Proof.RefSide
import proofs.«177362_j16192026706464_2_alg».proof.Proof.FiniteInputs
import proofs.«177362_j16192026706464_2_alg».proof.Proof.Gen.KernelIdeal
import proofs.«177362_j16192026706464_2_alg».proof.Proof.Gen.ReferenceIdeal
import proofs.«177362_j16192026706464_2_alg».proof.Proof.Gen.Pre_finite_inputs

noncomputable section

namespace Cert.Bridge

open Idealize.ShloMosaic Idealize.ShloMosaic.TcCoe Idealize.ShloMosaic.ValueIdx Idealize.SL.Sem
open Cert.KernelIdeal Cert.KernelIdeal.Frame Cert.Common

/-- From memories agreeing on the arguments, under the precondition, the reference's result is the kernel program's. -/
theorem result_eq (m : (ℓ : Loc nD τ sig) → Buf (Elt Ideal) ℓ) (ρ : Dev nD → PrngReg)
    (m' : (ℓ : Loc Cert.ReferenceIdeal.nD Cert.ReferenceIdeal.τ Cert.ReferenceIdeal.sig) → Buf (Elt Ideal) ℓ)
    (hpre : Cert.Pre_KernelIdeal (hPre_finite_inputs := Cert.Pre_finite_inputs.Gen.facts) m) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    Cert.ReferenceIdeal.Value.res_main_v29 (F := Ideal) m' c = B7 (F := Ideal) m ρ c (Proc.devRef .tc main_v21) := by
  obtain ⟨f0, f1, f2, f3, -, -⟩ := Cert.FiniteInputs.finite_of_pre (hF := Cert.Pre_finite_inputs.Gen.facts) _ _ _ _ _ _ (hpre c)
  funext i
  rw [eq_ix3 i]
  refine (Cert.RefSide.ref_entry m' c _ _ _).trans ?_
  rw [h0, h1, h2, h3, h4, h5]
  refine Eq.trans ?_ (Cert.KernelSide.kernel_entry m ρ c _ _ _).symm
  exact congrArg (fun A => result A (m ((c.tc : Thread nD τ).loc main_arg4)) (m ((c.tc : Thread nD τ).loc main_arg5)) _ _ _)
    (funext fun b => funext fun h => funext fun q => funext fun d =>
      (attnK_eq_attnR _ _ _ _ f0 f1 f2 f3 b h q d).symm)

/-- The algebraic claim: both idealised programs run, end with equal results and keep their arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => B7 (F := Ideal) m ρ c (Proc.devRef .tc main_v21), ?_, ?_⟩
  · exact (θ_run defs _ _).mono (fun r h c =>
      ⟨h c _ (mem_uc main_v21 (by decide)),
       (h c _ (mem_uc main_arg0 (by decide))).trans (B7_main_arg0 m ρ c),
       (h c _ (mem_uc main_arg1 (by decide))).trans (B7_main_arg1 m ρ c),
       (h c _ (mem_uc main_arg2 (by decide))).trans (B7_main_arg2 m ρ c),
       (h c _ (mem_uc main_arg3 (by decide))).trans (B7_main_arg3 m ρ c),
       (h c _ (mem_uc main_arg4 (by decide))).trans (B7_main_arg4 m ρ c),
       (h c _ (mem_uc main_arg5 (by decide))).trans (B7_main_arg5 m ρ c)⟩) (run_all m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5⟩ := hagree c
    exact result_eq m ρ m' hpre c h0 h1 h2 h3 h4 h5

end Cert.Bridge

end
-- ==== Proof.lean ====
/-
  Multi-head self-attention (batch 2, sequence 2048, model width 1024, 16 heads of width 64): a three-stage kernel
  program — one fused projection x·[W_qᵀ | W_kᵀ | W_vᵀ] tiled by rows, attention per (batch, head, query tile) with the
  scale 1/8 folded into the queries and the softmax normalisation applied after the product with the values, and the
  output projection plus bias tiled by rows — against the plain reference softmax(Q Kᵀ / 8) V W_oᵀ + b_o.

  The three frame claims: each program runs to its end, faults nowhere and leaves its argument arrays as launched. For
  the two kernel programs this is the several-region run of the pipeline library over the three pallas_calls and the
  four stretches of host operations (one text, read at the word-level and at the extended-real instance); for the
  reference it is its run with the result dropped. The idealisation rewrote nothing, so there is nothing to preserve.
  Over the extended reals the two results agree index by index: the projections are the same sums; for finite inputs
  every score is a real number, (q·⅛)·k = (q·k)/8, the row maxima agree, and
  (∑ⱼ pⱼ vⱼ)·(1/∑ⱼ pⱼ) = ∑ⱼ (pⱼ/∑ pⱼ) vⱼ because ∑ⱼ pⱼ is a positive real.
-/
import proofs.«177362_j16192026706464_2_alg».proof.Defs
import proofs.«177362_j16192026706464_2_alg».proof.Proof.Gen.Kernel
import proofs.«177362_j16192026706464_2_alg».proof.Proof.Gen.KernelIdeal
import proofs.«177362_j16192026706464_2_alg».proof.Proof.Gen.ReferenceIdeal
import proofs.«177362_j16192026706464_2_alg».proof.Proof.Gen.Pre_finite_inputs
import proofs.«177362_j16192026706464_2_alg».proof.Proof.Gen.ReferenceIdeal.Run
import proofs.«177362_j16192026706464_2_alg».proof.Proof.KRun
import proofs.«177362_j16192026706464_2_alg».proof.Proof.IRun
import proofs.«177362_j16192026706464_2_alg».proof.Proof.Bridge
import Idealize.ShloMosaic.Adequacy
import Idealize.ShloMosaic.Init

noncomputable section

namespace Cert.Proof

open Idealize.ShloMosaic Idealize.SL.Sem

/-- The word-level kernel program runs and keeps its arguments: the several-region run. -/
theorem frame_k : Cert.frame_Kernel (hKernel := Cert.Kernel.Gen.facts) (hPre_finite_inputs := Cert.Pre_finite_inputs.Gen.facts) :=
  fun m ρ _ => Cert.Kernel.Frame.frame m ρ

/-- The same text read over the extended reals runs and keeps its arguments. -/
theorem frame_ki : Cert.frame_KernelIdeal (hKernelIdeal := Cert.KernelIdeal.Gen.facts) (hPre_finite_inputs := Cert.Pre_finite_inputs.Gen.facts) :=
  fun m ρ _ => Cert.KernelIdeal.Frame.frame m ρ

/-- The reference is host operations only: its run, with the result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_k, frame_ki, frame_ri, trivial, Cert.Bridge.algebraic⟩

end Cert.Proof

end
